-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S20000x1024 : Shape := ⟨2, ![20000, 1024]⟩
abbrev S2000000 : Shape := ⟨1, ![2000000]⟩
abbrev S500000 : Shape := ⟨1, ![500000]⟩
abbrev S1024x64 : Shape := ⟨2, ![1024, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S20000x1024 : S_.BroadcastsInDim S20000x1024 (![] : Fin 0 → Fin S20000x1024.rank)
  reducesTo_S20000x1024_S_d0_1 : S20000x1024.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg22 : FVec F S128x2 .f32) (main_arg23 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x2 .f32 := Host.absf main_arg22
  let main_cst_34 : FVec F S_ .f32 := constant S_ .f32 0x7F800000#32
  let main_v90 : FVec F S128x2 .f32 := broadcastInDim S128x2 ![] bcast_S_S128x2 main_cst_34
  let main_v91 : IVec S128x2 1 := cmpf .olt main_v89 main_v90
  let main_c_35 : IVec S_ 1 := constantI S_ 1 1#1
  let main_v92 : IVec S_ 1 := (fun x v => Host.reduce IntOp.andi x v reducesTo_S128x2_S_d0_1 h_S_) main_v91 main_c_35
  let main_v93 : IVec S_ 1 := andi main_v88 main_v92
  let main_v94 : FVec F S2 .f32 := Host.absf main_arg23
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg18 : FVec F S64 .f32) (main_arg19 : FVec F S64x64 .f32) (main_arg20 : FVec F S64x64 .f32) (main_arg21 : FVec F S64 .f32) (main_arg22 : FVec F S128x2 .f32) (main_arg23 : FVec F S2 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg19
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg20
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_v83 main_v84 main_cst_32

def fn_part3 {F : FTy → Type} [FloatOps F] (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S128x2 .f32) (main_arg23 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg17
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg18 main_arg19 main_arg20 main_arg21 main_arg22 main_arg23 main_v63 main_v67

def fn_part2 {F : FTy → Type} [FloatOps F] (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S128x2 .f32) (main_arg23 : FVec F S2 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_arg20 main_arg21 main_arg22 main_arg23 main_v48 main_v49 main_v50

def fn_part1 {F : FTy → Type} [FloatOps F] (main_arg8 : FVec F S1024x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S128x2 .f32) (main_arg23 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1024x64 .f32 := Host.absf main_arg8
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_v33

def fn {F : FTy → Type} [FloatOps F] (main_arg0 : FVec F S50000x1024 .f32) (main_arg1 : FVec F S20000x1024 .f32) (main_arg2 : IVec S2000000 32) (main_arg3 : IVec S2000000 32) (main_arg4 : IVec S500000 32) (main_arg5 : IVec S500000 32) (main_arg6 : FVec F S1024x64 .f32) (main_arg7 : FVec F S64 .f32) (main_arg8 : FVec F S1024x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S64x64 .f32) (main_arg21 : FVec F S64 .f32) (main_arg22 : FVec F S128x2 .f32) (main_arg23 : FVec F S2 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S20000x1024 .f32 := Host.absf main_arg1
  let main_cst_0 : FVec F S_ .f32 := constant S_ .f32 0x7F800000#32
  let main_v5 : FVec F S20000x1024 .f32 := broadcastInDim S20000x1024 ![] bcast_S_S20000x1024 main_cst_0
  let main_v6 : IVec S20000x1024 1 := cmpf .olt main_v4 main_v5
  let main_c_1 : IVec S_ 1 := constantI S_ 1 1#1
  let main_v7 : IVec S_ 1 := (fun x v => Host.reduce IntOp.andi x v reducesTo_S20000x1024_S_d0_1 h_S_) main_v6 main_c_1
  let main_v8 : IVec S_ 1 := andi main_v3 main_v7
  let main_v9 : FVec F S1024x64 .f32 := Host.absf main_arg6
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x1024 : Shape := ⟨2, ![50000, 1024]⟩
abbrev S20000x1024 : Shape := ⟨2, ![20000, 1024]⟩
abbrev S2000000 : Shape := ⟨1, ![2000000]⟩
abbrev S500000 : Shape := ⟨1, ![500000]⟩
abbrev S1024x64 : Shape := ⟨2, ![1024, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S1x64 : Shape := ⟨2, ![1, 64]⟩
abbrev S50000x64 : Shape := ⟨2, ![50000, 64]⟩
abbrev S2000x1024 : Shape := ⟨2, ![2000, 1024]⟩
abbrev S2000x64 : Shape := ⟨2, ![2000, 64]⟩
abbrev S20000x64 : Shape := ⟨2, ![20000, 64]⟩
abbrev S_ : Shape := ⟨0, ![]⟩
abbrev S2000000x1 : Shape := ⟨2, ![2000000, 1]⟩
abbrev S20000x1 : Shape := ⟨2, ![20000, 1]⟩
abbrev S50000x1 : Shape := ⟨2, ![50000, 1]⟩
abbrev S2000000x64 : Shape := ⟨2, ![2000000, 64]⟩
abbrev S5000x64 : Shape := ⟨2, ![5000, 64]⟩
abbrev S5000x1 : Shape := ⟨2, ![5000, 1]⟩
abbrev S64x2 : Shape := ⟨2, ![64, 2]⟩
abbrev S1x2 : Shape := ⟨2, ![1, 2]⟩
abbrev S50000x2 : Shape := ⟨2, ![50000, 2]⟩
abbrev S10000x64 : Shape := ⟨2, ![10000, 64]⟩
abbrev S10000x2 : Shape := ⟨2, ![10000, 2]⟩
abbrev S20000x2 : Shape := ⟨2, ![20000, 2]⟩
abbrev S500000x1 : Shape := ⟨2, ![500000, 1]⟩
abbrev S500000x2 : Shape := ⟨2, ![500000, 2]⟩

abbrev nBuf : Space → Nat
  | .hbm => 141
  | .vmem => 68
  | .smem => 0
  | _ => 0

abbrev hbmTy0_0 (i : Nat) : BufTy := match i % 128 with
  | 0 => ⟨S50000x1024, .f32⟩
  | 1 => ⟨S20000x1024, .f32⟩
  | 2 => ⟨S2000000, .i32⟩
  | 3 => ⟨S2000000, .i32⟩
  | 4 => ⟨S500000, .i32⟩
  | 5 => ⟨S500000, .i32⟩
  | 6 => ⟨S1024x64, .f32⟩
  | 7 => ⟨S64, .f32⟩
  | 8 => ⟨S1024x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S64x64, .f32⟩
  | 21 => ⟨S64, .f32⟩
  | 22 => ⟨S128x2, .f32⟩
  | 23 => ⟨S2, .f32⟩
  | 24 => ⟨S1x64, .f32⟩
  | 25 => ⟨S50000x64, .bf16⟩
  | 26 => ⟨S1x64, .f32⟩
  | 27 => ⟨S20000x64, .bf16⟩
  | 28 => ⟨S_, .f32⟩
  | 29 => ⟨S2000000x1, .f32⟩
  | 30 => ⟨S_, .f32⟩
  | 31 => ⟨S20000x1, .f32⟩
  | 32 => ⟨S2000000x1, .i32⟩
  | 33 => ⟨S20000x1, .f32⟩
  | 34 => ⟨S_, .f32⟩
  | 35 => ⟨S20000x1, .f32⟩
  | 36 => ⟨S20000x1, .f32⟩
  | 37 => ⟨S_, .f32⟩
  | 38 => ⟨S50000x1, .f32⟩
  | 39 => ⟨S2000000x1, .i32⟩
  | 40 => ⟨S50000x1, .f32⟩
  | 41 => ⟨S_, .f32⟩
  | 42 => ⟨S50000x1, .f32⟩
  | 43 => ⟨S50000x1, .f32⟩
  | 44 => ⟨S_, .f32⟩
  | 45 => ⟨S20000x1, .f32⟩
  | 46 => ⟨S20000x1, .f32⟩
  | 47 => ⟨S_, .f32⟩
  | 48 => ⟨S50000x1, .f32⟩
  | 49 => ⟨S50000x1, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x64, .bf16⟩
  | 59 => ⟨S2000000x64, .f32⟩
  | 60 => ⟨S_, .f32⟩
  | 61 => ⟨S20000x64, .f32⟩
  | 62 => ⟨S2000000x1, .i32⟩
  | 63 => ⟨S20000x64, .f32⟩
  | 64 => ⟨S1x64, .f32⟩
  | 65 => ⟨S20000x64, .bf16⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x64, .bf16⟩
  | 75 => ⟨S2000000x64, .f32⟩
  | 76 => ⟨S_, .f32⟩
  | 77 => ⟨S50000x64, .f32⟩
  | 78 => ⟨S2000000x1, .i32⟩
  | 79 => ⟨S50000x64, .f32⟩
  | 80 => ⟨S1x64, .f32⟩
  | 81 => ⟨S50000x64, .bf16⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x64, .bf16⟩
  | 91 => ⟨S2000000x64, .f32⟩
  | 92 => ⟨S_, .f32⟩
  | 93 => ⟨S20000x64, .f32⟩
  | 94 => ⟨S2000000x1, .i32⟩
  | 95 => ⟨S20000x64, .f32⟩
  | 96 => ⟨S1x64, .f32⟩
  | 97 => ⟨S20000x64, .bf16⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x64, .bf16⟩
  | 107 => ⟨S2000000x64, .f32⟩
  | 108 => ⟨S_, .f32⟩
  | 109 => ⟨S50000x64, .f32⟩
  | 110 => ⟨S2000000x1, .i32⟩
  | 111 => ⟨S50000x64, .f32⟩
  | 112 => ⟨S1x64, .f32⟩
  | 113 => ⟨S50000x64, .bf16⟩
  | 114 => ⟨S64x2, .f32⟩
  | 115 => ⟨S64x2, .f32⟩
  | 116 => ⟨S_, .f32⟩
  | 117 => ⟨S2, .f32⟩
  | 118 => ⟨S1x2, .f32⟩
  | 119 => ⟨S50000x2, .f32⟩
  | 120 => ⟨S1x2, .f32⟩
  | 121 => ⟨S20000x2, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S50000x1024, .f32⟩

abbrev hbmTy0_1 (i : Nat) : BufTy := match i % 128 with
  | 0 => ⟨S500000, .i32⟩
  | 1 => ⟨S500000x1, .i32⟩
  | 2 => ⟨S500000x2, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x2, .f32⟩
  | 12 => ⟨S500000x2, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S1x64, .f32⟩
  | .local _ .vmem, ⟨4, _⟩ => ⟨S2000x64, .bf16⟩
  | .local _ .vmem, ⟨5, _⟩ => ⟨S2000x64, .bf16⟩
  | .local _ .vmem, ⟨6, _⟩ => ⟨S2000x1024, .f32⟩
  | .local _ .vmem, ⟨7, _⟩ => ⟨S2000x1024, .f32⟩
  | .local _ .vmem, ⟨8, _⟩ => ⟨S1024x64, .f32⟩
  | .local _ .vmem, ⟨9, _⟩ => ⟨S1x64, .f32⟩
  | .local _ .vmem, ⟨10, _⟩ => ⟨S2000x64, .bf16⟩
  | .local _ .vmem, ⟨11, _⟩ => ⟨S2000x64, .bf16⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S5000x64, .bf16⟩
  | .local _ .vmem, ⟨17, _⟩ => ⟨S5000x64, .bf16⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S5000x64, .bf16⟩
  | .local _ .vmem, ⟨28, _⟩ => ⟨S5000x64, .bf16⟩
  | .local _ .vmem, ⟨29, _⟩ => ⟨S64x64, .f32⟩
  | .local _ .vmem, ⟨30, _⟩ => ⟨S64x64, .f32⟩
  | .local _ .vmem, ⟨31, _⟩ => ⟨S1x64, .f32⟩
  | .local _ .vmem, ⟨32, _⟩ => ⟨S5000x64, .bf16⟩
  | .local _ .vmem, ⟨33, _⟩ => ⟨S5000x64, .bf16⟩
  | .local _ .vmem, ⟨34, _⟩ => ⟨S5000x64, .f32⟩
  | .local _ .vmem, ⟨35, _⟩ => ⟨S5000x64, .f32⟩
  | .local _ .vmem, ⟨36, _⟩ => ⟨S5000x1, .f32⟩
  | .local _ .vmem, ⟨37, _⟩ => ⟨S5000x1, .f32⟩
  | .local _ .vmem, ⟨38, _⟩ => ⟨S5000x64, .bf16⟩
  | .local _ .vmem, ⟨39, _⟩ => ⟨S5000x64, .bf16⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S5000x64, .bf16⟩
  | .local _ .vmem, ⟨44, _⟩ => ⟨S5000x64, .bf16⟩
  | .local _ .vmem, ⟨45, _⟩ => ⟨S5000x64, .f32⟩
  | .local _ .vmem, ⟨46, _⟩ => ⟨S5000x64, .f32⟩
  | .local _ .vmem, ⟨47, _⟩ => ⟨S5000x1, .f32⟩
  | .local _ .vmem, ⟨48, _⟩ => ⟨S5000x1, .f32⟩
  | .local _ .vmem, ⟨49, _⟩ => ⟨S5000x64, .bf16⟩
  | .local _ .vmem, ⟨50, _⟩ => ⟨S5000x64, .bf16⟩
  | .local _ .vmem, ⟨51, _⟩ => ⟨S64x64, .f32⟩
  | .local _ .vmem, ⟨52, _⟩ => ⟨S64x64, .f32⟩
  | .local _ .vmem, ⟨53, _⟩ => ⟨S1x64, .f32⟩
  | .local _ .vmem, ⟨54, _⟩ => ⟨S5000x64, .bf16⟩
  | .local _ .vmem, ⟨55, _⟩ => ⟨S5000x64, .bf16⟩
  | .local _ .vmem, ⟨56, _⟩ => ⟨S10000x64, .bf16⟩
  | .local _ .vmem, ⟨57, _⟩ => ⟨S10000x64, .bf16⟩
  | .local _ .vmem, ⟨58, _⟩ => ⟨S64x2, .f32⟩
  | .local _ .vmem, ⟨59, _⟩ => ⟨S1x2, .f32⟩
  | .local _ .vmem, ⟨60, _⟩ => ⟨S10000x2, .f32⟩
  | .local _ .vmem, ⟨61, _⟩ => ⟨S10000x2, .f32⟩
  | .local _ .vmem, ⟨62, _⟩ => ⟨S10000x64, .bf16⟩
  | .local _ .vmem, ⟨63, _⟩ => ⟨S10000x64, .bf16⟩
  | .local _ .vmem, ⟨64, _⟩ => ⟨S64x2, .f32⟩
  | .local _ .vmem, ⟨65, _⟩ => ⟨S1x2, .f32⟩
  | .local _ .vmem, ⟨66, _⟩ => ⟨S10000x2, .f32⟩
  | .local _ .vmem, ⟨67, _⟩ => ⟨S10000x2, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩
abbrev main_v14 : Ref sig .tc := ⟨.hbm, 43, rfl⟩
abbrev main_cst_4 : Ref sig .tc := ⟨.hbm, 44, rfl⟩
abbrev main_v15 : Ref sig .tc := ⟨.hbm, 45, rfl⟩
abbrev main_v16 : Ref sig .tc := ⟨.hbm, 46, rfl⟩
abbrev main_cst_5 : Ref sig .tc := ⟨.hbm, 47, rfl⟩
abbrev main_v17 : Ref sig .tc := ⟨.hbm, 48, rfl⟩
abbrev main_v18 : Ref sig .tc := ⟨.hbm, 49, rfl⟩
abbrev main_c : Ref sig .tc := ⟨.hbm, 50, rfl⟩
abbrev main_v19 : Ref sig .tc := ⟨.hbm, 51, rfl⟩
abbrev main_v20 : Ref sig .tc := ⟨.hbm, 52, rfl⟩
abbrev main_c_6 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_7 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_c_9 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_11 : Ref sig .tc := ⟨.hbm, 82, rfl⟩
abbrev main_v45 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_14 : Ref sig .tc := ⟨.hbm, 98, rfl⟩
abbrev main_v58 : Ref sig .tc := ⟨.hbm, 99, rfl⟩
abbrev main_v59 : Ref sig .tc := ⟨.hbm, 100, rfl⟩
abbrev main_c_15 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_16 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_17 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_18 : Ref sig .tc := ⟨.hbm, 122, rfl⟩
abbrev main_v78 : Ref sig .tc := ⟨.hbm, 123, rfl⟩
abbrev main_v79 : Ref sig .tc := ⟨.hbm, 124, rfl⟩
abbrev main_c_19 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_20 : Ref sig .tc := ⟨.hbm, 131, rfl⟩
abbrev main_v85 : Ref sig .tc := ⟨.hbm, 132, rfl⟩
abbrev main_v86 : Ref sig .tc := ⟨.hbm, 133, rfl⟩
abbrev main_c_21 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem3_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  shapeCasts_S64_S1x64 : S64.ShapeCasts S1x64
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S2000000x1 : S_.BroadcastsInDim S2000000x1 (![] : Fin 0 → Fin S2000000x1.rank)
  bcast_S_S20000x1 : S_.BroadcastsInDim S20000x1 (![] : Fin 0 → Fin S20000x1.rank)
  bcast_S2000000_S2000000x1_0 : S2000000.BroadcastsInDim S2000000x1 (![0] : Fin 1 → Fin S2000000x1.rank)
  bcast_S_S50000x1 : S_.BroadcastsInDim S50000x1 (![] : Fin 0 → Fin S50000x1.rank)
  bcast_S_S2000000 : S_.BroadcastsInDim S2000000 (![] : Fin 0 → Fin S2000000.rank)
  bcast_S_S20000x64 : S_.BroadcastsInDim S20000x64 (![] : Fin 0 → Fin S20000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  slices_S128x2_S64x2_0_0 : S128x2.Slices ![0, 0] S64x2
  slices_S128x2_S64x2_64_0 : S128x2.Slices ![64, 0] S64x2
  bcast_S_S2 : S_.BroadcastsInDim S2 (![] : Fin 0 → Fin S2.rank)
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  bcast_S_S500000 : S_.BroadcastsInDim S500000 (![] : Fin 0 → Fin S500000.rank)
  bcast_S500000_S500000x1_0 : S500000.BroadcastsInDim S500000x1 (![0] : Fin 1 → Fin S500000x1.rank)
  dot_S2000x1024_S1024x64_S2000x64_1_0_0_1_n_n_wf : DotDims.WF S2000x1024 S1024x64 S2000x64 [1] [0] [0] [1] [] []
  scatter_S20000x1_S2000000x1_S2000000x1_1_0_0_1_wf : ScatterDims.WF S20000x1 S2000000x1 S2000000x1 [1] [0] [0] 1
  scatter_S50000x1_S2000000x1_S2000000x1_1_0_0_1_wf : ScatterDims.WF S50000x1 S2000000x1 S2000000x1 [1] [0] [0] 1
  gather_S50000x64_S2000000x1_S2000000x64_1_0_n_n_0_1_164_wf : GatherDims.WF S50000x64 S2000000x1 S2000000x64 [1] [0] [] [0] [] 1 ![1, 64]
  scatter_S20000x64_S2000000x1_S2000000x64_1_0_0_1_wf : ScatterDims.WF S20000x64 S2000000x1 S2000000x64 [1] [0] [0] 1
  dot_S5000x64_S64x64_S5000x64_1_0_0_1_n_n_wf : DotDims.WF S5000x64 S64x64 S5000x64 [1] [0] [0] [1] [] []
  gather_S20000x64_S2000000x1_S2000000x64_1_0_n_n_0_1_164_wf : GatherDims.WF S20000x64 S2000000x1 S2000000x64 [1] [0] [] [0] [] 1 ![1, 64]
  scatter_S50000x64_S2000000x1_S2000000x64_1_0_0_1_wf : ScatterDims.WF S50000x64 S2000000x1 S2000000x64 [1] [0] [0] 1
  dot_S10000x64_S64x2_S10000x2_1_0_0_1_n_n_wf : DotDims.WF S10000x64 S64x2 S10000x2 [1] [0] [0] [1] [] []
  gather_S50000x2_S500000x1_S500000x2_1_0_n_n_0_1_12_wf : GatherDims.WF S50000x2 S500000x1 S500000x2 [1] [0] [] [0] [] 1 ![1, 2]
  gather_S20000x2_S500000x1_S500000x2_1_0_n_n_0_1_12_wf : GatherDims.WF S20000x2 S500000x1 S500000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S20000x1024.size a
  hwx1_0 : ∀ i : grid1.Coords, EltTy.bits .f32 = 32 ∨ (Rect.block (s := S20000x1024) S2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S20000x64.size a
  hwx1_3 : ∀ i : grid1.Coords, EltTy.bits .bf16 = 32 ∨ (Rect.block (s := S20000x64) S2000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S20000x64.size a
  hwx2_0 : ∀ i : grid2.Coords, EltTy.bits .f32 = 32 ∨ (Rect.block (s := S20000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S20000x1.size a
  hwx2_1 : ∀ i : grid2.Coords, EltTy.bits .f32 = 32 ∨ (Rect.block (s := S20000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S20000x64.size a
  hwx2_2 : ∀ i : grid2.Coords, EltTy.bits .bf16 = 32 ∨ (Rect.block (s := S20000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S20000x64.size a
  hwx2_6 : ∀ i : grid2.Coords, EltTy.bits .bf16 = 32 ∨ (Rect.block (s := S20000x64) S5000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .bf16 = 32 ∨ (Rect.block (s := S50000x64) S5000x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .bf16 = 32 ∨ (Rect.block (s := S50000x64) S5000x64.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S20000x64.size a
  hwx4_0 : ∀ i : grid4.Coords, EltTy.bits .f32 = 32 ∨ (Rect.block (s := S20000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S20000x1.size a
  hwx4_1 : ∀ i : grid4.Coords, EltTy.bits .f32 = 32 ∨ (Rect.block (s := S20000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S20000x64.size a
  hwx4_2 : ∀ i : grid4.Coords, EltTy.bits .bf16 = 32 ∨ (Rect.block (s := S20000x64) S5000x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S20000x64.size a
  hwx4_6 : ∀ i : grid4.Coords, EltTy.bits .bf16 = 32 ∨ (Rect.block (s := S20000x64) S5000x64.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .bf16 = 32 ∨ (Rect.block (s := S50000x64) S5000x64.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .bf16 = 32 ∨ (Rect.block (s := S50000x64) S5000x64.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .bf16 = 32 ∨ (Rect.block (s := S50000x64) S10000x64.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S50000x2.size a
  hwx6_3 : ∀ i : grid6.Coords, EltTy.bits .f32 = 32 ∨ (Rect.block (s := S50000x2) S10000x2.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S20000x64.size a
  hwx7_0 : ∀ i : grid7.Coords, EltTy.bits .bf16 = 32 ∨ (Rect.block (s := S20000x64) S10000x64.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x2.size a ≤ S64x2.size a
  hwx7_1 : ∀ i : grid7.Coords, EltTy.bits .f32 = 32 ∨ (Rect.block (s := S64x2) S64x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2.size a ≤ S1x2.size a
  hwx7_2 : ∀ i : grid7.Coords, EltTy.bits .f32 = 32 ∨ (Rect.block (s := S1x2) S1x2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x2.size a ≤ S20000x2.size a
  hwx7_3 : ∀ i : grid7.Coords, EltTy.bits .f32 = 32 ∨ (Rect.block (s := S20000x2) S10000x2.size (cc7_transform_3 i) (hinb7_3 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def scatter_S20000x1_S2000000x1_S2000000x1_1_0_0_1 : ScatterDims S20000x1 S2000000x1 S2000000x1 where
  updateWindowDims := [1]
  insertedWindowDims := [0]
  scatterDimsToOperandDims := [0]
  indexVectorDim := 1
  wf := scatter_S20000x1_S2000000x1_S2000000x1_1_0_0_1_wf
def scatter_S50000x1_S2000000x1_S2000000x1_1_0_0_1 : ScatterDims S50000x1 S2000000x1 S2000000x1 where
  updateWindowDims := [1]
  insertedWindowDims := [0]
  scatterDimsToOperandDims := [0]
  indexVectorDim := 1
  wf := scatter_S50000x1_S2000000x1_S2000000x1_1_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S20000x64_S2000000x1_S2000000x64_1_0_0_1 : ScatterDims S20000x64 S2000000x1 S2000000x64 where
  updateWindowDims := [1]
  insertedWindowDims := [0]
  scatterDimsToOperandDims := [0]
  indexVectorDim := 1
  wf := scatter_S20000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S20000x64_S2000000x1_S2000000x64_1_0_n_n_0_1_164 : GatherDims S20000x64 S2000000x1 S2000000x64 where
  offsetDims := [1]
  collapsedSliceDims := [0]
  operandBatchingDims := []
  startIndicesBatchingDims := []
  startIndexMap := [0]
  indexVectorDim := 1
  sliceSizes := ![1, 64]
  wf := gather_S20000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S50000x2_S500000x1_S500000x2_1_0_n_n_0_1_12 : GatherDims S50000x2 S500000x1 S500000x2 where
  offsetDims := [1]
  collapsedSliceDims := [0]
  operandBatchingDims := []
  startIndicesBatchingDims := []
  startIndexMap := [0]
  indexVectorDim := 1
  sliceSizes := ![1, 2]
  wf := gather_S50000x2_S500000x1_S500000x2_1_0_n_n_0_1_12_wf
def gather_S20000x2_S500000x1_S500000x2_1_0_n_n_0_1_12 : GatherDims S20000x2 S500000x1 S500000x2 where
  offsetDims := [1]
  collapsedSliceDims := [0]
  operandBatchingDims := []
  startIndicesBatchingDims := []
  startIndexMap := [0]
  indexVectorDim := 1
  sliceSizes := ![1, 2]
  wf := gather_S20000x2_S500000x1_S500000x2_1_0_n_n_0_1_12_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v55) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v70) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v75) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v57) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S64x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v77) S10000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x1024 : Shape := ⟨2, ![50000, 1024]⟩
abbrev S20000x1024 : Shape := ⟨2, ![20000, 1024]⟩
abbrev S2000000 : Shape := ⟨1, ![2000000]⟩
abbrev S500000 : Shape := ⟨1, ![500000]⟩
abbrev S1024x64 : Shape := ⟨2, ![1024, 64]⟩
abbrev S64 : Shape := ⟨1, ![64]⟩
abbrev S64x64 : Shape := ⟨2, ![64, 64]⟩
abbrev S128x2 : Shape := ⟨2, ![128, 2]⟩
abbrev S2 : Shape := ⟨1, ![2]⟩
abbrev S50000x64 : Shape := ⟨2, ![50000, 64]⟩
abbrev S1x64 : Shape := ⟨2, ![1, 64]⟩
abbrev S20000x64 : Shape := ⟨2, ![20000, 64]⟩
abbrev S_ : Shape := ⟨0, ![]⟩
abbrev S2000000x1 : Shape := ⟨2, ![2000000, 1]⟩
abbrev S2000000x64 : Shape := ⟨2, ![2000000, 64]⟩
abbrev S20000x1 : Shape := ⟨2, ![20000, 1]⟩
abbrev S50000x1 : Shape := ⟨2, ![50000, 1]⟩
abbrev S500000x1 : Shape := ⟨2, ![500000, 1]⟩
abbrev S500000x64 : Shape := ⟨2, ![500000, 64]⟩
abbrev S500000x128 : Shape := ⟨2, ![500000, 128]⟩
abbrev S500000x2 : Shape := ⟨2, ![500000, 2]⟩
abbrev S1x2 : Shape := ⟨2, ![1, 2]⟩

abbrev nBuf : Space → Nat
  | .hbm => 187
  | .vmem => 0
  | .smem => 0
  | _ => 0

abbrev hbmTy0_0 (i : Nat) : BufTy := match i % 128 with
  | 0 => ⟨S50000x1024, .f32⟩
  | 1 => ⟨S20000x1024, .f32⟩
  | 2 => ⟨S2000000, .i32⟩
  | 3 => ⟨S2000000, .i32⟩
  | 4 => ⟨S500000, .i32⟩
  | 5 => ⟨S500000, .i32⟩
  | 6 => ⟨S1024x64, .f32⟩
  | 7 => ⟨S64, .f32⟩
  | 8 => ⟨S1024x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S64x64, .f32⟩
  | 21 => ⟨S64, .f32⟩
  | 22 => ⟨S128x2, .f32⟩
  | 23 => ⟨S2, .f32⟩
  | 24 => ⟨S50000x64, .f32⟩
  | 25 => ⟨S1x64, .f32⟩
  | 26 => ⟨S50000x64, .f32⟩
  | 27 => ⟨S50000x64, .f32⟩
  | 28 => ⟨S20000x64, .f32⟩
  | 29 => ⟨S1x64, .f32⟩
  | 30 => ⟨S20000x64, .f32⟩
  | 31 => ⟨S20000x64, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x64, .f32⟩
  | 41 => ⟨S_, .f32⟩
  | 42 => ⟨S20000x64, .f32⟩
  | 43 => ⟨S2000000x1, .i32⟩
  | 44 => ⟨S20000x64, .f32⟩
  | 45 => ⟨S_, .f32⟩
  | 46 => ⟨S2000000x1, .f32⟩
  | 47 => ⟨S_, .f32⟩
  | 48 => ⟨S20000x1, .f32⟩
  | 49 => ⟨S2000000x1, .i32⟩
  | 50 => ⟨S20000x1, .f32⟩
  | 51 => ⟨S_, .f32⟩
  | 52 => ⟨S20000x1, .f32⟩
  | 53 => ⟨S20000x1, .f32⟩
  | 54 => ⟨S20000x64, .f32⟩
  | 55 => ⟨S20000x64, .f32⟩
  | 56 => ⟨S20000x64, .f32⟩
  | 57 => ⟨S20000x64, .f32⟩
  | 58 => ⟨S20000x64, .f32⟩
  | 59 => ⟨S1x64, .f32⟩
  | 60 => ⟨S20000x64, .f32⟩
  | 61 => ⟨S20000x64, .f32⟩
  | 62 => ⟨S_, .f32⟩
  | 63 => ⟨S20000x64, .f32⟩
  | 64 => ⟨S20000x64, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S_, .f32⟩
  | 75 => ⟨S50000x64, .f32⟩
  | 76 => ⟨S2000000x1, .i32⟩
  | 77 => ⟨S50000x64, .f32⟩
  | 78 => ⟨S_, .f32⟩
  | 79 => ⟨S2000000x1, .f32⟩
  | 80 => ⟨S_, .f32⟩
  | 81 => ⟨S50000x1, .f32⟩
  | 82 => ⟨S2000000x1, .i32⟩
  | 83 => ⟨S50000x1, .f32⟩
  | 84 => ⟨S_, .f32⟩
  | 85 => ⟨S50000x1, .f32⟩
  | 86 => ⟨S50000x1, .f32⟩
  | 87 => ⟨S50000x64, .f32⟩
  | 88 => ⟨S50000x64, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x64, .f32⟩
  | 107 => ⟨S_, .f32⟩
  | 108 => ⟨S20000x64, .f32⟩
  | 109 => ⟨S2000000x1, .i32⟩
  | 110 => ⟨S20000x64, .f32⟩
  | 111 => ⟨S_, .f32⟩
  | 112 => ⟨S2000000x1, .f32⟩
  | 113 => ⟨S_, .f32⟩
  | 114 => ⟨S20000x1, .f32⟩
  | 115 => ⟨S2000000x1, .i32⟩
  | 116 => ⟨S20000x1, .f32⟩
  | 117 => ⟨S_, .f32⟩
  | 118 => ⟨S20000x1, .f32⟩
  | 119 => ⟨S20000x1, .f32⟩
  | 120 => ⟨S20000x64, .f32⟩
  | 121 => ⟨S20000x64, .f32⟩
  | 122 => ⟨S20000x64, .f32⟩
  | 123 => ⟨S20000x64, .f32⟩
  | 124 => ⟨S20000x64, .f32⟩
  | 125 => ⟨S1x64, .f32⟩
  | 126 => ⟨S20000x64, .f32⟩
  | 127 => ⟨S20000x64, .f32⟩
  | _ => ⟨S50000x1024, .f32⟩

abbrev hbmTy0_1 (i : Nat) : BufTy := match i % 128 with
  | 0 => ⟨S_, .f32⟩
  | 1 => ⟨S20000x64, .f32⟩
  | 2 => ⟨S20000x64, .f32⟩
  | 3 => ⟨S_, .i32⟩
  | 4 => ⟨S2000000, .i32⟩
  | 5 => ⟨S2000000, .i1⟩
  | 6 => ⟨S_, .i32⟩
  | 7 => ⟨S2000000, .i32⟩
  | 8 => ⟨S2000000, .i32⟩
  | 9 => ⟨S2000000, .i32⟩
  | 10 => ⟨S2000000x1, .i32⟩
  | 11 => ⟨S2000000x64, .f32⟩
  | 12 => ⟨S_, .f32⟩
  | 13 => ⟨S50000x64, .f32⟩
  | 14 => ⟨S2000000x1, .i32⟩
  | 15 => ⟨S50000x64, .f32⟩
  | 16 => ⟨S_, .f32⟩
  | 17 => ⟨S2000000x1, .f32⟩
  | 18 => ⟨S_, .f32⟩
  | 19 => ⟨S50000x1, .f32⟩
  | 20 => ⟨S2000000x1, .i32⟩
  | 21 => ⟨S50000x1, .f32⟩
  | 22 => ⟨S_, .f32⟩
  | 23 => ⟨S50000x1, .f32⟩
  | 24 => ⟨S50000x1, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x64, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x64, .f32⟩
  | 54 => ⟨S500000x128, .f32⟩
  | 55 => ⟨S500000x2, .f32⟩
  | 56 => ⟨S1x2, .f32⟩
  | 57 => ⟨S500000x2, .f32⟩
  | 58 => ⟨S500000x2, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_cst_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call0_cst : Ref sig .tc := ⟨.hbm, 62, rfl⟩
abbrev main_call0_v0 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_cst : Ref sig .tc := ⟨.hbm, 95, rfl⟩
abbrev main_call1_v0 : Ref sig .tc := ⟨.hbm, 96, rfl⟩
abbrev main_v57 : Ref sig .tc := ⟨.hbm, 97, rfl⟩
abbrev main_c_10 : Ref sig .tc := ⟨.hbm, 98, rfl⟩
abbrev main_v58 : Ref sig .tc := ⟨.hbm, 99, rfl⟩
abbrev main_v59 : Ref sig .tc := ⟨.hbm, 100, rfl⟩
abbrev main_c_11 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_12 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_13 : Ref sig .tc := ⟨.hbm, 111, rfl⟩
abbrev main_v68 : Ref sig .tc := ⟨.hbm, 112, rfl⟩
abbrev main_cst_14 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_15 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_call2_cst : Ref sig .tc := ⟨.hbm, 128, rfl⟩
abbrev main_call2_v0 : Ref sig .tc := ⟨.hbm, 129, rfl⟩
abbrev main_v82 : Ref sig .tc := ⟨.hbm, 130, rfl⟩
abbrev main_c_16 : Ref sig .tc := ⟨.hbm, 131, rfl⟩
abbrev main_v83 : Ref sig .tc := ⟨.hbm, 132, rfl⟩
abbrev main_v84 : Ref sig .tc := ⟨.hbm, 133, rfl⟩
abbrev main_c_17 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_18 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_cst_20 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_21 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_call3_cst : Ref sig .tc := ⟨.hbm, 161, rfl⟩
abbrev main_call3_v0 : Ref sig .tc := ⟨.hbm, 162, rfl⟩
abbrev main_v107 : Ref sig .tc := ⟨.hbm, 163, rfl⟩
abbrev main_c_22 : Ref sig .tc := ⟨.hbm, 164, rfl⟩
abbrev main_v108 : Ref sig .tc := ⟨.hbm, 165, rfl⟩
abbrev main_v109 : Ref sig .tc := ⟨.hbm, 166, rfl⟩
abbrev main_c_23 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c_24 : Ref sig .tc := ⟨.hbm, 173, rfl⟩
abbrev main_v115 : Ref sig .tc := ⟨.hbm, 174, rfl⟩
abbrev main_v116 : Ref sig .tc := ⟨.hbm, 175, rfl⟩
abbrev main_c_25 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S20000x64_0_1 : S1x64.BroadcastsInDim S20000x64 (![0, 1] : Fin 2 → Fin S20000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000x64 : S_.BroadcastsInDim S20000x64 (![] : Fin 0 → Fin S20000x64.rank)
  bcast_S_S2000000x1 : S_.BroadcastsInDim S2000000x1 (![] : Fin 0 → Fin S2000000x1.rank)
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S_S50000x64 : S_.BroadcastsInDim S50000x64 (![] : Fin 0 → Fin S50000x64.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S50000x1024_S1024x64_S50000x64_1_0_0_1_n_n_wf : DotDims.WF S50000x1024 S1024x64 S50000x64 [1] [0] [0] [1] [] []
  dot_S20000x1024_S1024x64_S20000x64_1_0_0_1_n_n_wf : DotDims.WF S20000x1024 S1024x64 S20000x64 [1] [0] [0] [1] [] []
  gather_S50000x64_S2000000x1_S2000000x64_1_0_n_n_0_1_164_wf : GatherDims.WF S50000x64 S2000000x1 S2000000x64 [1] [0] [] [0] [] 1 ![1, 64]
  scatter_S20000x64_S2000000x1_S2000000x64_1_0_0_1_wf : ScatterDims.WF S20000x64 S2000000x1 S2000000x64 [1] [0] [0] 1
  scatter_S20000x1_S2000000x1_S2000000x1_1_0_0_1_wf : ScatterDims.WF S20000x1 S2000000x1 S2000000x1 [1] [0] [0] 1
  dot_S20000x64_S64x64_S20000x64_1_0_0_1_n_n_wf : DotDims.WF S20000x64 S64x64 S20000x64 [1] [0] [0] [1] [] []
  gather_S20000x64_S2000000x1_S2000000x64_1_0_n_n_0_1_164_wf : GatherDims.WF S20000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000x1_S2000000x1_S2000000x1_1_0_0_1_wf : ScatterDims.WF S50000x1 S2000000x1 S2000000x1 [1] [0] [0] 1
  dot_S50000x64_S64x64_S50000x64_1_0_0_1_n_n_wf : DotDims.WF S50000x64 S64x64 S50000x64 [1] [0] [0] [1] [] []
  gather_S50000x64_S500000x1_S500000x64_1_0_n_n_0_1_164_wf : GatherDims.WF S50000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  dot_S500000x128_S128x2_S500000x2_1_0_0_1_n_n_wf : DotDims.WF S500000x128 S128x2 S500000x2 [1] [0] [0] [1] [] []

variable [Facts₀]

def dot_S50000x1024_S1024x64_S50000x64_1_0_0_1_n_n : DotDims S50000x1024 S1024x64 S50000x64 where
  lhsContracting := [1]
  rhsContracting := [0]
  lhsNonContracting := [0]
  rhsNonContracting := [1]
  lhsBatch := []
  rhsBatch := []
  wf := dot_S50000x1024_S1024x64_S50000x64_1_0_0_1_n_n_wf
def dot_S20000x1024_S1024x64_S20000x64_1_0_0_1_n_n : DotDims S20000x1024 S1024x64 S20000x64 where
  lhsContracting := [1]
  rhsContracting := [0]
  lhsNonContracting := [0]
  rhsNonContracting := [1]
  lhsBatch := []
  rhsBatch := []
  wf := dot_S20000x1024_S1024x64_S20000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S20000x64_S2000000x1_S2000000x64_1_0_0_1 : ScatterDims S20000x64 S2000000x1 S2000000x64 where
  updateWindowDims := [1]
  insertedWindowDims := [0]
  scatterDimsToOperandDims := [0]
  indexVectorDim := 1
  wf := scatter_S20000x64_S2000000x1_S2000000x64_1_0_0_1_wf
def scatter_S20000x1_S2000000x1_S2000000x1_1_0_0_1 : ScatterDims S20000x1 S2000000x1 S2000000x1 where
  updateWindowDims := [1]
  insertedWindowDims := [0]
  scatterDimsToOperandDims := [0]
  indexVectorDim := 1
  wf := scatter_S20000x1_S2000000x1_S2000000x1_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S20000x64_S2000000x1_S2000000x64_1_0_n_n_0_1_164 : GatherDims S20000x64 S2000000x1 S2000000x64 where
  offsetDims := [1]
  collapsedSliceDims := [0]
  operandBatchingDims := []
  startIndicesBatchingDims := []
  startIndexMap := [0]
  indexVectorDim := 1
  sliceSizes := ![1, 64]
  wf := gather_S20000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000x1_S2000000x1_S2000000x1_1_0_0_1 : ScatterDims S50000x1 S2000000x1 S2000000x1 where
  updateWindowDims := [1]
  insertedWindowDims := [0]
  scatterDimsToOperandDims := [0]
  indexVectorDim := 1
  wf := scatter_S50000x1_S2000000x1_S2000000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.KRun.lean ====
/-
  THE PROGRAM'S RUN WITH ITS RESULT KEPT.  Every weakly fair execution of the program's @main on the TensorCores
  terminates, nothing faulting, and ends with the result array at what the last stretch of host operations leaves in it
  — the fold of the program's seventeen segments (nine stretches of host operations, eight kernel regions) over the launch
  memory, read at the result's buffer — and with every argument array as launched.  The run is the library's run of a list
  of segments; each thread state between two segments says that every buffer the TensorCore keeps holds the boundary's
  contents, so the last one, read against the final memory, gives every such buffer's final contents, the result's among
  them.
-/
import proofs.«179018_j25391846654580_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_out : θ_run defs (onTc (τ := τ) (main (F := F))) ⟨m, fun _ => 0, ρ⟩ (fun r => ∀ c : Dev nD,
      r.2.mem ((c.tc : Thread nD τ).loc main_v92) = W17 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v92 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c)⟩)

end Cert.KernelIdeal.RunValue

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«179018_j25391846654580_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«179018_j25391846654580_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«179018_j25391846654580_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«179018_j25391846654580_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«179018_j25391846654580_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibPairLayer.lean ====
/-
  A DENSE LAYER WITH TWO INPUTS, at the ideal values.

  A node of a bipartite graph keeps its own feature row `x` and receives the mean `h` of its neighbours' rows; its new row
  is  `j ↦ ((∑ k, x k · ws k j) + (∑ k, h k · wn k j)) + b j`,  optionally rectified (the larger of each entry and
  zero).  Stated here for any number `R` of rows, any inner extent `K` and any width `N`, as one whole-array function
  `pairLayer x h ws wn b` built from the product `prodArr`, the entrywise sum `addArr` and the bias repeated on every
  row (`biasRows`).  Row `p` of the result depends only on row `p` of `x` and of `h` (`pairLayer_rows`), so the layer of
  a block of rows is that block of rows of the layer of the whole arrays.  Two spellings are shown equal to it:
  • on the vector unit, two matrix products into zero accumulators over operands whose change of format is the identity,
    added, plus a one-row bias `[1, N]` broadcast over the rows (`kpair`), and the same under the rectifier with a splat
    zero (`kpair_relu`);
  • on the host, two `dot_general`s added, plus the bias `[N]` broadcast to one row and then over the rows (`hpair`), and
    the same under the rectifier with the zero constant broadcast from a scalar (`hpair_relu`).
  The sums are compared term by term in the order written: no sum is regrouped and nothing is assumed finite.
-/
import proofs.«179018_j25391846654580_2_alg».proof.Proof.LibRowBias
import proofs.«179018_j25391846654580_2_alg».proof.Proof.LibProdRows

noncomputable section

open scoped BigOperators

namespace Cert.PairLayer

open Idealize.ShloMosaic Idealize.ShloMosaic.ValueIdx Cert.DenseRow Cert.RowBias Cert.ProdRows
open Cert.KernelIdeal.RegionValue (prodArr prodArr_apply)

/-! ## The bias on every row -/

/-- A vector of `N` numbers repeated on each of `R` rows. -/
def biasRows {R N : ℕ} (b : (⟨1, ![N]⟩ : Shape).Idx → EReal) : (⟨2, ![R, N]⟩ : Shape).Idx → EReal :=
  fun i => b (ix1 (i 1))

theorem biasRows_apply {R N : ℕ} (b : (⟨1, ![N]⟩ : Shape).Idx → EReal) (p : Fin R) (c : Fin N) :
    biasRows (R := R) b (ix2 p c) = b (ix1 c) := rfl

/-- On the vector unit: a one-row array cast to itself and broadcast over the rows repeats its row. -/
theorem kbias {R N : ℕ} (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    broadcastTo ⟨2, ![R, N]⟩ (shapeCast ⟨2, ![1, N]⟩ v hc) hb = biasRows (unrow v) := by
  funext i
  obtain ⟨p, c, rfl⟩ : ∃ (p : Fin R) (c : Fin N), i = ix2 p c := ⟨i 0, i 1, eq_ix2 i⟩
  rw [shapeCast_self, broadcastTo_1b_ab_apply]
  rfl

/-- On the host: a vector broadcast to one row and then over the rows repeats it. -/
theorem hbias {R N : ℕ} (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    broadcastInDim ⟨2, ![R, N]⟩ ![0, 1] h2 (broadcastInDim ⟨2, ![1, N]⟩ ![1] h1 b) = biasRows b := by
  funext i
  obtain ⟨p, c, rfl⟩ : ∃ (p : Fin R) (c : Fin N), i = ix2 p c := ⟨i 0, i 1, eq_ix2 i⟩
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  rfl

/-! ## The layer -/

/-- `x · ws + h · wn + b` on every row. -/
def pairLayer {R K N : ℕ} (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  addArr (addArr (prodArr x ws) (prodArr h wn)) (biasRows b)

theorem pairLayer_apply {R K N : ℕ} (x h : (⟨2, ![R, K]⟩ : Shape).Idx → EReal) (ws wn : (⟨2, ![K, N]⟩ : Shape).Idx → EReal)
    (b : (⟨1, ![N]⟩ : Shape).Idx → EReal) (p : Fin R) (c : Fin N) :
    pairLayer x h ws wn b (ix2 p c)
      = ((∑ k : Fin K, x (ix2 p k) * ws (ix2 k c)) + (∑ k : Fin K, h (ix2 p k) * wn (ix2 k c))) + b (ix1 c) := rfl

/-- Row `p` of the layer depends on row `p` of the two tall operands only. -/
theorem pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    pairLayer x h ws wn b (ix2 p c) = pairLayer X H ws wn b (ix2 p' c) := by
  rw [pairLayer_apply, pairLayer_apply]
  rw [show (∑ k : Fin K, x (ix2 p k) * ws (ix2 k c)) = ∑ k : Fin K, X (ix2 p' k) * ws (ix2 k c) from
      Finset.sum_congr rfl fun k _ => by rw [hx k],
    show (∑ k : Fin K, h (ix2 p k) * wn (ix2 k c)) = ∑ k : Fin K, H (ix2 p' k) * wn (ix2 k c) from
      Finset.sum_congr rfl fun k _ => by rw [hh k]]

/-- The same under the rectifier. -/
theorem relu_pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    actArr zf (pairLayer x h ws wn b) (ix2 p c) = actArr zf (pairLayer X H ws wn b) (ix2 p' c) :=
  actArr_rows zf _ _ p p' (fun j => pairLayer_rows x h X H ws wn b p p' hx hh j) c

/-! ## The vector unit's spelling -/

/-- Two products into zero accumulators over operands cast to themselves and changed of format, added, plus the one-row
    bias broadcast over the rows. -/
theorem kpair {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4)
      = pairLayer x0 x1 x2 x3 (unrow x4) := by
  rw [kbias, kprod, kprod, shapeCast_self, shapeCast_self]
  rfl

/-- The same under the rectifier: the larger of the layer and the zero word splat over it. -/
theorem kpair_relu {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    maximumf (addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4))
      (broadcast ⟨2, ![R, N]⟩ (Scalar.ofBits (F := Ideal) .f32 0x00000000#32))
      = actArr zf (pairLayer x0 x1 x2 x3 (unrow x4)) := by
  rw [kact, kpair]

/-! ## The host's spelling -/

/-- Two `dot_general`s added, plus the bias broadcast to one row and then over the rows. -/
theorem hpair {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b))
      = pairLayer x h ws wn b := by
  rw [hbias, hprod, hprod]
  rfl

/-- The same under the rectifier: the larger of the layer and the zero constant broadcast from a scalar. -/
theorem hpair_relu {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = actArr zf (pairLayer x h ws wn b) := by
  rw [hact, hpair]

end Cert.PairLayer

end
-- ==== Proof.Spec.lean ====
/-
  TWO ROUNDS OF MEAN AGGREGATION ON A BIPARTITE GRAPH AND A CLASSIFIER OF NODE PAIRS, as functions of whole arrays at the
  ideal values.

  The graph has 50000 nodes on one side and 20000 on the other, and 2000000 edges; each node carries a row of 64 numbers.
  One round gives a node the sum of its neighbours' rows divided by the number of its neighbours (at least one), and
  sends the pair (that mean, the node's own row) through a dense layer with two inputs and a rectifier.  After two rounds
  500000 pairs of nodes, one from each side, are classified by a dense layer on the two rows set side by side.

  How rows are collected along the edges (`gather`) and summed into nodes (`segsum`), how many edges meet each node
  (`count`), and which two nodes a pair names (`pairL`, `pairR`) are PARAMETERS here (`Graph`): nothing below depends on
  what they are.  Two spellings of the network are stated and shown equal:
  • the mean taken as  s · (1 / max(c, 1))  and the classifier as the sum of two per-node half classifiers read at the
    pair's two nodes (`outK`);
  • the mean taken as  s / max(c, 1)  and the classifier on the joined row of 128 numbers (`outR`).
  The first law is  s / d = s · (1 / d)  for every extended real s and every d other than zero, and max(c, 1) is at least
  one whatever c is: nothing needs to be finite.  The second splits a sum over 128 terms into its two halves and uses
  that the extended reals are a commutative monoid under addition, with 0 the value of the all-zero word.
-/
import proofs.«179018_j25391846654580_2_alg».proof.Proof.LibPairLayer

noncomputable section

open scoped BigOperators

namespace Cert.Sage

open Idealize.ShloMosaic Idealize.ShloMosaic.ValueIdx Cert.DenseRow Cert.RowBias Cert.ProdRows Cert.PairLayer
open Cert.KernelIdeal.RegionValue (prodArr prodArr_apply)

/-- An array of `R` rows and `C` columns of extended reals. -/
abbrev Arr (R C : ℕ) : Type := (⟨2, ![R, C]⟩ : Shape).Idx → EReal
/-- A vector of `N` extended reals. -/
abbrev Row (N : ℕ) : Type := (⟨1, ![N]⟩ : Shape).Idx → EReal

/-! ## The mean's two spellings -/

/-- The value of the word of `1.0`. -/
def one : EReal := Ideal.ofBits .f32 0x3F800000#32

/-- That word denotes the real number one. -/
theorem one_eq : one = 1 := by
  unfold one
  simp [Ideal.ofBits, Ideal.ieee, -EReal.coe_mul]; norm_num

/-- A column of counts with every entry raised to at least one. -/
def floorOne {R : ℕ} (c : Arr R 1) : Arr R 1 := fun i => max (c i) one

/-- The reciprocals of a column. -/
def recipCol {R : ℕ} (d : Arr R 1) : Arr R 1 := fun i => Ideal.div one (d i)

/-- Every row of `s` times the one entry of the same row of the column `r`. -/
def scaleRows {R K : ℕ} (s : Arr R K) (r : Arr R 1) : Arr R K := fun i => s i * r (ix2 (i 0) (0 : Fin 1))

/-- Every row of `s` divided by the one entry of the same row of the column `d`. -/
def divRows {R K : ℕ} (s : Arr R K) (d : Arr R 1) : Arr R K := fun i => Ideal.div (s i) (d (ix2 (i 0) (0 : Fin 1)))

theorem scaleRows_apply {R K : ℕ} (s : Arr R K) (r : Arr R 1) (p : Fin R) (k : Fin K) :
    scaleRows s r (ix2 p k) = s (ix2 p k) * r (ix2 p (0 : Fin 1)) := rfl

/-- A quotient by something at least one is the product with its reciprocal, for every extended real dividend:
    the divisor is not zero, so both sides are  s · d⁻¹. -/
theorem div_floor (s c : EReal) : Ideal.div s (max c one) = s * Ideal.div one (max c one) := by
  have h : max c one ≠ 0 := by
    have h1 : (0 : EReal) < max c one := lt_of_lt_of_le (by rw [one_eq]; exact zero_lt_one) (le_max_right c one)
    exact h1.ne'
  unfold Ideal.div
  rw [if_neg h, if_neg h, one_eq, one_mul]

/-- The same for whole arrays: dividing the rows by the floored counts is scaling them by the reciprocals. -/
theorem divRows_floor {R K : ℕ} (s : Arr R K) (c : Arr R 1) :
    divRows s (floorOne c) = scaleRows s (recipCol (floorOne c)) := by
  funext i
  exact div_floor (s i) (c (ix2 (i 0) (0 : Fin 1)))

/-! ## One round at one side -/

/-- One round with the mean as a product: `s` the summed neighbour rows, `c` the neighbour counts, `xd` the nodes' own
    rows. -/
def roundK {R : ℕ} (s : Arr R 64) (c : Arr R 1) (xd : Arr R 64) (wl wr : Arr 64 64) (b : Row 64) : Arr R 64 :=
  actArr zf (pairLayer (scaleRows s (recipCol (floorOne c))) xd wl wr b)

/-- One round with the mean as a quotient. -/
def roundR {R : ℕ} (s : Arr R 64) (c : Arr R 1) (xd : Arr R 64) (wl wr : Arr 64 64) (b : Row 64) : Arr R 64 :=
  actArr zf (pairLayer (divRows s (floorOne c)) xd wl wr b)

theorem roundR_eq {R : ℕ} (s : Arr R 64) (c : Arr R 1) (xd : Arr R 64) (wl wr : Arr 64 64) (b : Row 64) :
    roundR s c xd wl wr b = roundK s c xd wl wr b := by
  unfold roundR roundK
  rw [divRows_floor]

/-! ## The graph and the weights -/

/-- How rows travel along the edges and which nodes a pair names. -/
structure Graph where
  /-- the row of each edge's left node -/
  gatherL : Arr 50000 64 → Arr 2000000 64
  /-- the row of each edge's right node -/
  gatherR : Arr 20000 64 → Arr 2000000 64
  /-- edge rows summed into their right node -/
  segsumR : Arr 2000000 64 → Arr 20000 64
  /-- edge rows summed into their left node -/
  segsumL : Arr 2000000 64 → Arr 50000 64
  /-- how many edges meet each right node -/
  countR : Arr 20000 1
  /-- how many edges meet each left node -/
  countL : Arr 50000 1
  /-- the left node of each pair -/
  pairL : Fin 500000 → Fin 50000
  /-- the right node of each pair -/
  pairR : Fin 500000 → Fin 20000

/-- The inputs and the weights. -/
structure Net where
  xL : Arr 50000 1024
  xR : Arr 20000 1024
  wL : Arr 1024 64
  bL : Row 64
  wR : Arr 1024 64
  bR : Row 64
  l1rWl : Arr 64 64
  l1rWr : Arr 64 64
  l1rb : Row 64
  l1lWl : Arr 64 64
  l1lWr : Arr 64 64
  l1lb : Row 64
  l2rWl : Arr 64 64
  l2rWr : Arr 64 64
  l2rb : Row 64
  l2lWl : Arr 64 64
  l2lWr : Arr 64 64
  l2lb : Row 64
  wC : Arr 128 2
  bC : Row 2

variable (g : Graph) (n : Net)

/-- The left nodes' first rows. -/
def hL : Arr 50000 64 := layerArr n.xL n.wL n.bL
/-- The right nodes' first rows. -/
def hR : Arr 20000 64 := layerArr n.xR n.wR n.bR

/-! ## The network with the mean as a product -/

def r1K : Arr 20000 64 := roundK (g.segsumR (g.gatherL (hL n))) g.countR (hR n) n.l1rWl n.l1rWr n.l1rb
def l1K : Arr 50000 64 := roundK (g.segsumL (g.gatherR (hR n))) g.countL (hL n) n.l1lWl n.l1lWr n.l1lb
def r2K : Arr 20000 64 := roundK (g.segsumR (g.gatherL (l1K g n))) g.countR (r1K g n) n.l2rWl n.l2rWr n.l2rb
def l2K : Arr 50000 64 := roundK (g.segsumL (g.gatherR (r1K g n))) g.countL (l1K g n) n.l2lWl n.l2lWr n.l2lb

/-! ## The network with the mean as a quotient -/

def r1R : Arr 20000 64 := roundR (g.segsumR (g.gatherL (hL n))) g.countR (hR n) n.l1rWl n.l1rWr n.l1rb
def l1R : Arr 50000 64 := roundR (g.segsumL (g.gatherR (hR n))) g.countL (hL n) n.l1lWl n.l1lWr n.l1lb
def r2R : Arr 20000 64 := roundR (g.segsumR (g.gatherL (l1R g n))) g.countR (r1R g n) n.l2rWl n.l2rWr n.l2rb
def l2R : Arr 50000 64 := roundR (g.segsumL (g.gatherR (r1R g n))) g.countL (l1R g n) n.l2lWl n.l2lWr n.l2lb

theorem r1R_eq : r1R g n = r1K g n := roundR_eq _ _ _ _ _ _
theorem l1R_eq : l1R g n = l1K g n := roundR_eq _ _ _ _ _ _
theorem r2R_eq : r2R g n = r2K g n := by unfold r2R r2K; rw [l1R_eq, r1R_eq, roundR_eq]
theorem l2R_eq : l2R g n = l2K g n := by unfold l2R l2K; rw [l1R_eq, r1R_eq, roundR_eq]

/-! ## The classifier's two spellings -/

/-- Rows `0 … 63` of the classifier's weights. -/
def topHalf (w : Arr 128 2) : Arr 64 2 := fun i => w (ix2 ⟨(i 0).val, by have h : (i 0).val < 64 := (i 0).isLt; omega⟩ (i 1))
/-- Rows `64 … 127` of the classifier's weights. -/
def botHalf (w : Arr 128 2) : Arr 64 2 := fun i => w (ix2 ⟨64 + (i 0).val, by have h : (i 0).val < 64 := (i 0).isLt; omega⟩ (i 1))
/-- The bias of the half classifier that carries none: the value of the all-zero word at both entries. -/
def zeroRow : Row 2 := fun _ => zf

/-- The rows of `x` named by `r`, one per pair. -/
def takeRows {N E C : ℕ} (x : Arr N C) (r : Fin E → Fin N) : Arr E C := fun i => x (ix2 (r (i 0)) (i 1))

theorem takeRows_apply {N E C : ℕ} (x : Arr N C) (r : Fin E → Fin N) (e : Fin E) (c : Fin C) :
    takeRows x r (ix2 e c) = x (ix2 (r e) c) := rfl

/-- Per-node half classifiers read at the pair's two nodes and added. -/
def outK : Arr 500000 2 := fun i =>
  takeRows (layerArr (l2K g n) (topHalf n.wC) zeroRow) g.pairL i + takeRows (layerArr (r2K g n) (botHalf n.wC) n.bC) g.pairR i

/-- The classifier on the two rows set side by side. -/
def outR : Arr 500000 2 :=
  layerArr (catArr (A := 64) (B := 64) (C := 128) rfl (takeRows (l2R g n) g.pairL) (takeRows (r2R g n) g.pairR)) n.wC n.bC

/-- The all-zero word denotes zero. -/
theorem zf_eq : zf = 0 := by unfold zf; exact Ideal.ofBits_zero_f32

/-- A sum of products over two rows set side by side splits into the sums over the two rows. -/
theorem sum_cat {A B C : ℕ} (hC : C = A + B) (x : Fin A → EReal) (y : Fin B → EReal) (f : Fin C → EReal) :
    (∑ k : Fin C, cat hC x y k * f k)
      = (∑ k : Fin A, x k * f ⟨k.val, by have := k.isLt; omega⟩) + ∑ k : Fin B, y k * f ⟨A + k.val, by have := k.isLt; omega⟩ := by
  subst hC
  rw [Fin.sum_univ_add]
  congr 1
  · refine Finset.sum_congr rfl fun k _ => ?_
    unfold cat
    rw [dif_pos (show (Fin.castAdd B k).val < A from k.isLt)]
    rfl
  · refine Finset.sum_congr rfl fun k _ => ?_
    unfold cat
    rw [dif_neg (show ¬ (Fin.natAdd A k).val < A from by simp [Fin.natAdd])]
    refine congrArg₂ (· * ·) (congrArg y (Fin.ext ?_)) rfl
    simp [Fin.natAdd]

/-- The classifier on a joined row is the sum of the two half classifiers, the first without a bias. -/
theorem layer_cat (x y : Fin 64 → EReal) (w : Arr 128 2) (b : Row 2) (c : Fin 2) :
    layer (cat (A := 64) (B := 64) (C := 128) rfl x y) (fun k j => w (ix2 k j)) (fun j => b (ix1 j)) c
      = layer x (fun k j => topHalf w (ix2 k j)) (fun j => zeroRow (ix1 j)) c
        + layer y (fun k j => botHalf w (ix2 k j)) (fun j => b (ix1 j)) c := by
  have h1 : ∀ k : Fin 64, topHalf w (ix2 k c) = w (ix2 ⟨k.val, by have := k.isLt; omega⟩ c) := fun k => rfl
  have h2 : ∀ k : Fin 64, botHalf w (ix2 k c) = w (ix2 ⟨64 + k.val, by have := k.isLt; omega⟩ c) := fun k => rfl
  unfold layer
  rw [sum_cat rfl x y (fun k => w (ix2 k c))]
  simp only [h1, h2]
  show _ = (_ + zf) + (_ + b (ix1 c))
  rw [zf_eq, add_zero, add_assoc]

/-- THE TWO NETWORKS ARE ONE FUNCTION. -/
theorem outR_eq : outR g n = outK g n := by
  funext i
  obtain ⟨e, c, rfl⟩ : ∃ (e : Fin 500000) (c : Fin 2), i = ix2 e c := ⟨i 0, i 1, eq_ix2 i⟩
  unfold outR outK
  rw [l2R_eq, r2R_eq, layerArr_apply, takeRows_apply, takeRows_apply, layerArr_apply, layerArr_apply]
  exact layer_cat _ _ n.wC n.bC c

end Cert.Sage

end
-- ==== Proof.Blocks.lean ====
/-
  A BLOCK OF ROWS OF THE NETWORK IS THE NETWORK OF THE BLOCK, at the ideal values.

  A grid of blocks of rows computes a dense layer, or one round of the mean aggregation, block by block: the block at
  offset `off` holds rows `off, off + 1, …` of every tall operand, and the weights and the bias are whole at every block.
  Because each output row depends only on the same row of the tall operands, entry `(p, c)` of the block's result is entry
  `(off + p, c)` of the result on the whole arrays.  Stated here for the dense layer with a one-row bias (`block_layer`) and
  for the rectified two-input layer whose first input is a block of summed rows scaled by a column (`block_combine`), with
  the blocks and the arrays as variables and the relations between them as hypotheses on coordinates.  Also: a column
  `[a, 1]` broadcast over `[a, b]` read at an index, and the product with such a broadcast as `scaleRows`.
  No algebra of the extended reals is used.
-/
import proofs.«179018_j25391846654580_2_alg».proof.Proof.Spec

noncomputable section

open scoped BigOperators

namespace Cert.Sage

open Idealize.ShloMosaic Idealize.ShloMosaic.ValueIdx Cert.DenseRow Cert.RowBias Cert.ProdRows Cert.PairLayer

/-! ## A column broadcast over the rows' entries -/

/-- An `[a, 1]` array broadcast to `[a, b]` reads, at `(p, c)`, the one entry of the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of an array with a column broadcast over it scales each row by the column's entry. -/
theorem mul_col {R K : ℕ} (s : FVec Ideal ⟨2, ![R, K]⟩ .f32) (r : FVec Ideal ⟨2, ![R, 1]⟩ .f32)
    (hb : (⟨2, ![R, 1]⟩ : Shape).Broadcasts ⟨2, ![R, K]⟩) :
    mulf s (broadcastTo ⟨2, ![R, K]⟩ r hb) = scaleRows s r := by
  funext i
  obtain ⟨p, c, rfl⟩ : ∃ (p : Fin R) (c : Fin K), i = ix2 p c := ⟨i 0, i 1, eq_ix2 i⟩
  show s (ix2 p c) * broadcastTo ⟨2, ![R, K]⟩ r hb (ix2 p c) = _
  rw [broadcastTo_a1_ab_apply]
  rfl

/-! ## The round on arrays whose reciprocal column is given -/

/-- The rectified two-input layer on summed rows `s` scaled by the column `r`, own rows `xd`, and a one-row bias. -/
def combine {R : ℕ} (s : Arr R 64) (r : Arr R 1) (xd : Arr R 64) (wl wr : Arr 64 64) (b : Arr 1 64) : Arr R 64 :=
  actArr zf (pairLayer (scaleRows s r) xd wl wr (unrow b))

/-- One round with the mean as a product is `combine` at the reciprocals of the floored counts. -/
theorem roundK_eq_combine {R : ℕ} (s : Arr R 64) (c : Arr R 1) (xd : Arr R 64) (wl wr : Arr 64 64) (b : Arr 1 64) :
    roundK s c xd wl wr (unrow b) = combine s (recipCol (floorOne c)) xd wl wr b := rfl

/-! ## Blocks of rows -/

/-- A dense layer on a block of rows is that block of rows of the layer on the whole arrays. -/
theorem block_layer {R R' K N : ℕ} (a : Arr R K) (A : Arr R' K) (w W : Arr K N) (b B : Arr 1 N) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → a u = A z)
    (hw : ∀ u, w u = W u) (hb : ∀ u, b u = B u) :
    layerArr a w (unrow b) y = layerArr A W (unrow B) i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  obtain rfl : w = W := funext hw
  obtain rfl : b = B := funext hb
  exact layerArr_rows a A w (unrow b) p p' (fun k => ha (ix2 p k) (ix2 p' k) hi0 rfl) c'

/-- One round on a block of rows is that block of rows of the round on the whole arrays. -/
theorem block_combine {R R' : ℕ} (s : Arr R 64) (S : Arr R' 64) (r : Arr R 1) (Rc : Arr R' 1) (xd : Arr R 64) (Xd : Arr R' 64)
    (wl Wl wr Wr : Arr 64 64) (b B : Arr 1 64) (off : ℕ)
    (y : (⟨2, ![R, 64]⟩ : Shape).Idx) (i : (⟨2, ![R', 64]⟩ : Shape).Idx)
    (hi0 : (i 0).val = off + (y 0).val) (hi1 : (i 1).val = (y 1).val)
    (hs : ∀ (u : (⟨2, ![R, 64]⟩ : Shape).Idx) (z : (⟨2, ![R', 64]⟩ : Shape).Idx),
      (z 0).val = off + (u 0).val → (z 1).val = (u 1).val → s u = S z)
    (hr : ∀ (u : (⟨2, ![R, 1]⟩ : Shape).Idx) (z : (⟨2, ![R', 1]⟩ : Shape).Idx),
      (z 0).val = off + (u 0).val → (z 1).val = (u 1).val → r u = Rc z)
    (hx : ∀ (u : (⟨2, ![R, 64]⟩ : Shape).Idx) (z : (⟨2, ![R', 64]⟩ : Shape).Idx),
      (z 0).val = off + (u 0).val → (z 1).val = (u 1).val → xd u = Xd z)
    (hwl : ∀ u, wl u = Wl u) (hwr : ∀ u, wr u = Wr u) (hb : ∀ u, b u = B u) :
    combine s r xd wl wr b y = combine S Rc Xd Wl Wr B i := by
  obtain ⟨p, c, rfl⟩ : ∃ (p : Fin R) (c : Fin 64), y = ix2 p c := ⟨y 0, y 1, eq_ix2 y⟩
  obtain ⟨p', c', rfl⟩ : ∃ (p' : Fin R') (c' : Fin 64), i = ix2 p' c' := ⟨i 0, i 1, eq_ix2 i⟩
  obtain rfl : c' = c := Fin.ext hi1
  obtain rfl : wl = Wl := funext hwl
  obtain rfl : wr = Wr := funext hwr
  obtain rfl : b = B := funext hb
  refine relu_pairLayer_rows (scaleRows s r) xd (scaleRows S Rc) Xd wl wr (unrow b) p p' (fun k => ?_)
    (fun k => hx (ix2 p k) (ix2 p' k) hi0 rfl) c'
  rw [scaleRows_apply, scaleRows_apply, hs (ix2 p k) (ix2 p' k) hi0 rfl, hr (ix2 p (0 : Fin 1)) (ix2 p' (0 : Fin 1)) hi0 rfl]

end Cert.Sage

end
-- ==== Proof.Pay.lean ====
/-
  WHAT EACH KERNEL BODY COMPUTES FROM ITS BLOCKS, at the ideal values.

  The program has three kernel bodies.  The projection takes a block of 2000 rows of 1024 numbers, the weights and a
  one-row bias, and stores the rows times the weights plus the bias.  The round takes a block of 5000 summed rows, the
  column of reciprocals of the counts, the nodes' own rows, two weight matrices and a one-row bias, and stores the
  rectified two-input layer of the scaled sums and the own rows.  The half classifier takes a block of 10000 rows of 64
  numbers, a 64 by 2 weight matrix and a one-row bias, and stores the rows times the weights plus the bias.  Changes of
  float format are the identity at the ideal values, a matrix product into the zero accumulator is the plain sum of
  products, and casts of a shape to itself do nothing: each body is the whole-array function of its blocks.
-/
import proofs.«179018_j25391846654580_2_alg».proof.Proof.Gen.KernelIdeal.Skeleton
import proofs.«179018_j25391846654580_2_alg».proof.Proof.Blocks

noncomputable section

namespace Cert.KernelIdeal.PayValue

open Idealize.ShloMosaic Idealize.ShloMosaic.ValueIdx Cert.KernelIdeal Cert.KernelIdeal.Gen
open Cert.DenseRow Cert.RowBias Cert.ProdRows Cert.PairLayer Cert.PlainDot Cert.Sage

/-- The three matrix products' dimension records are the plain ones. -/
theorem dotA : dot_S2000x1024_S1024x64_S2000x64_1_0_0_1_n_n = DotDims.plain 2000 1024 64 := rfl
theorem dotB : dot_S5000x64_S64x64_S5000x64_1_0_0_1_n_n = DotDims.plain 5000 64 64 := rfl
theorem dotC : dot_S10000x64_S64x2_S10000x2_1_0_0_1_n_n = DotDims.plain 10000 64 2 := rfl

/-- The body of projection 0: the rows of the block times the weights plus the one-row bias. -/
theorem pay0 (v0 : Vec Ideal S2000x1024 .f32) (v2 : Vec Ideal S1024x64 .f32) (v5 : Vec Ideal S1x64 .f32) :
    k0_pay1 (F := Ideal) v0 v2 v5 = layerArr v0 v2 (unrow v5) := by
  unfold k0_pay1
  rw [dotA]
  exact klayer1Arr (DotDims.plain 2000 1024 64) rfl rfl (lhs_at 2000 1024 64) (rhs_at 2000 1024 64) none v0 v2 v5 _ _

/-- The body of projection 1: the rows of the block times the weights plus the one-row bias. -/
theorem pay1 (v0 : Vec Ideal S2000x1024 .f32) (v2 : Vec Ideal S1024x64 .f32) (v5 : Vec Ideal S1x64 .f32) :
    k1_pay1 (F := Ideal) v0 v2 v5 = layerArr v0 v2 (unrow v5) := by
  unfold k1_pay1
  rw [dotA]
  exact klayer1Arr (DotDims.plain 2000 1024 64) rfl rfl (lhs_at 2000 1024 64) (rhs_at 2000 1024 64) none v0 v2 v5 _ _

/-- The body of round 2: the summed rows scaled by the reciprocal column and the nodes' own rows through the two-input
    layer and the rectifier. -/
theorem pay2 (v0 : Vec Ideal S5000x64 .f32) (v2 : Vec Ideal S5000x1 .f32) (v7 : Vec Ideal S5000x64 .bf16) (v9 : Vec Ideal S64x64 .f32) (v11 : Vec Ideal S64x64 .f32) (v16 : Vec Ideal S1x64 .f32) :
    k2_pay1 (F := Ideal) v0 v2 v7 v9 v11 v16 = combine v0 v2 v7 v9 v11 v16 := by
  unfold k2_pay1 combine
  rw [dotB]
  show maximumf (addf (addf
        (matmul (DotDims.plain 5000 64 64) none
          (mulf (shapeCast S5000x64 v0 shapeCasts_S5000x64_S5000x64)
            (broadcastTo S5000x64 (shapeCast S5000x1 v2 shapeCasts_S5000x1_S5000x1) broadcasts_S5000x1_S5000x64))
          v9 (constant S5000x64 .f32 0x00000000#32))
        (matmul (DotDims.plain 5000 64 64) none (shapeCast S5000x64 v7 shapeCasts_S5000x64_S5000x64) v11
          (constant S5000x64 .f32 0x00000000#32)))
      (broadcastTo S5000x64 (shapeCast S1x64 v16 shapeCasts_S1x64_S1x64) broadcasts_S1x64_S5000x64))
      (broadcast S5000x64 (Scalar.ofBits (F := Ideal) .f32 0x00000000#32)) = _
  rw [kact, kbias, kprod, kprod]
  simp only [shapeCast_self]
  exact congrArg (fun z : Arr 5000 64 => actArr zf (addArr (addArr (RegionValue.prodArr z v9) (RegionValue.prodArr v7 v11)) (biasRows (unrow v16))))
    (mul_col v0 v2 broadcasts_S5000x1_S5000x64)

/-- The body of round 3: the summed rows scaled by the reciprocal column and the nodes' own rows through the two-input
    layer and the rectifier. -/
theorem pay3 (v0 : Vec Ideal S5000x64 .f32) (v2 : Vec Ideal S5000x1 .f32) (v7 : Vec Ideal S5000x64 .bf16) (v9 : Vec Ideal S64x64 .f32) (v11 : Vec Ideal S64x64 .f32) (v16 : Vec Ideal S1x64 .f32) :
    k3_pay1 (F := Ideal) v0 v2 v7 v9 v11 v16 = combine v0 v2 v7 v9 v11 v16 := by
  unfold k3_pay1 combine
  rw [dotB]
  show maximumf (addf (addf
        (matmul (DotDims.plain 5000 64 64) none
          (mulf (shapeCast S5000x64 v0 shapeCasts_S5000x64_S5000x64)
            (broadcastTo S5000x64 (shapeCast S5000x1 v2 shapeCasts_S5000x1_S5000x1) broadcasts_S5000x1_S5000x64))
          v9 (constant S5000x64 .f32 0x00000000#32))
        (matmul (DotDims.plain 5000 64 64) none (shapeCast S5000x64 v7 shapeCasts_S5000x64_S5000x64) v11
          (constant S5000x64 .f32 0x00000000#32)))
      (broadcastTo S5000x64 (shapeCast S1x64 v16 shapeCasts_S1x64_S1x64) broadcasts_S1x64_S5000x64))
      (broadcast S5000x64 (Scalar.ofBits (F := Ideal) .f32 0x00000000#32)) = _
  rw [kact, kbias, kprod, kprod]
  simp only [shapeCast_self]
  exact congrArg (fun z : Arr 5000 64 => actArr zf (addArr (addArr (RegionValue.prodArr z v9) (RegionValue.prodArr v7 v11)) (biasRows (unrow v16))))
    (mul_col v0 v2 broadcasts_S5000x1_S5000x64)

/-- The body of round 4: the summed rows scaled by the reciprocal column and the nodes' own rows through the two-input
    layer and the rectifier. -/
theorem pay4 (v0 : Vec Ideal S5000x64 .f32) (v2 : Vec Ideal S5000x1 .f32) (v7 : Vec Ideal S5000x64 .bf16) (v9 : Vec Ideal S64x64 .f32) (v11 : Vec Ideal S64x64 .f32) (v16 : Vec Ideal S1x64 .f32) :
    k4_pay1 (F := Ideal) v0 v2 v7 v9 v11 v16 = combine v0 v2 v7 v9 v11 v16 := by
  unfold k4_pay1 combine
  rw [dotB]
  show maximumf (addf (addf
        (matmul (DotDims.plain 5000 64 64) none
          (mulf (shapeCast S5000x64 v0 shapeCasts_S5000x64_S5000x64)
            (broadcastTo S5000x64 (shapeCast S5000x1 v2 shapeCasts_S5000x1_S5000x1) broadcasts_S5000x1_S5000x64))
          v9 (constant S5000x64 .f32 0x00000000#32))
        (matmul (DotDims.plain 5000 64 64) none (shapeCast S5000x64 v7 shapeCasts_S5000x64_S5000x64) v11
          (constant S5000x64 .f32 0x00000000#32)))
      (broadcastTo S5000x64 (shapeCast S1x64 v16 shapeCasts_S1x64_S1x64) broadcasts_S1x64_S5000x64))
      (broadcast S5000x64 (Scalar.ofBits (F := Ideal) .f32 0x00000000#32)) = _
  rw [kact, kbias, kprod, kprod]
  simp only [shapeCast_self]
  exact congrArg (fun z : Arr 5000 64 => actArr zf (addArr (addArr (RegionValue.prodArr z v9) (RegionValue.prodArr v7 v11)) (biasRows (unrow v16))))
    (mul_col v0 v2 broadcasts_S5000x1_S5000x64)

/-- The body of round 5: the summed rows scaled by the reciprocal column and the nodes' own rows through the two-input
    layer and the rectifier. -/
theorem pay5 (v0 : Vec Ideal S5000x64 .f32) (v2 : Vec Ideal S5000x1 .f32) (v7 : Vec Ideal S5000x64 .bf16) (v9 : Vec Ideal S64x64 .f32) (v11 : Vec Ideal S64x64 .f32) (v16 : Vec Ideal S1x64 .f32) :
    k5_pay1 (F := Ideal) v0 v2 v7 v9 v11 v16 = combine v0 v2 v7 v9 v11 v16 := by
  unfold k5_pay1 combine
  rw [dotB]
  show maximumf (addf (addf
        (matmul (DotDims.plain 5000 64 64) none
          (mulf (shapeCast S5000x64 v0 shapeCasts_S5000x64_S5000x64)
            (broadcastTo S5000x64 (shapeCast S5000x1 v2 shapeCasts_S5000x1_S5000x1) broadcasts_S5000x1_S5000x64))
          v9 (constant S5000x64 .f32 0x00000000#32))
        (matmul (DotDims.plain 5000 64 64) none (shapeCast S5000x64 v7 shapeCasts_S5000x64_S5000x64) v11
          (constant S5000x64 .f32 0x00000000#32)))
      (broadcastTo S5000x64 (shapeCast S1x64 v16 shapeCasts_S1x64_S1x64) broadcasts_S1x64_S5000x64))
      (broadcast S5000x64 (Scalar.ofBits (F := Ideal) .f32 0x00000000#32)) = _
  rw [kact, kbias, kprod, kprod]
  simp only [shapeCast_self]
  exact congrArg (fun z : Arr 5000 64 => actArr zf (addArr (addArr (RegionValue.prodArr z v9) (RegionValue.prodArr v7 v11)) (biasRows (unrow v16))))
    (mul_col v0 v2 broadcasts_S5000x1_S5000x64)

/-- The body of half classifier 6: the rows of the block times the half weights plus the one-row bias. -/
theorem pay6 (v0 : Vec Ideal S10000x64 .bf16) (v2 : Vec Ideal S64x2 .f32) (v6 : Vec Ideal S1x2 .f32) :
    k6_pay1 (F := Ideal) v0 v2 v6 = layerArr v0 v2 (unrow v6) := by
  unfold k6_pay1
  rw [dotC]
  show addf (F := Ideal) (matmul (F := Ideal) (DotDims.plain 10000 64 2) none (shapeCast S10000x64 v0 shapeCasts_S10000x64_S10000x64)
        (shapeCast S64x2 v2 shapeCasts_S64x2_S64x2) (constant S10000x2 .f32 0x00000000#32))
      (broadcastTo S10000x2 (shapeCast S1x2 v6 shapeCasts_S1x2_S1x2) broadcasts_S1x2_S10000x2) = _
  rw [shapeCast_self, shapeCast_self]
  exact klayer1Arr (DotDims.plain 10000 64 2) rfl rfl (lhs_at 10000 64 2) (rhs_at 10000 64 2) none v0 v2 v6 _ _

/-- The body of half classifier 7: the rows of the block times the half weights plus the one-row bias. -/
theorem pay7 (v0 : Vec Ideal S10000x64 .bf16) (v2 : Vec Ideal S64x2 .f32) (v6 : Vec Ideal S1x2 .f32) :
    k7_pay1 (F := Ideal) v0 v2 v6 = layerArr v0 v2 (unrow v6) := by
  unfold k7_pay1
  rw [dotC]
  show addf (F := Ideal) (matmul (F := Ideal) (DotDims.plain 10000 64 2) none (shapeCast S10000x64 v0 shapeCasts_S10000x64_S10000x64)
        (shapeCast S64x2 v2 shapeCasts_S64x2_S64x2) (constant S10000x2 .f32 0x00000000#32))
      (broadcastTo S10000x2 (shapeCast S1x2 v6 shapeCasts_S1x2_S1x2) broadcasts_S1x2_S10000x2) = _
  rw [shapeCast_self, shapeCast_self]
  exact klayer1Arr (DotDims.plain 10000 64 2) rfl rfl (lhs_at 10000 64 2) (rhs_at 10000 64 2) none v0 v2 v6 _ _

end Cert.KernelIdeal.PayValue

end
-- ==== Proof.Region0.lean ====
/-
  KERNEL REGION 0 AS ONE FUNCTION OF WHOLE ARRAYS, at the ideal values.

  The region runs the projection body on a grid of 25 points; point `t` stages rows `2000·t … 2000·t + 1999` of every tall
  operand, the whole of every other operand, and writes rows `2000·t …` of the result back.  What point `t` writes back is
  therefore that block of rows of the body's function applied to the whole arrays (a block of rows of the network is the
  network of the block), the blocks tile the 50000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `2000·t, …` of its array. -/
theorem read_0 (c : Dev nD) (t : Fin cfg0.N) (u : S2000x1024.Idx) (z : S50000x1024.Idx)
    (h0 : (z 0).val = t.val * 2000 + (u 0).val) (h1 : (z 1).val = (u 1).val) :
    iblk0 V c 0 t u = V c main_arg0 z := by
  obtain ⟨e0, e1, -, -, -, -, -, -⟩ := idx t
  show V c main_arg0 (((cfg0.win 0).blk t).view.emb u) = V c main_arg0 z
  refine congrArg (V c main_arg0) (funext fun a => Fin.ext ?_)
  match a with
  | ⟨0, _⟩ => show win0_0.index t (0 : Fin 2) * 2000 + 1 * (u 0).val = (z 0).val; omega
  | ⟨1, _⟩ => show win0_0.index t (1 : Fin 2) * 1024 + 1 * (u 1).val = (z 1).val; omega

/-- Window 1's block at every point is its whole array. -/
theorem read_1 (c : Dev nD) (t : Fin cfg0.N) (u : S1024x64.Idx) : iblk0 V c 1 t u = V c main_arg6 u := by
  obtain ⟨-, -, e0, e1, -, -, -, -⟩ := idx t
  show V c main_arg6 (((cfg0.win 1).blk t).view.emb u) = V c main_arg6 u
  refine congrArg (V c main_arg6) (funext fun a => Fin.ext ?_)
  match a with
  | ⟨0, _⟩ => show win0_1.index t (0 : Fin 2) * 1024 + 1 * (u 0).val = (u 0).val; omega
  | ⟨1, _⟩ => show win0_1.index t (1 : Fin 2) * 64 + 1 * (u 1).val = (u 1).val; omega

/-- Window 2's block at every point is its whole array. -/
theorem read_2 (c : Dev nD) (t : Fin cfg0.N) (u : S1x64.Idx) : iblk0 V c 2 t u = V c main_v0 u := by
  obtain ⟨-, -, -, -, e0, e1, -, -⟩ := idx t
  show V c main_v0 (((cfg0.win 2).blk t).view.emb u) = V c main_v0 u
  refine congrArg (V c main_v0) (funext fun a => Fin.ext ?_)
  match a with
  | ⟨0, _⟩ => show win0_2.index t (0 : Fin 2) * 1 + 1 * (u 0).val = (u 0).val; omega
  | ⟨1, _⟩ => show win0_2.index t (1 : Fin 2) * 64 + 1 * (u 1).val = (u 1).val; omega

/-- WHAT POINT `t` WRITES BACK is block `t` of the body's function of the arrays as the region finds them. -/
theorem flushed_eq (c : Dev nD) (t : Fin cfg0.N) :
    (dat0 V c).flushed 3 t = ((cfg0.win 3).blk t).view.read (Elt Ideal) (layerArr (V c main_arg0) (V c main_arg6) (unrow (V c main_v0))) := by
  show (cfg0.win 3).cut (grid0.coords t) ((dat0 V c).after 3 t) = _
  rw [after0_3]
  unfold out0_3
  rw [View.canon_unit_zero off2_zero]
  simp only [View.ld_unit_zero (S := S2000x1024) off2_zero, View.ld_unit_zero (S := S1024x64) off2_zero, View.ld_unit_zero (S := S1x64) off2_zero]
  rw [pay0 (iblk0 V c 0 t) (iblk0 V c 1 t) (iblk0 V c 2 t)]
  obtain ⟨-, -, -, -, -, -, e0, e1⟩ := idx t
  funext j
  show (layerArr (iblk0 V c 0 t) (iblk0 V c 1 t) (unrow (iblk0 V c 2 t))) j = (layerArr (V c main_arg0) (V c main_arg6) (unrow (V c main_v0))) (((cfg0.win 3).blk t).view.emb j)
  refine block_layer (iblk0 V c 0 t) (V c main_arg0) (iblk0 V c 1 t) (V c main_arg6) (iblk0 V c 2 t) (V c main_v0) (t.val * 2000) j (((cfg0.win 3).blk t).view.emb j) ?_ ?_
    (fun u z h0 h1 => read_0 V c t u z h0 h1) (fun u => read_1 V c t u) (fun u => read_2 V c t u)
  · show win0_3.index t (0 : Fin 2) * 2000 + 1 * (j 0).val = t.val * 2000 + (j 0).val; omega
  · show win0_3.index t (1 : Fin 2) * 64 + 1 * (j 1).val = (j 1).val; omega

/-- An index of the result array is in point `t`'s block iff each coordinate is in the block's range on its axis. -/
theorem mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v1).slice (win0_3.rect t)).set ↔ _
  rw [View.set_slice_whole, Rect.mem_set_unit]
  exact Iff.rfl

/-- Every block of rows is some point's. -/
theorem onto : ∀ q : Fin 25, ∃ t : Fin cfg0.N, win0_3.index t = ![q.val, 0] :=
  (by decide +kernel : ∀ q : Fin 25, ∃ t : Fin grid0.N, win0_3.index t = ![q.val, 0])

/-- The blocks tile the result: row `r` is in the block of point `r / 2000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- THE RESULT ARRAY AFTER THE REGION is the body's function of the arrays the region was entered with. -/
theorem final (c : Dev nD) : (dat0 V c).arrAt 3 cfg0.N = layerArr (V c main_arg0) (V c main_arg6) (unrow (V c main_v0)) :=
  (dat0 V c).arrAt_eq_of_cover 3 (layerArr (V c main_arg0) (V c main_arg6) (unrow (V c main_v0))) (fun t _ => flushed_eq V c t) cover

end Cert.KernelIdeal.Region0

end
-- ==== Proof.Region1.lean ====
/-
  KERNEL REGION 1 AS ONE FUNCTION OF WHOLE ARRAYS, at the ideal values.

  The region runs the projection body on a grid of 10 points; point `t` stages rows `2000·t … 2000·t + 1999` of every tall
  operand, the whole of every other operand, and writes rows `2000·t …` of the result back.  What point `t` writes back is
  therefore that block of rows of the body's function applied to the whole arrays (a block of rows of the network is the
  network of the block), the blocks tile the 20000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `2000·t, …` of its array. -/
theorem read_0 (c : Dev nD) (t : Fin cfg1.N) (u : S2000x1024.Idx) (z : S20000x1024.Idx)
    (h0 : (z 0).val = t.val * 2000 + (u 0).val) (h1 : (z 1).val = (u 1).val) :
    iblk1 V c 0 t u = V c main_arg1 z := by
  obtain ⟨e0, e1, -, -, -, -, -, -⟩ := idx t
  show V c main_arg1 (((cfg1.win 0).blk t).view.emb u) = V c main_arg1 z
  refine congrArg (V c main_arg1) (funext fun a => Fin.ext ?_)
  match a with
  | ⟨0, _⟩ => show win1_0.index t (0 : Fin 2) * 2000 + 1 * (u 0).val = (z 0).val; omega
  | ⟨1, _⟩ => show win1_0.index t (1 : Fin 2) * 1024 + 1 * (u 1).val = (z 1).val; omega

/-- Window 1's block at every point is its whole array. -/
theorem read_1 (c : Dev nD) (t : Fin cfg1.N) (u : S1024x64.Idx) : iblk1 V c 1 t u = V c main_arg8 u := by
  obtain ⟨-, -, e0, e1, -, -, -, -⟩ := idx t
  show V c main_arg8 (((cfg1.win 1).blk t).view.emb u) = V c main_arg8 u
  refine congrArg (V c main_arg8) (funext fun a => Fin.ext ?_)
  match a with
  | ⟨0, _⟩ => show win1_1.index t (0 : Fin 2) * 1024 + 1 * (u 0).val = (u 0).val; omega
  | ⟨1, _⟩ => show win1_1.index t (1 : Fin 2) * 64 + 1 * (u 1).val = (u 1).val; omega

/-- Window 2's block at every point is its whole array. -/
theorem read_2 (c : Dev nD) (t : Fin cfg1.N) (u : S1x64.Idx) : iblk1 V c 2 t u = V c main_v2 u := by
  obtain ⟨-, -, -, -, e0, e1, -, -⟩ := idx t
  show V c main_v2 (((cfg1.win 2).blk t).view.emb u) = V c main_v2 u
  refine congrArg (V c main_v2) (funext fun a => Fin.ext ?_)
  match a with
  | ⟨0, _⟩ => show win1_2.index t (0 : Fin 2) * 1 + 1 * (u 0).val = (u 0).val; omega
  | ⟨1, _⟩ => show win1_2.index t (1 : Fin 2) * 64 + 1 * (u 1).val = (u 1).val; omega

/-- WHAT POINT `t` WRITES BACK is block `t` of the body's function of the arrays as the region finds them. -/
theorem flushed_eq (c : Dev nD) (t : Fin cfg1.N) :
    (dat1 V c).flushed 3 t = ((cfg1.win 3).blk t).view.read (Elt Ideal) (layerArr (V c main_arg1) (V c main_arg8) (unrow (V c main_v2))) := by
  show (cfg1.win 3).cut (grid1.coords t) ((dat1 V c).after 3 t) = _
  rw [after1_3]
  unfold out1_3
  rw [View.canon_unit_zero off2_zero]
  simp only [View.ld_unit_zero (S := S2000x1024) off2_zero, View.ld_unit_zero (S := S1024x64) off2_zero, View.ld_unit_zero (S := S1x64) off2_zero]
  rw [pay1 (iblk1 V c 0 t) (iblk1 V c 1 t) (iblk1 V c 2 t)]
  obtain ⟨-, -, -, -, -, -, e0, e1⟩ := idx t
  funext j
  show (layerArr (iblk1 V c 0 t) (iblk1 V c 1 t) (unrow (iblk1 V c 2 t))) j = (layerArr (V c main_arg1) (V c main_arg8) (unrow (V c main_v2))) (((cfg1.win 3).blk t).view.emb j)
  refine block_layer (iblk1 V c 0 t) (V c main_arg1) (iblk1 V c 1 t) (V c main_arg8) (iblk1 V c 2 t) (V c main_v2) (t.val * 2000) j (((cfg1.win 3).blk t).view.emb j) ?_ ?_
    (fun u z h0 h1 => read_0 V c t u z h0 h1) (fun u => read_1 V c t u) (fun u => read_2 V c t u)
  · show win1_3.index t (0 : Fin 2) * 2000 + 1 * (j 0).val = t.val * 2000 + (j 0).val; omega
  · show win1_3.index t (1 : Fin 2) * 64 + 1 * (j 1).val = (j 1).val; omega

/-- An index of the result array is in point `t`'s block iff each coordinate is in the block's range on its axis. -/
theorem mem_blk (t : Fin cfg1.N) (i : S20000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v3).slice (win1_3.rect t)).set ↔ _
  rw [View.set_slice_whole, Rect.mem_set_unit]
  exact Iff.rfl

/-- Every block of rows is some point's. -/
theorem onto : ∀ q : Fin 10, ∃ t : Fin cfg1.N, win1_3.index t = ![q.val, 0] :=
  (by decide +kernel : ∀ q : Fin 10, ∃ t : Fin grid1.N, win1_3.index t = ![q.val, 0])

/-- The blocks tile the result: row `r` is in the block of point `r / 2000`. -/
theorem cover (i : S20000x64.Idx) :
    ∃ t : Fin cfg1.N, (cfg1.win 3).flush t = true ∧ i ∈ ((cfg1.win 3).blk t).view.set := by
  have hi0 : (i 0).val < 20000 := (i 0).isLt
  have hi1 : (i 1).val < 64 := (i 1).isLt
  obtain ⟨t, ht⟩ := onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- THE RESULT ARRAY AFTER THE REGION is the body's function of the arrays the region was entered with. -/
theorem final (c : Dev nD) : (dat1 V c).arrAt 3 cfg1.N = layerArr (V c main_arg1) (V c main_arg8) (unrow (V c main_v2)) :=
  (dat1 V c).arrAt_eq_of_cover 3 (layerArr (V c main_arg1) (V c main_arg8) (unrow (V c main_v2))) (fun t _ => flushed_eq V c t) cover

end Cert.KernelIdeal.Region1

end
-- ==== Proof.Region2.lean ====
/-
  KERNEL REGION 2 AS ONE FUNCTION OF WHOLE ARRAYS, at the ideal values.

  The region runs the round body on a grid of 4 points; point `t` stages rows `5000·t … 5000·t + 4999` of every tall
  operand, the whole of every other operand, and writes rows `5000·t …` of the result back.  What point `t` writes back is
  therefore that block of rows of the body's function applied to the whole arrays (a block of rows of the network is the
  network of the block), the blocks tile the 20000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t` is rows `5000·t, …` of its array. -/
theorem read_0 (c : Dev nD) (t : Fin cfg2.N) (u : S5000x64.Idx) (z : S20000x64.Idx)
    (h0 : (z 0).val = t.val * 5000 + (u 0).val) (h1 : (z 1).val = (u 1).val) :
    iblk2 V c 0 t u = V c main_v29 z := by
  obtain ⟨e0, e1, -, -, -, -, -, -, -, -, -, -, -, -⟩ := idx t
  show V c main_v29 (((cfg2.win 0).blk t).view.emb u) = V c main_v29 z
  refine congrArg (V c main_v29) (funext fun a => Fin.ext ?_)
  match a with
  | ⟨0, _⟩ => show win2_0.index t (0 : Fin 2) * 5000 + 1 * (u 0).val = (z 0).val; omega
  | ⟨1, _⟩ => show win2_0.index t (1 : Fin 2) * 64 + 1 * (u 1).val = (z 1).val; omega

/-- Window 1's block at point `t` is rows `5000·t, …` of its array. -/
theorem read_1 (c : Dev nD) (t : Fin cfg2.N) (u : S5000x1.Idx) (z : S20000x1.Idx)
    (h0 : (z 0).val = t.val * 5000 + (u 0).val) (h1 : (z 1).val = (u 1).val) :
    iblk2 V c 1 t u = V c main_v16 z := by
  obtain ⟨-, -, e0, e1, -, -, -, -, -, -, -, -, -, -⟩ := idx t
  show V c main_v16 (((cfg2.win 1).blk t).view.emb u) = V c main_v16 z
  refine congrArg (V c main_v16) (funext fun a => Fin.ext ?_)
  match a with
  | ⟨0, _⟩ => show win2_1.index t (0 : Fin 2) * 5000 + 1 * (u 0).val = (z 0).val; omega
  | ⟨1, _⟩ => show win2_1.index t (1 : Fin 2) * 1 + 1 * (u 1).val = (z 1).val; omega

/-- Window 2's block at point `t` is rows `5000·t, …` of its array. -/
theorem read_2 (c : Dev nD) (t : Fin cfg2.N) (u : S5000x64.Idx) (z : S20000x64.Idx)
    (h0 : (z 0).val = t.val * 5000 + (u 0).val) (h1 : (z 1).val = (u 1).val) :
    iblk2 V c 2 t u = V c main_v3 z := by
  obtain ⟨-, -, -, -, e0, e1, -, -, -, -, -, -, -, -⟩ := idx t
  show V c main_v3 (((cfg2.win 2).blk t).view.emb u) = V c main_v3 z
  refine congrArg (V c main_v3) (funext fun a => Fin.ext ?_)
  match a with
  | ⟨0, _⟩ => show win2_2.index t (0 : Fin 2) * 5000 + 1 * (u 0).val = (z 0).val; omega
  | ⟨1, _⟩ => show win2_2.index t (1 : Fin 2) * 64 + 1 * (u 1).val = (z 1).val; omega

/-- Window 3's block at every point is its whole array. -/
theorem read_3 (c : Dev nD) (t : Fin cfg2.N) (u : S64x64.Idx) : iblk2 V c 3 t u = V c main_arg10 u := by
  obtain ⟨-, -, -, -, -, -, e0, e1, -, -, -, -, -, -⟩ := idx t
  show V c main_arg10 (((cfg2.win 3).blk t).view.emb u) = V c main_arg10 u
  refine congrArg (V c main_arg10) (funext fun a => Fin.ext ?_)
  match a with
  | ⟨0, _⟩ => show win2_3.index t (0 : Fin 2) * 64 + 1 * (u 0).val = (u 0).val; omega
  | ⟨1, _⟩ => show win2_3.index t (1 : Fin 2) * 64 + 1 * (u 1).val = (u 1).val; omega

/-- Window 4's block at every point is its whole array. -/
theorem read_4 (c : Dev nD) (t : Fin cfg2.N) (u : S64x64.Idx) : iblk2 V c 4 t u = V c main_arg11 u := by
  obtain ⟨-, -, -, -, -, -, -, -, e0, e1, -, -, -, -⟩ := idx t
  show V c main_arg11 (((cfg2.win 4).blk t).view.emb u) = V c main_arg11 u
  refine congrArg (V c main_arg11) (funext fun a => Fin.ext ?_)
  match a with
  | ⟨0, _⟩ => show win2_4.index t (0 : Fin 2) * 64 + 1 * (u 0).val = (u 0).val; omega
  | ⟨1, _⟩ => show win2_4.index t (1 : Fin 2) * 64 + 1 * (u 1).val = (u 1).val; omega

/-- Window 5's block at every point is its whole array. -/
theorem read_5 (c : Dev nD) (t : Fin cfg2.N) (u : S1x64.Idx) : iblk2 V c 5 t u = V c main_v30 u := by
  obtain ⟨-, -, -, -, -, -, -, -, -, -, e0, e1, -, -⟩ := idx t
  show V c main_v30 (((cfg2.win 5).blk t).view.emb u) = V c main_v30 u
  refine congrArg (V c main_v30) (funext fun a => Fin.ext ?_)
  match a with
  | ⟨0, _⟩ => show win2_5.index t (0 : Fin 2) * 1 + 1 * (u 0).val = (u 0).val; omega
  | ⟨1, _⟩ => show win2_5.index t (1 : Fin 2) * 64 + 1 * (u 1).val = (u 1).val; omega

/-- WHAT POINT `t` WRITES BACK is block `t` of the body's function of the arrays as the region finds them. -/
theorem flushed_eq (c : Dev nD) (t : Fin cfg2.N) :
    (dat2 V c).flushed 6 t = ((cfg2.win 6).blk t).view.read (Elt Ideal) (combine (V c main_v29) (V c main_v16) (V c main_v3) (V c main_arg10) (V c main_arg11) (V c main_v30)) := by
  show (cfg2.win 6).cut (grid2.coords t) ((dat2 V c).after 6 t) = _
  rw [after2_6]
  unfold out2_6
  rw [View.canon_unit_zero off2_zero]
  simp only [View.ld_unit_zero (S := S5000x64) off2_zero, View.ld_unit_zero (S := S5000x1) off2_zero, View.ld_unit_zero (S := S64x64) off2_zero, View.ld_unit_zero (S := S1x64) off2_zero]
  rw [pay2 (iblk2 V c 0 t) (iblk2 V c 1 t) (iblk2 V c 2 t) (iblk2 V c 3 t) (iblk2 V c 4 t) (iblk2 V c 5 t)]
  obtain ⟨-, -, -, -, -, -, -, -, -, -, -, -, e0, e1⟩ := idx t
  funext j
  show (combine (iblk2 V c 0 t) (iblk2 V c 1 t) (iblk2 V c 2 t) (iblk2 V c 3 t) (iblk2 V c 4 t) (iblk2 V c 5 t)) j = (combine (V c main_v29) (V c main_v16) (V c main_v3) (V c main_arg10) (V c main_arg11) (V c main_v30)) (((cfg2.win 6).blk t).view.emb j)
  refine block_combine (iblk2 V c 0 t) (V c main_v29) (iblk2 V c 1 t) (V c main_v16) (iblk2 V c 2 t) (V c main_v3) (iblk2 V c 3 t) (V c main_arg10) (iblk2 V c 4 t) (V c main_arg11) (iblk2 V c 5 t) (V c main_v30) (t.val * 5000) j (((cfg2.win 6).blk t).view.emb j) ?_ ?_
    (fun u z h0 h1 => read_0 V c t u z h0 h1) (fun u z h0 h1 => read_1 V c t u z h0 h1) (fun u z h0 h1 => read_2 V c t u z h0 h1) (fun u => read_3 V c t u) (fun u => read_4 V c t u) (fun u => read_5 V c t u)
  · show win2_6.index t (0 : Fin 2) * 5000 + 1 * (j 0).val = t.val * 5000 + (j 0).val; omega
  · show win2_6.index t (1 : Fin 2) * 64 + 1 * (j 1).val = (j 1).val; omega

/-- An index of the result array is in point `t`'s block iff each coordinate is in the block's range on its axis. -/
theorem mem_blk (t : Fin cfg2.N) (i : S20000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v31).slice (win2_6.rect t)).set ↔ _
  rw [View.set_slice_whole, Rect.mem_set_unit]
  exact Iff.rfl

/-- Every block of rows is some point's. -/
theorem onto : ∀ q : Fin 4, ∃ t : Fin cfg2.N, win2_6.index t = ![q.val, 0] :=
  (by decide +kernel : ∀ q : Fin 4, ∃ t : Fin grid2.N, win2_6.index t = ![q.val, 0])

/-- The blocks tile the result: row `r` is in the block of point `r / 5000`. -/
theorem cover (i : S20000x64.Idx) :
    ∃ t : Fin cfg2.N, (cfg2.win 6).flush t = true ∧ i ∈ ((cfg2.win 6).blk t).view.set := by
  have hi0 : (i 0).val < 20000 := (i 0).isLt
  have hi1 : (i 1).val < 64 := (i 1).isLt
  obtain ⟨t, ht⟩ := onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE RESULT ARRAY AFTER THE REGION is the body's function of the arrays the region was entered with. -/
theorem final (c : Dev nD) : (dat2 V c).arrAt 6 cfg2.N = combine (V c main_v29) (V c main_v16) (V c main_v3) (V c main_arg10) (V c main_arg11) (V c main_v30) :=
  (dat2 V c).arrAt_eq_of_cover 6 (combine (V c main_v29) (V c main_v16) (V c main_v3) (V c main_arg10) (V c main_arg11) (V c main_v30)) (fun t _ => flushed_eq V c t) cover

end Cert.KernelIdeal.Region2

end
-- ==== Proof.Region3.lean ====
/-
  KERNEL REGION 3 AS ONE FUNCTION OF WHOLE ARRAYS, at the ideal values.

  The region runs the round body on a grid of 10 points; point `t` stages rows `5000·t … 5000·t + 4999` of every tall
  operand, the whole of every other operand, and writes rows `5000·t …` of the result back.  What point `t` writes back is
  therefore that block of rows of the body's function applied to the whole arrays (a block of rows of the network is the
  network of the block), the blocks tile the 50000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Window 0's block at point `t` is rows `5000·t, …` of its array. -/
theorem read_0 (c : Dev nD) (t : Fin cfg3.N) (u : S5000x64.Idx) (z : S50000x64.Idx)
    (h0 : (z 0).val = t.val * 5000 + (u 0).val) (h1 : (z 1).val = (u 1).val) :
    iblk3 V c 0 t u = V c main_v42 z := by
  obtain ⟨e0, e1, -, -, -, -, -, -, -, -, -, -, -, -⟩ := idx t
  show V c main_v42 (((cfg3.win 0).blk t).view.emb u) = V c main_v42 z
  refine congrArg (V c main_v42) (funext fun a => Fin.ext ?_)
  match a with
  | ⟨0, _⟩ => show win3_0.index t (0 : Fin 2) * 5000 + 1 * (u 0).val = (z 0).val; omega
  | ⟨1, _⟩ => show win3_0.index t (1 : Fin 2) * 64 + 1 * (u 1).val = (z 1).val; omega

/-- Window 1's block at point `t` is rows `5000·t, …` of its array. -/
theorem read_1 (c : Dev nD) (t : Fin cfg3.N) (u : S5000x1.Idx) (z : S50000x1.Idx)
    (h0 : (z 0).val = t.val * 5000 + (u 0).val) (h1 : (z 1).val = (u 1).val) :
    iblk3 V c 1 t u = V c main_v18 z := by
  obtain ⟨-, -, e0, e1, -, -, -, -, -, -, -, -, -, -⟩ := idx t
  show V c main_v18 (((cfg3.win 1).blk t).view.emb u) = V c main_v18 z
  refine congrArg (V c main_v18) (funext fun a => Fin.ext ?_)
  match a with
  | ⟨0, _⟩ => show win3_1.index t (0 : Fin 2) * 5000 + 1 * (u 0).val = (z 0).val; omega
  | ⟨1, _⟩ => show win3_1.index t (1 : Fin 2) * 1 + 1 * (u 1).val = (z 1).val; omega

/-- Window 2's block at point `t` is rows `5000·t, …` of its array. -/
theorem read_2 (c : Dev nD) (t : Fin cfg3.N) (u : S5000x64.Idx) (z : S50000x64.Idx)
    (h0 : (z 0).val = t.val * 5000 + (u 0).val) (h1 : (z 1).val = (u 1).val) :
    iblk3 V c 2 t u = V c main_v1 z := by
  obtain ⟨-, -, -, -, e0, e1, -, -, -, -, -, -, -, -⟩ := idx t
  show V c main_v1 (((cfg3.win 2).blk t).view.emb u) = V c main_v1 z
  refine congrArg (V c main_v1) (funext fun a => Fin.ext ?_)
  match a with
  | ⟨0, _⟩ => show win3_2.index t (0 : Fin 2) * 5000 + 1 * (u 0).val = (z 0).val; omega
  | ⟨1, _⟩ => show win3_2.index t (1 : Fin 2) * 64 + 1 * (u 1).val = (z 1).val; omega

/-- Window 3's block at every point is its whole array. -/
theorem read_3 (c : Dev nD) (t : Fin cfg3.N) (u : S64x64.Idx) : iblk3 V c 3 t u = V c main_arg13 u := by
  obtain ⟨-, -, -, -, -, -, e0, e1, -, -, -, -, -, -⟩ := idx t
  show V c main_arg13 (((cfg3.win 3).blk t).view.emb u) = V c main_arg13 u
  refine congrArg (V c main_arg13) (funext fun a => Fin.ext ?_)
  match a with
  | ⟨0, _⟩ => show win3_3.index t (0 : Fin 2) * 64 + 1 * (u 0).val = (u 0).val; omega
  | ⟨1, _⟩ => show win3_3.index t (1 : Fin 2) * 64 + 1 * (u 1).val = (u 1).val; omega

/-- Window 4's block at every point is its whole array. -/
theorem read_4 (c : Dev nD) (t : Fin cfg3.N) (u : S64x64.Idx) : iblk3 V c 4 t u = V c main_arg14 u := by
  obtain ⟨-, -, -, -, -, -, -, -, e0, e1, -, -, -, -⟩ := idx t
  show V c main_arg14 (((cfg3.win 4).blk t).view.emb u) = V c main_arg14 u
  refine congrArg (V c main_arg14) (funext fun a => Fin.ext ?_)
  match a with
  | ⟨0, _⟩ => show win3_4.index t (0 : Fin 2) * 64 + 1 * (u 0).val = (u 0).val; omega
  | ⟨1, _⟩ => show win3_4.index t (1 : Fin 2) * 64 + 1 * (u 1).val = (u 1).val; omega

/-- Window 5's block at every point is its whole array. -/
theorem read_5 (c : Dev nD) (t : Fin cfg3.N) (u : S1x64.Idx) : iblk3 V c 5 t u = V c main_v43 u := by
  obtain ⟨-, -, -, -, -, -, -, -, -, -, e0, e1, -, -⟩ := idx t
  show V c main_v43 (((cfg3.win 5).blk t).view.emb u) = V c main_v43 u
  refine congrArg (V c main_v43) (funext fun a => Fin.ext ?_)
  match a with
  | ⟨0, _⟩ => show win3_5.index t (0 : Fin 2) * 1 + 1 * (u 0).val = (u 0).val; omega
  | ⟨1, _⟩ => show win3_5.index t (1 : Fin 2) * 64 + 1 * (u 1).val = (u 1).val; omega

/-- WHAT POINT `t` WRITES BACK is block `t` of the body's function of the arrays as the region finds them. -/
theorem flushed_eq (c : Dev nD) (t : Fin cfg3.N) :
    (dat3 V c).flushed 6 t = ((cfg3.win 6).blk t).view.read (Elt Ideal) (combine (V c main_v42) (V c main_v18) (V c main_v1) (V c main_arg13) (V c main_arg14) (V c main_v43)) := by
  show (cfg3.win 6).cut (grid3.coords t) ((dat3 V c).after 6 t) = _
  rw [after3_6]
  unfold out3_6
  rw [View.canon_unit_zero off2_zero]
  simp only [View.ld_unit_zero (S := S5000x64) off2_zero, View.ld_unit_zero (S := S5000x1) off2_zero, View.ld_unit_zero (S := S64x64) off2_zero, View.ld_unit_zero (S := S1x64) off2_zero]
  rw [pay3 (iblk3 V c 0 t) (iblk3 V c 1 t) (iblk3 V c 2 t) (iblk3 V c 3 t) (iblk3 V c 4 t) (iblk3 V c 5 t)]
  obtain ⟨-, -, -, -, -, -, -, -, -, -, -, -, e0, e1⟩ := idx t
  funext j
  show (combine (iblk3 V c 0 t) (iblk3 V c 1 t) (iblk3 V c 2 t) (iblk3 V c 3 t) (iblk3 V c 4 t) (iblk3 V c 5 t)) j = (combine (V c main_v42) (V c main_v18) (V c main_v1) (V c main_arg13) (V c main_arg14) (V c main_v43)) (((cfg3.win 6).blk t).view.emb j)
  refine block_combine (iblk3 V c 0 t) (V c main_v42) (iblk3 V c 1 t) (V c main_v18) (iblk3 V c 2 t) (V c main_v1) (iblk3 V c 3 t) (V c main_arg13) (iblk3 V c 4 t) (V c main_arg14) (iblk3 V c 5 t) (V c main_v43) (t.val * 5000) j (((cfg3.win 6).blk t).view.emb j) ?_ ?_
    (fun u z h0 h1 => read_0 V c t u z h0 h1) (fun u z h0 h1 => read_1 V c t u z h0 h1) (fun u z h0 h1 => read_2 V c t u z h0 h1) (fun u => read_3 V c t u) (fun u => read_4 V c t u) (fun u => read_5 V c t u)
  · show win3_6.index t (0 : Fin 2) * 5000 + 1 * (j 0).val = t.val * 5000 + (j 0).val; omega
  · show win3_6.index t (1 : Fin 2) * 64 + 1 * (j 1).val = (j 1).val; omega

/-- An index of the result array is in point `t`'s block iff each coordinate is in the block's range on its axis. -/
theorem mem_blk (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v44).slice (win3_6.rect t)).set ↔ _
  rw [View.set_slice_whole, Rect.mem_set_unit]
  exact Iff.rfl

/-- Every block of rows is some point's. -/
theorem onto : ∀ q : Fin 10, ∃ t : Fin cfg3.N, win3_6.index t = ![q.val, 0] :=
  (by decide +kernel : ∀ q : Fin 10, ∃ t : Fin grid3.N, win3_6.index t = ![q.val, 0])

/-- The blocks tile the result: row `r` is in the block of point `r / 5000`. -/
theorem cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ := onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- THE RESULT ARRAY AFTER THE REGION is the body's function of the arrays the region was entered with. -/
theorem final (c : Dev nD) : (dat3 V c).arrAt 6 cfg3.N = combine (V c main_v42) (V c main_v18) (V c main_v1) (V c main_arg13) (V c main_arg14) (V c main_v43) :=
  (dat3 V c).arrAt_eq_of_cover 6 (combine (V c main_v42) (V c main_v18) (V c main_v1) (V c main_arg13) (V c main_arg14) (V c main_v43)) (fun t _ => flushed_eq V c t) cover

end Cert.KernelIdeal.Region3

end
-- ==== Proof.Region4.lean ====
/-
  KERNEL REGION 4 AS ONE FUNCTION OF WHOLE ARRAYS, at the ideal values.

  The region runs the round body on a grid of 4 points; point `t` stages rows `5000·t … 5000·t + 4999` of every tall
  operand, the whole of every other operand, and writes rows `5000·t …` of the result back.  What point `t` writes back is
  therefore that block of rows of the body's function applied to the whole arrays (a block of rows of the network is the
  network of the block), the blocks tile the 20000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Window 0's block at point `t` is rows `5000·t, …` of its array. -/
theorem read_0 (c : Dev nD) (t : Fin cfg4.N) (u : S5000x64.Idx) (z : S20000x64.Idx)
    (h0 : (z 0).val = t.val * 5000 + (u 0).val) (h1 : (z 1).val = (u 1).val) :
    iblk4 V c 0 t u = V c main_v55 z := by
  obtain ⟨e0, e1, -, -, -, -, -, -, -, -, -, -, -, -⟩ := idx t
  show V c main_v55 (((cfg4.win 0).blk t).view.emb u) = V c main_v55 z
  refine congrArg (V c main_v55) (funext fun a => Fin.ext ?_)
  match a with
  | ⟨0, _⟩ => show win4_0.index t (0 : Fin 2) * 5000 + 1 * (u 0).val = (z 0).val; omega
  | ⟨1, _⟩ => show win4_0.index t (1 : Fin 2) * 64 + 1 * (u 1).val = (z 1).val; omega

/-- Window 1's block at point `t` is rows `5000·t, …` of its array. -/
theorem read_1 (c : Dev nD) (t : Fin cfg4.N) (u : S5000x1.Idx) (z : S20000x1.Idx)
    (h0 : (z 0).val = t.val * 5000 + (u 0).val) (h1 : (z 1).val = (u 1).val) :
    iblk4 V c 1 t u = V c main_v16 z := by
  obtain ⟨-, -, e0, e1, -, -, -, -, -, -, -, -, -, -⟩ := idx t
  show V c main_v16 (((cfg4.win 1).blk t).view.emb u) = V c main_v16 z
  refine congrArg (V c main_v16) (funext fun a => Fin.ext ?_)
  match a with
  | ⟨0, _⟩ => show win4_1.index t (0 : Fin 2) * 5000 + 1 * (u 0).val = (z 0).val; omega
  | ⟨1, _⟩ => show win4_1.index t (1 : Fin 2) * 1 + 1 * (u 1).val = (z 1).val; omega

/-- Window 2's block at point `t` is rows `5000·t, …` of its array. -/
theorem read_2 (c : Dev nD) (t : Fin cfg4.N) (u : S5000x64.Idx) (z : S20000x64.Idx)
    (h0 : (z 0).val = t.val * 5000 + (u 0).val) (h1 : (z 1).val = (u 1).val) :
    iblk4 V c 2 t u = V c main_v31 z := by
  obtain ⟨-, -, -, -, e0, e1, -, -, -, -, -, -, -, -⟩ := idx t
  show V c main_v31 (((cfg4.win 2).blk t).view.emb u) = V c main_v31 z
  refine congrArg (V c main_v31) (funext fun a => Fin.ext ?_)
  match a with
  | ⟨0, _⟩ => show win4_2.index t (0 : Fin 2) * 5000 + 1 * (u 0).val = (z 0).val; omega
  | ⟨1, _⟩ => show win4_2.index t (1 : Fin 2) * 64 + 1 * (u 1).val = (z 1).val; omega

/-- Window 3's block at every point is its whole array. -/
theorem read_3 (c : Dev nD) (t : Fin cfg4.N) (u : S64x64.Idx) : iblk4 V c 3 t u = V c main_arg16 u := by
  obtain ⟨-, -, -, -, -, -, e0, e1, -, -, -, -, -, -⟩ := idx t
  show V c main_arg16 (((cfg4.win 3).blk t).view.emb u) = V c main_arg16 u
  refine congrArg (V c main_arg16) (funext fun a => Fin.ext ?_)
  match a with
  | ⟨0, _⟩ => show win4_3.index t (0 : Fin 2) * 64 + 1 * (u 0).val = (u 0).val; omega
  | ⟨1, _⟩ => show win4_3.index t (1 : Fin 2) * 64 + 1 * (u 1).val = (u 1).val; omega

/-- Window 4's block at every point is its whole array. -/
theorem read_4 (c : Dev nD) (t : Fin cfg4.N) (u : S64x64.Idx) : iblk4 V c 4 t u = V c main_arg17 u := by
  obtain ⟨-, -, -, -, -, -, -, -, e0, e1, -, -, -, -⟩ := idx t
  show V c main_arg17 (((cfg4.win 4).blk t).view.emb u) = V c main_arg17 u
  refine congrArg (V c main_arg17) (funext fun a => Fin.ext ?_)
  match a with
  | ⟨0, _⟩ => show win4_4.index t (0 : Fin 2) * 64 + 1 * (u 0).val = (u 0).val; omega
  | ⟨1, _⟩ => show win4_4.index t (1 : Fin 2) * 64 + 1 * (u 1).val = (u 1).val; omega

/-- Window 5's block at every point is its whole array. -/
theorem read_5 (c : Dev nD) (t : Fin cfg4.N) (u : S1x64.Idx) : iblk4 V c 5 t u = V c main_v56 u := by
  obtain ⟨-, -, -, -, -, -, -, -, -, -, e0, e1, -, -⟩ := idx t
  show V c main_v56 (((cfg4.win 5).blk t).view.emb u) = V c main_v56 u
  refine congrArg (V c main_v56) (funext fun a => Fin.ext ?_)
  match a with
  | ⟨0, _⟩ => show win4_5.index t (0 : Fin 2) * 1 + 1 * (u 0).val = (u 0).val; omega
  | ⟨1, _⟩ => show win4_5.index t (1 : Fin 2) * 64 + 1 * (u 1).val = (u 1).val; omega

/-- WHAT POINT `t` WRITES BACK is block `t` of the body's function of the arrays as the region finds them. -/
theorem flushed_eq (c : Dev nD) (t : Fin cfg4.N) :
    (dat4 V c).flushed 6 t = ((cfg4.win 6).blk t).view.read (Elt Ideal) (combine (V c main_v55) (V c main_v16) (V c main_v31) (V c main_arg16) (V c main_arg17) (V c main_v56)) := by
  show (cfg4.win 6).cut (grid4.coords t) ((dat4 V c).after 6 t) = _
  rw [after4_6]
  unfold out4_6
  rw [View.canon_unit_zero off2_zero]
  simp only [View.ld_unit_zero (S := S5000x64) off2_zero, View.ld_unit_zero (S := S5000x1) off2_zero, View.ld_unit_zero (S := S64x64) off2_zero, View.ld_unit_zero (S := S1x64) off2_zero]
  rw [pay4 (iblk4 V c 0 t) (iblk4 V c 1 t) (iblk4 V c 2 t) (iblk4 V c 3 t) (iblk4 V c 4 t) (iblk4 V c 5 t)]
  obtain ⟨-, -, -, -, -, -, -, -, -, -, -, -, e0, e1⟩ := idx t
  funext j
  show (combine (iblk4 V c 0 t) (iblk4 V c 1 t) (iblk4 V c 2 t) (iblk4 V c 3 t) (iblk4 V c 4 t) (iblk4 V c 5 t)) j = (combine (V c main_v55) (V c main_v16) (V c main_v31) (V c main_arg16) (V c main_arg17) (V c main_v56)) (((cfg4.win 6).blk t).view.emb j)
  refine block_combine (iblk4 V c 0 t) (V c main_v55) (iblk4 V c 1 t) (V c main_v16) (iblk4 V c 2 t) (V c main_v31) (iblk4 V c 3 t) (V c main_arg16) (iblk4 V c 4 t) (V c main_arg17) (iblk4 V c 5 t) (V c main_v56) (t.val * 5000) j (((cfg4.win 6).blk t).view.emb j) ?_ ?_
    (fun u z h0 h1 => read_0 V c t u z h0 h1) (fun u z h0 h1 => read_1 V c t u z h0 h1) (fun u z h0 h1 => read_2 V c t u z h0 h1) (fun u => read_3 V c t u) (fun u => read_4 V c t u) (fun u => read_5 V c t u)
  · show win4_6.index t (0 : Fin 2) * 5000 + 1 * (j 0).val = t.val * 5000 + (j 0).val; omega
  · show win4_6.index t (1 : Fin 2) * 64 + 1 * (j 1).val = (j 1).val; omega

/-- An index of the result array is in point `t`'s block iff each coordinate is in the block's range on its axis. -/
theorem mem_blk (t : Fin cfg4.N) (i : S20000x64.Idx) :
    i ∈ ((cfg4.win 6).blk t).view.set ↔ ∀ a : Fin 2, win4_6.index t a * S5000x64.size a ≤ (i a).val
      ∧ (i a).val < win4_6.index t a * S5000x64.size a + S5000x64.size a := by
  show i ∈ ((View.whole main_v57).slice (win4_6.rect t)).set ↔ _
  rw [View.set_slice_whole, Rect.mem_set_unit]
  exact Iff.rfl

/-- Every block of rows is some point's. -/
theorem onto : ∀ q : Fin 4, ∃ t : Fin cfg4.N, win4_6.index t = ![q.val, 0] :=
  (by decide +kernel : ∀ q : Fin 4, ∃ t : Fin grid4.N, win4_6.index t = ![q.val, 0])

/-- The blocks tile the result: row `r` is in the block of point `r / 5000`. -/
theorem cover (i : S20000x64.Idx) :
    ∃ t : Fin cfg4.N, (cfg4.win 6).flush t = true ∧ i ∈ ((cfg4.win 6).blk t).view.set := by
  have hi0 : (i 0).val < 20000 := (i 0).isLt
  have hi1 : (i 1).val < 64 := (i 1).isLt
  obtain ⟨t, ht⟩ := onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

/-- THE RESULT ARRAY AFTER THE REGION is the body's function of the arrays the region was entered with. -/
theorem final (c : Dev nD) : (dat4 V c).arrAt 6 cfg4.N = combine (V c main_v55) (V c main_v16) (V c main_v31) (V c main_arg16) (V c main_arg17) (V c main_v56) :=
  (dat4 V c).arrAt_eq_of_cover 6 (combine (V c main_v55) (V c main_v16) (V c main_v31) (V c main_arg16) (V c main_arg17) (V c main_v56)) (fun t _ => flushed_eq V c t) cover

end Cert.KernelIdeal.Region4

end
-- ==== Proof.Region5.lean ====
/-
  KERNEL REGION 5 AS ONE FUNCTION OF WHOLE ARRAYS, at the ideal values.

  The region runs the round body on a grid of 10 points; point `t` stages rows `5000·t … 5000·t + 4999` of every tall
  operand, the whole of every other operand, and writes rows `5000·t …` of the result back.  What point `t` writes back is
  therefore that block of rows of the body's function applied to the whole arrays (a block of rows of the network is the
  network of the block), the blocks tile the 50000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Window 0's block at point `t` is rows `5000·t, …` of its array. -/
theorem read_0 (c : Dev nD) (t : Fin cfg5.N) (u : S5000x64.Idx) (z : S50000x64.Idx)
    (h0 : (z 0).val = t.val * 5000 + (u 0).val) (h1 : (z 1).val = (u 1).val) :
    iblk5 V c 0 t u = V c main_v68 z := by
  obtain ⟨e0, e1, -, -, -, -, -, -, -, -, -, -, -, -⟩ := idx t
  show V c main_v68 (((cfg5.win 0).blk t).view.emb u) = V c main_v68 z
  refine congrArg (V c main_v68) (funext fun a => Fin.ext ?_)
  match a with
  | ⟨0, _⟩ => show win5_0.index t (0 : Fin 2) * 5000 + 1 * (u 0).val = (z 0).val; omega
  | ⟨1, _⟩ => show win5_0.index t (1 : Fin 2) * 64 + 1 * (u 1).val = (z 1).val; omega

/-- Window 1's block at point `t` is rows `5000·t, …` of its array. -/
theorem read_1 (c : Dev nD) (t : Fin cfg5.N) (u : S5000x1.Idx) (z : S50000x1.Idx)
    (h0 : (z 0).val = t.val * 5000 + (u 0).val) (h1 : (z 1).val = (u 1).val) :
    iblk5 V c 1 t u = V c main_v18 z := by
  obtain ⟨-, -, e0, e1, -, -, -, -, -, -, -, -, -, -⟩ := idx t
  show V c main_v18 (((cfg5.win 1).blk t).view.emb u) = V c main_v18 z
  refine congrArg (V c main_v18) (funext fun a => Fin.ext ?_)
  match a with
  | ⟨0, _⟩ => show win5_1.index t (0 : Fin 2) * 5000 + 1 * (u 0).val = (z 0).val; omega
  | ⟨1, _⟩ => show win5_1.index t (1 : Fin 2) * 1 + 1 * (u 1).val = (z 1).val; omega

/-- Window 2's block at point `t` is rows `5000·t, …` of its array. -/
theorem read_2 (c : Dev nD) (t : Fin cfg5.N) (u : S5000x64.Idx) (z : S50000x64.Idx)
    (h0 : (z 0).val = t.val * 5000 + (u 0).val) (h1 : (z 1).val = (u 1).val) :
    iblk5 V c 2 t u = V c main_v44 z := by
  obtain ⟨-, -, -, -, e0, e1, -, -, -, -, -, -, -, -⟩ := idx t
  show V c main_v44 (((cfg5.win 2).blk t).view.emb u) = V c main_v44 z
  refine congrArg (V c main_v44) (funext fun a => Fin.ext ?_)
  match a with
  | ⟨0, _⟩ => show win5_2.index t (0 : Fin 2) * 5000 + 1 * (u 0).val = (z 0).val; omega
  | ⟨1, _⟩ => show win5_2.index t (1 : Fin 2) * 64 + 1 * (u 1).val = (z 1).val; omega

/-- Window 3's block at every point is its whole array. -/
theorem read_3 (c : Dev nD) (t : Fin cfg5.N) (u : S64x64.Idx) : iblk5 V c 3 t u = V c main_arg19 u := by
  obtain ⟨-, -, -, -, -, -, e0, e1, -, -, -, -, -, -⟩ := idx t
  show V c main_arg19 (((cfg5.win 3).blk t).view.emb u) = V c main_arg19 u
  refine congrArg (V c main_arg19) (funext fun a => Fin.ext ?_)
  match a with
  | ⟨0, _⟩ => show win5_3.index t (0 : Fin 2) * 64 + 1 * (u 0).val = (u 0).val; omega
  | ⟨1, _⟩ => show win5_3.index t (1 : Fin 2) * 64 + 1 * (u 1).val = (u 1).val; omega

/-- Window 4's block at every point is its whole array. -/
theorem read_4 (c : Dev nD) (t : Fin cfg5.N) (u : S64x64.Idx) : iblk5 V c 4 t u = V c main_arg20 u := by
  obtain ⟨-, -, -, -, -, -, -, -, e0, e1, -, -, -, -⟩ := idx t
  show V c main_arg20 (((cfg5.win 4).blk t).view.emb u) = V c main_arg20 u
  refine congrArg (V c main_arg20) (funext fun a => Fin.ext ?_)
  match a with
  | ⟨0, _⟩ => show win5_4.index t (0 : Fin 2) * 64 + 1 * (u 0).val = (u 0).val; omega
  | ⟨1, _⟩ => show win5_4.index t (1 : Fin 2) * 64 + 1 * (u 1).val = (u 1).val; omega

/-- Window 5's block at every point is its whole array. -/
theorem read_5 (c : Dev nD) (t : Fin cfg5.N) (u : S1x64.Idx) : iblk5 V c 5 t u = V c main_v69 u := by
  obtain ⟨-, -, -, -, -, -, -, -, -, -, e0, e1, -, -⟩ := idx t
  show V c main_v69 (((cfg5.win 5).blk t).view.emb u) = V c main_v69 u
  refine congrArg (V c main_v69) (funext fun a => Fin.ext ?_)
  match a with
  | ⟨0, _⟩ => show win5_5.index t (0 : Fin 2) * 1 + 1 * (u 0).val = (u 0).val; omega
  | ⟨1, _⟩ => show win5_5.index t (1 : Fin 2) * 64 + 1 * (u 1).val = (u 1).val; omega

/-- WHAT POINT `t` WRITES BACK is block `t` of the body's function of the arrays as the region finds them. -/
theorem flushed_eq (c : Dev nD) (t : Fin cfg5.N) :
    (dat5 V c).flushed 6 t = ((cfg5.win 6).blk t).view.read (Elt Ideal) (combine (V c main_v68) (V c main_v18) (V c main_v44) (V c main_arg19) (V c main_arg20) (V c main_v69)) := by
  show (cfg5.win 6).cut (grid5.coords t) ((dat5 V c).after 6 t) = _
  rw [after5_6]
  unfold out5_6
  rw [View.canon_unit_zero off2_zero]
  simp only [View.ld_unit_zero (S := S5000x64) off2_zero, View.ld_unit_zero (S := S5000x1) off2_zero, View.ld_unit_zero (S := S64x64) off2_zero, View.ld_unit_zero (S := S1x64) off2_zero]
  rw [pay5 (iblk5 V c 0 t) (iblk5 V c 1 t) (iblk5 V c 2 t) (iblk5 V c 3 t) (iblk5 V c 4 t) (iblk5 V c 5 t)]
  obtain ⟨-, -, -, -, -, -, -, -, -, -, -, -, e0, e1⟩ := idx t
  funext j
  show (combine (iblk5 V c 0 t) (iblk5 V c 1 t) (iblk5 V c 2 t) (iblk5 V c 3 t) (iblk5 V c 4 t) (iblk5 V c 5 t)) j = (combine (V c main_v68) (V c main_v18) (V c main_v44) (V c main_arg19) (V c main_arg20) (V c main_v69)) (((cfg5.win 6).blk t).view.emb j)
  refine block_combine (iblk5 V c 0 t) (V c main_v68) (iblk5 V c 1 t) (V c main_v18) (iblk5 V c 2 t) (V c main_v44) (iblk5 V c 3 t) (V c main_arg19) (iblk5 V c 4 t) (V c main_arg20) (iblk5 V c 5 t) (V c main_v69) (t.val * 5000) j (((cfg5.win 6).blk t).view.emb j) ?_ ?_
    (fun u z h0 h1 => read_0 V c t u z h0 h1) (fun u z h0 h1 => read_1 V c t u z h0 h1) (fun u z h0 h1 => read_2 V c t u z h0 h1) (fun u => read_3 V c t u) (fun u => read_4 V c t u) (fun u => read_5 V c t u)
  · show win5_6.index t (0 : Fin 2) * 5000 + 1 * (j 0).val = t.val * 5000 + (j 0).val; omega
  · show win5_6.index t (1 : Fin 2) * 64 + 1 * (j 1).val = (j 1).val; omega

/-- An index of the result array is in point `t`'s block iff each coordinate is in the block's range on its axis. -/
theorem mem_blk (t : Fin cfg5.N) (i : S50000x64.Idx) :
    i ∈ ((cfg5.win 6).blk t).view.set ↔ ∀ a : Fin 2, win5_6.index t a * S5000x64.size a ≤ (i a).val
      ∧ (i a).val < win5_6.index t a * S5000x64.size a + S5000x64.size a := by
  show i ∈ ((View.whole main_v70).slice (win5_6.rect t)).set ↔ _
  rw [View.set_slice_whole, Rect.mem_set_unit]
  exact Iff.rfl

/-- Every block of rows is some point's. -/
theorem onto : ∀ q : Fin 10, ∃ t : Fin cfg5.N, win5_6.index t = ![q.val, 0] :=
  (by decide +kernel : ∀ q : Fin 10, ∃ t : Fin grid5.N, win5_6.index t = ![q.val, 0])

/-- The blocks tile the result: row `r` is in the block of point `r / 5000`. -/
theorem cover (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  obtain ⟨t, ht⟩ := onto ⟨(i 0).val / 5000, by omega⟩
  have q0 : win5_6.index t (0 : Fin 2) = (i 0).val / 5000 := congrFun ht 0
  have q1 : win5_6.index t (1 : Fin 2) = 0 := congrFun ht 1
  refine ⟨t, flush5_6 t, ?_⟩
  rw [mem_blk]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- THE RESULT ARRAY AFTER THE REGION is the body's function of the arrays the region was entered with. -/
theorem final (c : Dev nD) : (dat5 V c).arrAt 6 cfg5.N = combine (V c main_v68) (V c main_v18) (V c main_v44) (V c main_arg19) (V c main_arg20) (V c main_v69) :=
  (dat5 V c).arrAt_eq_of_cover 6 (combine (V c main_v68) (V c main_v18) (V c main_v44) (V c main_arg19) (V c main_arg20) (V c main_v69)) (fun t _ => flushed_eq V c t) cover

end Cert.KernelIdeal.Region5

end
-- ==== Proof.Region6.lean ====
/-
  KERNEL REGION 6 AS ONE FUNCTION OF WHOLE ARRAYS, at the ideal values.

  The region runs the half classifier body on a grid of 5 points; point `t` stages rows `10000·t … 10000·t + 9999` of every tall
  operand, the whole of every other operand, and writes rows `10000·t …` of the result back.  What point `t` writes back is
  therefore that block of rows of the body's function applied to the whole arrays (a block of rows of the network is the
  network of the block), the blocks tile the 50000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Window 0's block at point `t` is rows `10000·t, …` of its array. -/
theorem read_0 (c : Dev nD) (t : Fin cfg6.N) (u : S10000x64.Idx) (z : S50000x64.Idx)
    (h0 : (z 0).val = t.val * 10000 + (u 0).val) (h1 : (z 1).val = (u 1).val) :
    iblk6 V c 0 t u = V c main_v70 z := by
  obtain ⟨e0, e1, -, -, -, -, -, -⟩ := idx t
  show V c main_v70 (((cfg6.win 0).blk t).view.emb u) = V c main_v70 z
  refine congrArg (V c main_v70) (funext fun a => Fin.ext ?_)
  match a with
  | ⟨0, _⟩ => show win6_0.index t (0 : Fin 2) * 10000 + 1 * (u 0).val = (z 0).val; omega
  | ⟨1, _⟩ => show win6_0.index t (1 : Fin 2) * 64 + 1 * (u 1).val = (z 1).val; omega

/-- Window 1's block at every point is its whole array. -/
theorem read_1 (c : Dev nD) (t : Fin cfg6.N) (u : S64x2.Idx) : iblk6 V c 1 t u = V c main_v71 u := by
  obtain ⟨-, -, e0, e1, -, -, -, -⟩ := idx t
  show V c main_v71 (((cfg6.win 1).blk t).view.emb u) = V c main_v71 u
  refine congrArg (V c main_v71) (funext fun a => Fin.ext ?_)
  match a with
  | ⟨0, _⟩ => show win6_1.index t (0 : Fin 2) * 64 + 1 * (u 0).val = (u 0).val; omega
  | ⟨1, _⟩ => show win6_1.index t (1 : Fin 2) * 2 + 1 * (u 1).val = (u 1).val; omega

/-- Window 2's block at every point is its whole array. -/
theorem read_2 (c : Dev nD) (t : Fin cfg6.N) (u : S1x2.Idx) : iblk6 V c 2 t u = V c main_v74 u := by
  obtain ⟨-, -, -, -, e0, e1, -, -⟩ := idx t
  show V c main_v74 (((cfg6.win 2).blk t).view.emb u) = V c main_v74 u
  refine congrArg (V c main_v74) (funext fun a => Fin.ext ?_)
  match a with
  | ⟨0, _⟩ => show win6_2.index t (0 : Fin 2) * 1 + 1 * (u 0).val = (u 0).val; omega
  | ⟨1, _⟩ => show win6_2.index t (1 : Fin 2) * 2 + 1 * (u 1).val = (u 1).val; omega

/-- WHAT POINT `t` WRITES BACK is block `t` of the body's function of the arrays as the region finds them. -/
theorem flushed_eq (c : Dev nD) (t : Fin cfg6.N) :
    (dat6 V c).flushed 3 t = ((cfg6.win 3).blk t).view.read (Elt Ideal) (layerArr (V c main_v70) (V c main_v71) (unrow (V c main_v74))) := by
  show (cfg6.win 3).cut (grid6.coords t) ((dat6 V c).after 3 t) = _
  rw [after6_3]
  unfold out6_3
  rw [View.canon_unit_zero off2_zero]
  simp only [View.ld_unit_zero (S := S10000x64) off2_zero, View.ld_unit_zero (S := S64x2) off2_zero, View.ld_unit_zero (S := S1x2) off2_zero]
  rw [pay6 (iblk6 V c 0 t) (iblk6 V c 1 t) (iblk6 V c 2 t)]
  obtain ⟨-, -, -, -, -, -, e0, e1⟩ := idx t
  funext j
  show (layerArr (iblk6 V c 0 t) (iblk6 V c 1 t) (unrow (iblk6 V c 2 t))) j = (layerArr (V c main_v70) (V c main_v71) (unrow (V c main_v74))) (((cfg6.win 3).blk t).view.emb j)
  refine block_layer (iblk6 V c 0 t) (V c main_v70) (iblk6 V c 1 t) (V c main_v71) (iblk6 V c 2 t) (V c main_v74) (t.val * 10000) j (((cfg6.win 3).blk t).view.emb j) ?_ ?_
    (fun u z h0 h1 => read_0 V c t u z h0 h1) (fun u => read_1 V c t u) (fun u => read_2 V c t u)
  · show win6_3.index t (0 : Fin 2) * 10000 + 1 * (j 0).val = t.val * 10000 + (j 0).val; omega
  · show win6_3.index t (1 : Fin 2) * 2 + 1 * (j 1).val = (j 1).val; omega

/-- An index of the result array is in point `t`'s block iff each coordinate is in the block's range on its axis. -/
theorem mem_blk (t : Fin cfg6.N) (i : S50000x2.Idx) :
    i ∈ ((cfg6.win 3).blk t).view.set ↔ ∀ a : Fin 2, win6_3.index t a * S10000x2.size a ≤ (i a).val
      ∧ (i a).val < win6_3.index t a * S10000x2.size a + S10000x2.size a := by
  show i ∈ ((View.whole main_v75).slice (win6_3.rect t)).set ↔ _
  rw [View.set_slice_whole, Rect.mem_set_unit]
  exact Iff.rfl

/-- Every block of rows is some point's. -/
theorem onto : ∀ q : Fin 5, ∃ t : Fin cfg6.N, win6_3.index t = ![q.val, 0] :=
  (by decide +kernel : ∀ q : Fin 5, ∃ t : Fin grid6.N, win6_3.index t = ![q.val, 0])

/-- The blocks tile the result: row `r` is in the block of point `r / 10000`. -/
theorem cover (i : S50000x2.Idx) :
    ∃ t : Fin cfg6.N, (cfg6.win 3).flush t = true ∧ i ∈ ((cfg6.win 3).blk t).view.set := by
  have hi0 : (i 0).val < 50000 := (i 0).isLt
  have hi1 : (i 1).val < 2 := (i 1).isLt
  obtain ⟨t, ht⟩ := onto ⟨(i 0).val / 10000, by omega⟩
  have q0 : win6_3.index t (0 : Fin 2) = (i 0).val / 10000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 2 ≤ (i 1).val ∧ (i 1).val < win6_3.index t (1 : Fin 2) * 2 + 2; omega

/-- THE RESULT ARRAY AFTER THE REGION is the body's function of the arrays the region was entered with. -/
theorem final (c : Dev nD) : (dat6 V c).arrAt 3 cfg6.N = layerArr (V c main_v70) (V c main_v71) (unrow (V c main_v74)) :=
  (dat6 V c).arrAt_eq_of_cover 3 (layerArr (V c main_v70) (V c main_v71) (unrow (V c main_v74))) (fun t _ => flushed_eq V c t) cover

end Cert.KernelIdeal.Region6

end
-- ==== Proof.Region7.lean ====
/-
  KERNEL REGION 7 AS ONE FUNCTION OF WHOLE ARRAYS, at the ideal values.

  The region runs the half classifier body on a grid of 2 points; point `t` stages rows `10000·t … 10000·t + 9999` of every tall
  operand, the whole of every other operand, and writes rows `10000·t …` of the result back.  What point `t` writes back is
  therefore that block of rows of the body's function applied to the whole arrays (a block of rows of the network is the
  network of the block), the blocks tile the 20000 rows, and so the result array after the region is the function of the
  arrays the region was entered with — whatever those are (`V` is a parameter).
-/
import proofs.«179018_j25391846654580_2_alg».proof.Proof.Gen.KernelIdeal.Frame
import proofs.«179018_j25391846654580_2_alg».proof.Proof.Pay

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PayValue
open Cert.DenseRow Cert.RowBias Cert.Sage
open Cert.KernelIdeal.RegionValue (off2_zero)

variable (V : (c : Dev nD) → (b : Ref sig .tc) → Buf (Elt Ideal) ((c : Thread nD τ).loc b))

/-- The printed index maps over the grid: a tall operand's block index is the point, every other is zero. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Window 0's block at point `t` is rows `10000·t, …` of its array. -/
theorem read_0 (c : Dev nD) (t : Fin cfg7.N) (u : S10000x64.Idx) (z : S20000x64.Idx)
    (h0 : (z 0).val = t.val * 10000 + (u 0).val) (h1 : (z 1).val = (u 1).val) :
    iblk7 V c 0 t u = V c main_v57 z := by
  obtain ⟨e0, e1, -, -, -, -, -, -⟩ := idx t
  show V c main_v57 (((cfg7.win 0).blk t).view.emb u) = V c main_v57 z
  refine congrArg (V c main_v57) (funext fun a => Fin.ext ?_)
  match a with
  | ⟨0, _⟩ => show win7_0.index t (0 : Fin 2) * 10000 + 1 * (u 0).val = (z 0).val; omega
  | ⟨1, _⟩ => show win7_0.index t (1 : Fin 2) * 64 + 1 * (u 1).val = (z 1).val; omega

/-- Window 1's block at every point is its whole array. -/
theorem read_1 (c : Dev nD) (t : Fin cfg7.N) (u : S64x2.Idx) : iblk7 V c 1 t u = V c main_v72 u := by
  obtain ⟨-, -, e0, e1, -, -, -, -⟩ := idx t
  show V c main_v72 (((cfg7.win 1).blk t).view.emb u) = V c main_v72 u
  refine congrArg (V c main_v72) (funext fun a => Fin.ext ?_)
  match a with
  | ⟨0, _⟩ => show win7_1.index t (0 : Fin 2) * 64 + 1 * (u 0).val = (u 0).val; omega
  | ⟨1, _⟩ => show win7_1.index t (1 : Fin 2) * 2 + 1 * (u 1).val = (u 1).val; omega

/-- Window 2's block at every point is its whole array. -/
theorem read_2 (c : Dev nD) (t : Fin cfg7.N) (u : S1x2.Idx) : iblk7 V c 2 t u = V c main_v76 u := by
  obtain ⟨-, -, -, -, e0, e1, -, -⟩ := idx t
  show V c main_v76 (((cfg7.win 2).blk t).view.emb u) = V c main_v76 u
  refine congrArg (V c main_v76) (funext fun a => Fin.ext ?_)
  match a with
  | ⟨0, _⟩ => show win7_2.index t (0 : Fin 2) * 1 + 1 * (u 0).val = (u 0).val; omega
  | ⟨1, _⟩ => show win7_2.index t (1 : Fin 2) * 2 + 1 * (u 1).val = (u 1).val; omega

/-- WHAT POINT `t` WRITES BACK is block `t` of the body's function of the arrays as the region finds them. -/
theorem flushed_eq (c : Dev nD) (t : Fin cfg7.N) :
    (dat7 V c).flushed 3 t = ((cfg7.win 3).blk t).view.read (Elt Ideal) (layerArr (V c main_v57) (V c main_v72) (unrow (V c main_v76))) := by
  show (cfg7.win 3).cut (grid7.coords t) ((dat7 V c).after 3 t) = _
  rw [after7_3]
  unfold out7_3
  rw [View.canon_unit_zero off2_zero]
  simp only [View.ld_unit_zero (S := S10000x64) off2_zero, View.ld_unit_zero (S := S64x2) off2_zero, View.ld_unit_zero (S := S1x2) off2_zero]
  rw [pay7 (iblk7 V c 0 t) (iblk7 V c 1 t) (iblk7 V c 2 t)]
  obtain ⟨-, -, -, -, -, -, e0, e1⟩ := idx t
  funext j
  show (layerArr (iblk7 V c 0 t) (iblk7 V c 1 t) (unrow (iblk7 V c 2 t))) j = (layerArr (V c main_v57) (V c main_v72) (unrow (V c main_v76))) (((cfg7.win 3).blk t).view.emb j)
  refine block_layer (iblk7 V c 0 t) (V c main_v57) (iblk7 V c 1 t) (V c main_v72) (iblk7 V c 2 t) (V c main_v76) (t.val * 10000) j (((cfg7.win 3).blk t).view.emb j) ?_ ?_
    (fun u z h0 h1 => read_0 V c t u z h0 h1) (fun u => read_1 V c t u) (fun u => read_2 V c t u)
  · show win7_3.index t (0 : Fin 2) * 10000 + 1 * (j 0).val = t.val * 10000 + (j 0).val; omega
  · show win7_3.index t (1 : Fin 2) * 2 + 1 * (j 1).val = (j 1).val; omega

/-- An index of the result array is in point `t`'s block iff each coordinate is in the block's range on its axis. -/
theorem mem_blk (t : Fin cfg7.N) (i : S20000x2.Idx) :
    i ∈ ((cfg7.win 3).blk t).view.set ↔ ∀ a : Fin 2, win7_3.index t a * S10000x2.size a ≤ (i a).val
      ∧ (i a).val < win7_3.index t a * S10000x2.size a + S10000x2.size a := by
  show i ∈ ((View.whole main_v77).slice (win7_3.rect t)).set ↔ _
  rw [View.set_slice_whole, Rect.mem_set_unit]
  exact Iff.rfl

/-- Every block of rows is some point's. -/
theorem onto : ∀ q : Fin 2, ∃ t : Fin cfg7.N, win7_3.index t = ![q.val, 0] :=
  (by decide +kernel : ∀ q : Fin 2, ∃ t : Fin grid7.N, win7_3.index t = ![q.val, 0])

/-- The blocks tile the result: row `r` is in the block of point `r / 10000`. -/
theorem cover (i : S20000x2.Idx) :
    ∃ t : Fin cfg7.N, (cfg7.win 3).flush t = true ∧ i ∈ ((cfg7.win 3).blk t).view.set := by
  have hi0 : (i 0).val < 20000 := (i 0).isLt
  have hi1 : (i 1).val < 2 := (i 1).isLt
  obtain ⟨t, ht⟩ := onto ⟨(i 0).val / 10000, by omega⟩
  have q0 : win7_3.index t (0 : Fin 2) = (i 0).val / 10000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 2 ≤ (i 1).val ∧ (i 1).val < win7_3.index t (1 : Fin 2) * 2 + 2; omega

/-- THE RESULT ARRAY AFTER THE REGION is the body's function of the arrays the region was entered with. -/
theorem final (c : Dev nD) : (dat7 V c).arrAt 3 cfg7.N = layerArr (V c main_v57) (V c main_v72) (unrow (V c main_v76)) :=
  (dat7 V c).arrAt_eq_of_cover 3 (layerArr (V c main_v57) (V c main_v72) (unrow (V c main_v76))) (fun t _ => flushed_eq V c t) cover

end Cert.KernelIdeal.Region7

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.HostForms.lean ====
/-
  THE HOST'S SPELLINGS OF THE MEAN'S PIECES, at the ideal values.

  On the host a scalar constant is broadcast to an array, a column of counts is floored at the constant one by an
  entrywise maximum, a reciprocal column is the constant one divided entrywise by that, and the quotient of summed rows by
  the floored counts broadcasts the column over the rows first.  Each is read here as the function of whole arrays that
  the network is stated with: `floorOne`, `recipCol`, `divRows`.
-/
import proofs.«179018_j25391846654580_2_alg».proof.Proof.Blocks
import proofs.«179018_j25391846654580_2_alg».proof.Proof.LibRowIndex
import Idealize.ShloMosaic.Lib.ValueLayout

noncomputable section

namespace Cert.Sage

open Idealize.ShloMosaic Idealize.ShloMosaic.ValueIdx Cert.DenseRow Cert.RowBias

/-- A scalar constant broadcast to any shape reads, at every index, the value of its word. -/
theorem bcast_const {s : Shape} (h : (⟨0, ![]⟩ : Shape).BroadcastsInDim s ![]) (w : BitVec 32) (i : s.Idx) :
    broadcastInDim s ![] h (constant (F := Ideal) ⟨0, ![]⟩ .f32 w) i = Ideal.ofBits .f32 w := by
  rw [broadcastInDim_apply _ h _ i ix0 (fun a => a.elim0)]
  rfl

/-- The entrywise maximum of a column with the constant one is the column floored at one. -/
theorem floor_host {R : ℕ} (h : (⟨0, ![]⟩ : Shape).BroadcastsInDim ⟨2, ![R, 1]⟩ ![]) (cnt : Arr R 1) :
    maximumf (F := Ideal) cnt (broadcastInDim ⟨2, ![R, 1]⟩ ![] h (constant ⟨0, ![]⟩ .f32 0x3F800000#32)) = floorOne cnt := by
  funext i
  show max (cnt i) (broadcastInDim ⟨2, ![R, 1]⟩ ![] h (constant (F := Ideal) ⟨0, ![]⟩ .f32 0x3F800000#32) i) = max (cnt i) one
  rw [bcast_const]
  rfl

/-- The constant one divided entrywise by the floored counts is the column of their reciprocals. -/
theorem recip_host {R : ℕ} (h : (⟨0, ![]⟩ : Shape).BroadcastsInDim ⟨2, ![R, 1]⟩ ![]) (cnt : Arr R 1) :
    Host.divf (F := Ideal) (broadcastInDim ⟨2, ![R, 1]⟩ ![] h (constant ⟨0, ![]⟩ .f32 0x3F800000#32))
        (maximumf (F := Ideal) cnt (broadcastInDim ⟨2, ![R, 1]⟩ ![] h (constant ⟨0, ![]⟩ .f32 0x3F800000#32)))
      = recipCol (floorOne cnt) := by
  rw [floor_host]
  funext i
  show Ideal.div (broadcastInDim ⟨2, ![R, 1]⟩ ![] h (constant (F := Ideal) ⟨0, ![]⟩ .f32 0x3F800000#32) i) (floorOne cnt i)
      = Ideal.div one (floorOne cnt i)
  rw [bcast_const]
  rfl

/-- An array divided entrywise by a column broadcast over its rows is each row divided by the column's entry. -/
theorem div_col_host {R K : ℕ} (s : Arr R K) (d : Arr R 1)
    (h : (⟨2, ![R, 1]⟩ : Shape).BroadcastsInDim ⟨2, ![R, K]⟩ ![0, 1]) :
    Host.divf (F := Ideal) (φ := .f32) s (broadcastInDim ⟨2, ![R, K]⟩ ![0, 1] h d) = divRows s d := by
  funext i
  obtain ⟨p, c, rfl⟩ : ∃ (p : Fin R) (c : Fin K), i = ix2 p c := ⟨i 0, i 1, eq_ix2 i⟩
  show Ideal.div (s (ix2 p c)) (broadcastInDim ⟨2, ![R, K]⟩ ![0, 1] h d (ix2 p c)) = Ideal.div (s (ix2 p c)) (d (ix2 p (0 : Fin 1)))
  rw [broadcastInDim_apply _ h d (ix2 p c) (ix2 p (0 : Fin 1)) fun ax => by
    match ax with
    | ⟨0, _⟩ =>
      show p.val = if R = 1 then 0 else p.val
      split
      · have := p.isLt; omega
      · rfl
    | ⟨1, _⟩ => show 0 = if (1 : ℕ) = 1 then 0 else c.val; rw [if_pos rfl]]

/-- Rows `0 … 63` cut from the classifier's weights are their top half. -/
theorem top_host (w : Arr 128 2) (h : (⟨2, ![128, 2]⟩ : Shape).Slices ![0, 0] ⟨2, ![64, 2]⟩) :
    extractStridedSlice ⟨2, ![64, 2]⟩ ![0, 0] w h = topHalf w := by
  funext i
  obtain ⟨j, e, rfl⟩ : ∃ (j : Fin 64) (e : Fin 2), i = ix2 j e := ⟨i 0, i 1, eq_ix2 i⟩
  exact slice2_axis0_apply 0 w h j e ⟨j.val, by have := j.isLt; omega⟩ (Nat.zero_add _).symm

/-- Rows `64 … 127` cut from the classifier's weights are their bottom half. -/
theorem bot_host (w : Arr 128 2) (h : (⟨2, ![128, 2]⟩ : Shape).Slices ![64, 0] ⟨2, ![64, 2]⟩) :
    extractStridedSlice ⟨2, ![64, 2]⟩ ![64, 0] w h = botHalf w := by
  funext i
  obtain ⟨j, e, rfl⟩ : ∃ (j : Fin 64) (e : Fin 2), i = ix2 j e := ⟨i 0, i 1, eq_ix2 i⟩
  exact slice2_axis0_apply 64 w h j e ⟨64 + j.val, by have := j.isLt; omega⟩ rfl

/-- The zero constant broadcast to two entries and cast to one row is, read back as a vector, the zero bias. -/
theorem zero_row_host (h0 : (⟨0, ![]⟩ : Shape).BroadcastsInDim ⟨1, ![2]⟩ ![]) (hc : (⟨1, ![2]⟩ : Shape).ShapeCasts ⟨2, ![1, 2]⟩) :
    unrow (shapeCast ⟨2, ![1, 2]⟩ (broadcastInDim ⟨1, ![2]⟩ ![] h0 (constant (F := Ideal) ⟨0, ![]⟩ .f32 0x00000000#32)) hc) = zeroRow := by
  rw [unrow_cast]
  funext i
  exact bcast_const h0 _ i

/-- The host's row gather at an index column is the rows named by the column: each signed index clamped into the array. -/
theorem gather_rows {N E C w : ℕ} (hN : 0 < N)
    (wf : GatherDims.WF ⟨2, ![N, C]⟩ ⟨2, ![E, 1]⟩ ⟨2, ![E, C]⟩ [1] [0] [] [0] [] 1 ![1, C])
    (x : Arr N C) (idx : IVec ⟨2, ![E, 1]⟩ w) :
    Host.gather (Cert.RowIndex.rowGatherDims N E C wf) x idx
      = takeRows x (fun e => ⟨min (idx (ix2 e (0 : Fin 1))).toInt.toNat (N - 1), by omega⟩) := by
  funext i
  obtain ⟨e, c, rfl⟩ : ∃ (e : Fin E) (c : Fin C), i = ix2 e c := ⟨i 0, i 1, eq_ix2 i⟩
  exact Cert.RowIndex.rowGather_apply hN wf x idx e c

/-- The dense layer of equal operands. -/
theorem layerArr_congr {R K N : ℕ} {a a' : Arr R K} {w w' : Arr K N} {b b' : Row N} (ha : a = a') (hw : w = w') (hb : b = b') :
    layerArr a w b = layerArr a' w' b' := by rw [ha, hw, hb]

/-- The round of equal operands. -/
theorem combine_congr {R : ℕ} {s s' : Arr R 64} {r r' : Arr R 1} {xd xd' : Arr R 64} {wl wl' wr wr' : Arr 64 64} {b b' : Arr 1 64}
    (hs : s = s') (hr : r = r') (hx : xd = xd') (hwl : wl = wl') (hwr : wr = wr') (hb : b = b') :
    combine s r xd wl wr b = combine s' r' xd' wl' wr' b' := by rw [hs, hr, hx, hwl, hwr, hb]

end Cert.Sage

end
-- ==== Proof.KFold.lean ====
/-
  THE KERNEL PROGRAM'S RESULT AS ONE FUNCTION OF ITS ARGUMENTS, at the ideal values.

  The program's @main is nine stretches of host operations around eight kernel regions.  Its buffers' contents at the
  seventeen boundaries between them form a chain: a stretch leaves in each buffer it writes the operation's function of
  its operands and leaves every other buffer alone; a region leaves in its result array the body's function of the
  arrays it was entered with (the region modules) and leaves every other buffer — its own input arrays included — alone.
  Walking the chain back from the result array gives the result as a composition of those functions over the arguments
  as launched, and that composition is the network with the mean taken as a product (`outK`):
  region 0 and 1 project the two sides' inputs; between regions the host counts the edges at each node, takes the
  reciprocals of the counts floored at one, collects the rows of each edge's far node and sums them into the near node;
  regions 2 to 5 are the two rounds at the two sides; regions 6 and 7 are the two half classifiers on the halves of the
  classifier's weights (the first with a zero bias); the last stretch reads both at each pair's nodes and adds.
-/
import proofs.«179018_j25391846654580_2_alg».proof.Proof.KRun
import proofs.«179018_j25391846654580_2_alg».proof.Proof.Region0
import proofs.«179018_j25391846654580_2_alg».proof.Proof.Region1
import proofs.«179018_j25391846654580_2_alg».proof.Proof.Region2
import proofs.«179018_j25391846654580_2_alg».proof.Proof.Region3
import proofs.«179018_j25391846654580_2_alg».proof.Proof.Region4
import proofs.«179018_j25391846654580_2_alg».proof.Proof.Region5
import proofs.«179018_j25391846654580_2_alg».proof.Proof.Region6
import proofs.«179018_j25391846654580_2_alg».proof.Proof.Region7
import proofs.«179018_j25391846654580_2_alg».proof.Proof.HostForms

set_option maxRecDepth 16384

noncomputable section

namespace Cert.KernelIdeal.FoldValue

open Idealize.ShloMosaic Idealize.ShloMosaic.TcCoe Idealize.ShloMosaic.ValueIdx Idealize.SL.Sem
open Idealize.ShloMosaic.StableHlo
open Cert.KernelIdeal Cert.KernelIdeal.Gen
open Cert.DenseRow Cert.RowBias Cert.Sage

variable (m : (ℓ : Loc nD τ sig) → Buf (Elt Ideal) ℓ) (ρ : Dev nD → PrngReg) (c : Dev nD)

/-- A buffer that is not one of a region's arrays leaves the region as it entered it. -/
theorem keep0 (b : Ref sig .tc) (hb : ∀ w, Pipeline.arrRef spec0 w ≠ b) :
    W2 m ρ c (no_index (Proc.devRef .tc b)) = W1 m ρ c (Proc.devRef .tc b) := W2_of_ne m ρ c b hb
theorem keep1 (b : Ref sig .tc) (hb : ∀ w, Pipeline.arrRef spec1 w ≠ b) :
    W4 m ρ c (no_index (Proc.devRef .tc b)) = W3 m ρ c (Proc.devRef .tc b) := W4_of_ne m ρ c b hb
theorem keep2 (b : Ref sig .tc) (hb : ∀ w, Pipeline.arrRef spec2 w ≠ b) :
    W6 m ρ c (no_index (Proc.devRef .tc b)) = W5 m ρ c (Proc.devRef .tc b) := W6_of_ne m ρ c b hb
theorem keep3 (b : Ref sig .tc) (hb : ∀ w, Pipeline.arrRef spec3 w ≠ b) :
    W8 m ρ c (no_index (Proc.devRef .tc b)) = W7 m ρ c (Proc.devRef .tc b) := W8_of_ne m ρ c b hb
theorem keep4 (b : Ref sig .tc) (hb : ∀ w, Pipeline.arrRef spec4 w ≠ b) :
    W10 m ρ c (no_index (Proc.devRef .tc b)) = W9 m ρ c (Proc.devRef .tc b) := W10_of_ne m ρ c b hb
theorem keep5 (b : Ref sig .tc) (hb : ∀ w, Pipeline.arrRef spec5 w ≠ b) :
    W12 m ρ c (no_index (Proc.devRef .tc b)) = W11 m ρ c (Proc.devRef .tc b) := W12_of_ne m ρ c b hb
theorem keep6 (b : Ref sig .tc) (hb : ∀ w, Pipeline.arrRef spec6 w ≠ b) :
    W14 m ρ c (no_index (Proc.devRef .tc b)) = W13 m ρ c (Proc.devRef .tc b) := W14_of_ne m ρ c b hb
theorem keep7 (b : Ref sig .tc) (hb : ∀ w, Pipeline.arrRef spec7 w ≠ b) :
    W16 m ρ c (no_index (Proc.devRef .tc b)) = W15 m ρ c (Proc.devRef .tc b) := W16_of_ne m ρ c b hb

/-- An input window's array leaves its region as it entered it: no write-back touches it. -/
theorem keepIn0_0 : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))
theorem keepIn0_1 : W2 m ρ c (no_index (Proc.devRef .tc main_arg6)) = W1 m ρ c (Proc.devRef .tc main_arg6) :=
  (W2_arr m ρ c 1).trans (((dat0 (V1 m ρ) c).arrAt_in 1 rfl _).trans (A_eq0 (V1 m ρ) c 1))
theorem keepIn0_2 : W2 m ρ c (no_index (Proc.devRef .tc main_v0)) = W1 m ρ c (Proc.devRef .tc main_v0) :=
  (W2_arr m ρ c 2).trans (((dat0 (V1 m ρ) c).arrAt_in 2 rfl _).trans (A_eq0 (V1 m ρ) c 2))
theorem keepIn1_0 : W4 m ρ c (no_index (Proc.devRef .tc main_arg1)) = W3 m ρ c (Proc.devRef .tc main_arg1) :=
  (W4_arr m ρ c 0).trans (((dat1 (V3 m ρ) c).arrAt_in 0 rfl _).trans (A_eq1 (V3 m ρ) c 0))
theorem keepIn1_1 : W4 m ρ c (no_index (Proc.devRef .tc main_arg8)) = W3 m ρ c (Proc.devRef .tc main_arg8) :=
  (W4_arr m ρ c 1).trans (((dat1 (V3 m ρ) c).arrAt_in 1 rfl _).trans (A_eq1 (V3 m ρ) c 1))
theorem keepIn1_2 : W4 m ρ c (no_index (Proc.devRef .tc main_v2)) = W3 m ρ c (Proc.devRef .tc main_v2) :=
  (W4_arr m ρ c 2).trans (((dat1 (V3 m ρ) c).arrAt_in 2 rfl _).trans (A_eq1 (V3 m ρ) c 2))
theorem keepIn2_0 : W6 m ρ c (no_index (Proc.devRef .tc main_v29)) = W5 m ρ c (Proc.devRef .tc main_v29) :=
  (W6_arr m ρ c 0).trans (((dat2 (V5 m ρ) c).arrAt_in 0 rfl _).trans (A_eq2 (V5 m ρ) c 0))
theorem keepIn2_1 : W6 m ρ c (no_index (Proc.devRef .tc main_v16)) = W5 m ρ c (Proc.devRef .tc main_v16) :=
  (W6_arr m ρ c 1).trans (((dat2 (V5 m ρ) c).arrAt_in 1 rfl _).trans (A_eq2 (V5 m ρ) c 1))
theorem keepIn2_2 : W6 m ρ c (no_index (Proc.devRef .tc main_v3)) = W5 m ρ c (Proc.devRef .tc main_v3) :=
  (W6_arr m ρ c 2).trans (((dat2 (V5 m ρ) c).arrAt_in 2 rfl _).trans (A_eq2 (V5 m ρ) c 2))
theorem keepIn2_3 : W6 m ρ c (no_index (Proc.devRef .tc main_arg10)) = W5 m ρ c (Proc.devRef .tc main_arg10) :=
  (W6_arr m ρ c 3).trans (((dat2 (V5 m ρ) c).arrAt_in 3 rfl _).trans (A_eq2 (V5 m ρ) c 3))
theorem keepIn2_4 : W6 m ρ c (no_index (Proc.devRef .tc main_arg11)) = W5 m ρ c (Proc.devRef .tc main_arg11) :=
  (W6_arr m ρ c 4).trans (((dat2 (V5 m ρ) c).arrAt_in 4 rfl _).trans (A_eq2 (V5 m ρ) c 4))
theorem keepIn2_5 : W6 m ρ c (no_index (Proc.devRef .tc main_v30)) = W5 m ρ c (Proc.devRef .tc main_v30) :=
  (W6_arr m ρ c 5).trans (((dat2 (V5 m ρ) c).arrAt_in 5 rfl _).trans (A_eq2 (V5 m ρ) c 5))
theorem keepIn3_0 : W8 m ρ c (no_index (Proc.devRef .tc main_v42)) = W7 m ρ c (Proc.devRef .tc main_v42) :=
  (W8_arr m ρ c 0).trans (((dat3 (V7 m ρ) c).arrAt_in 0 rfl _).trans (A_eq3 (V7 m ρ) c 0))
theorem keepIn3_1 : W8 m ρ c (no_index (Proc.devRef .tc main_v18)) = W7 m ρ c (Proc.devRef .tc main_v18) :=
  (W8_arr m ρ c 1).trans (((dat3 (V7 m ρ) c).arrAt_in 1 rfl _).trans (A_eq3 (V7 m ρ) c 1))
theorem keepIn3_2 : W8 m ρ c (no_index (Proc.devRef .tc main_v1)) = W7 m ρ c (Proc.devRef .tc main_v1) :=
  (W8_arr m ρ c 2).trans (((dat3 (V7 m ρ) c).arrAt_in 2 rfl _).trans (A_eq3 (V7 m ρ) c 2))
theorem keepIn3_3 : W8 m ρ c (no_index (Proc.devRef .tc main_arg13)) = W7 m ρ c (Proc.devRef .tc main_arg13) :=
  (W8_arr m ρ c 3).trans (((dat3 (V7 m ρ) c).arrAt_in 3 rfl _).trans (A_eq3 (V7 m ρ) c 3))
theorem keepIn3_4 : W8 m ρ c (no_index (Proc.devRef .tc main_arg14)) = W7 m ρ c (Proc.devRef .tc main_arg14) :=
  (W8_arr m ρ c 4).trans (((dat3 (V7 m ρ) c).arrAt_in 4 rfl _).trans (A_eq3 (V7 m ρ) c 4))
theorem keepIn3_5 : W8 m ρ c (no_index (Proc.devRef .tc main_v43)) = W7 m ρ c (Proc.devRef .tc main_v43) :=
  (W8_arr m ρ c 5).trans (((dat3 (V7 m ρ) c).arrAt_in 5 rfl _).trans (A_eq3 (V7 m ρ) c 5))
theorem keepIn4_0 : W10 m ρ c (no_index (Proc.devRef .tc main_v55)) = W9 m ρ c (Proc.devRef .tc main_v55) :=
  (W10_arr m ρ c 0).trans (((dat4 (V9 m ρ) c).arrAt_in 0 rfl _).trans (A_eq4 (V9 m ρ) c 0))
theorem keepIn4_1 : W10 m ρ c (no_index (Proc.devRef .tc main_v16)) = W9 m ρ c (Proc.devRef .tc main_v16) :=
  (W10_arr m ρ c 1).trans (((dat4 (V9 m ρ) c).arrAt_in 1 rfl _).trans (A_eq4 (V9 m ρ) c 1))
theorem keepIn4_2 : W10 m ρ c (no_index (Proc.devRef .tc main_v31)) = W9 m ρ c (Proc.devRef .tc main_v31) :=
  (W10_arr m ρ c 2).trans (((dat4 (V9 m ρ) c).arrAt_in 2 rfl _).trans (A_eq4 (V9 m ρ) c 2))
theorem keepIn4_3 : W10 m ρ c (no_index (Proc.devRef .tc main_arg16)) = W9 m ρ c (Proc.devRef .tc main_arg16) :=
  (W10_arr m ρ c 3).trans (((dat4 (V9 m ρ) c).arrAt_in 3 rfl _).trans (A_eq4 (V9 m ρ) c 3))
theorem keepIn4_4 : W10 m ρ c (no_index (Proc.devRef .tc main_arg17)) = W9 m ρ c (Proc.devRef .tc main_arg17) :=
  (W10_arr m ρ c 4).trans (((dat4 (V9 m ρ) c).arrAt_in 4 rfl _).trans (A_eq4 (V9 m ρ) c 4))
theorem keepIn4_5 : W10 m ρ c (no_index (Proc.devRef .tc main_v56)) = W9 m ρ c (Proc.devRef .tc main_v56) :=
  (W10_arr m ρ c 5).trans (((dat4 (V9 m ρ) c).arrAt_in 5 rfl _).trans (A_eq4 (V9 m ρ) c 5))
theorem keepIn5_0 : W12 m ρ c (no_index (Proc.devRef .tc main_v68)) = W11 m ρ c (Proc.devRef .tc main_v68) :=
  (W12_arr m ρ c 0).trans (((dat5 (V11 m ρ) c).arrAt_in 0 rfl _).trans (A_eq5 (V11 m ρ) c 0))
theorem keepIn5_1 : W12 m ρ c (no_index (Proc.devRef .tc main_v18)) = W11 m ρ c (Proc.devRef .tc main_v18) :=
  (W12_arr m ρ c 1).trans (((dat5 (V11 m ρ) c).arrAt_in 1 rfl _).trans (A_eq5 (V11 m ρ) c 1))
theorem keepIn5_2 : W12 m ρ c (no_index (Proc.devRef .tc main_v44)) = W11 m ρ c (Proc.devRef .tc main_v44) :=
  (W12_arr m ρ c 2).trans (((dat5 (V11 m ρ) c).arrAt_in 2 rfl _).trans (A_eq5 (V11 m ρ) c 2))
theorem keepIn5_3 : W12 m ρ c (no_index (Proc.devRef .tc main_arg19)) = W11 m ρ c (Proc.devRef .tc main_arg19) :=
  (W12_arr m ρ c 3).trans (((dat5 (V11 m ρ) c).arrAt_in 3 rfl _).trans (A_eq5 (V11 m ρ) c 3))
theorem keepIn5_4 : W12 m ρ c (no_index (Proc.devRef .tc main_arg20)) = W11 m ρ c (Proc.devRef .tc main_arg20) :=
  (W12_arr m ρ c 4).trans (((dat5 (V11 m ρ) c).arrAt_in 4 rfl _).trans (A_eq5 (V11 m ρ) c 4))
theorem keepIn5_5 : W12 m ρ c (no_index (Proc.devRef .tc main_v69)) = W11 m ρ c (Proc.devRef .tc main_v69) :=
  (W12_arr m ρ c 5).trans (((dat5 (V11 m ρ) c).arrAt_in 5 rfl _).trans (A_eq5 (V11 m ρ) c 5))
theorem keepIn6_0 : W14 m ρ c (no_index (Proc.devRef .tc main_v70)) = W13 m ρ c (Proc.devRef .tc main_v70) :=
  (W14_arr m ρ c 0).trans (((dat6 (V13 m ρ) c).arrAt_in 0 rfl _).trans (A_eq6 (V13 m ρ) c 0))
theorem keepIn6_1 : W14 m ρ c (no_index (Proc.devRef .tc main_v71)) = W13 m ρ c (Proc.devRef .tc main_v71) :=
  (W14_arr m ρ c 1).trans (((dat6 (V13 m ρ) c).arrAt_in 1 rfl _).trans (A_eq6 (V13 m ρ) c 1))
theorem keepIn6_2 : W14 m ρ c (no_index (Proc.devRef .tc main_v74)) = W13 m ρ c (Proc.devRef .tc main_v74) :=
  (W14_arr m ρ c 2).trans (((dat6 (V13 m ρ) c).arrAt_in 2 rfl _).trans (A_eq6 (V13 m ρ) c 2))
theorem keepIn7_0 : W16 m ρ c (no_index (Proc.devRef .tc main_v57)) = W15 m ρ c (Proc.devRef .tc main_v57) :=
  (W16_arr m ρ c 0).trans (((dat7 (V15 m ρ) c).arrAt_in 0 rfl _).trans (A_eq7 (V15 m ρ) c 0))
theorem keepIn7_1 : W16 m ρ c (no_index (Proc.devRef .tc main_v72)) = W15 m ρ c (Proc.devRef .tc main_v72) :=
  (W16_arr m ρ c 1).trans (((dat7 (V15 m ρ) c).arrAt_in 1 rfl _).trans (A_eq7 (V15 m ρ) c 1))
theorem keepIn7_2 : W16 m ρ c (no_index (Proc.devRef .tc main_v76)) = W15 m ρ c (Proc.devRef .tc main_v76) :=
  (W16_arr m ρ c 2).trans (((dat7 (V15 m ρ) c).arrAt_in 2 rfl _).trans (A_eq7 (V15 m ρ) c 2))

/-- A buffer's contents at a segment boundary, walked back through the stretches of host operations (each operation's
    result at its own buffer is its function of its operands, at any other buffer what was there) and through the regions
    (a buffer that is not one of a region's arrays is as the region found it). -/
syntax "walk" (" [" Lean.Parser.Tactic.simpLemma,* "]")? : tactic
macro_rules
  | `(tactic| walk [$ls,*]) => `(tactic| simp (disch := decide) only [V1, V3, V5, V7, V9, V11, V13, V15, W1, W3, W5, W7, W9, W11, W13, W15, W17,
      hostOps0, hostOps1, hostOps2, hostOps3, hostOps4, hostOps5, hostOps6, hostOps7, hostOps8,
      after_cons, after_nil, nullary_result', unary_result', binary_result', ternary_result', quaternary_result', reshape_result',
      nullary_result_ne', unary_result_ne', binary_result_ne', ternary_result_ne', quaternary_result_ne', reshape_result_ne',
      keep0, keep1, keep2, keep3, keep4, keep5, keep6, keep7,
      keepIn0_0, keepIn0_1, keepIn0_2, keepIn1_0, keepIn1_1, keepIn1_2, keepIn2_0, keepIn2_1, keepIn2_2, keepIn2_3, keepIn2_4, keepIn2_5, keepIn3_0, keepIn3_1, keepIn3_2, keepIn3_3, keepIn3_4, keepIn3_5, keepIn4_0, keepIn4_1, keepIn4_2, keepIn4_3, keepIn4_4, keepIn4_5, keepIn5_0, keepIn5_1, keepIn5_2, keepIn5_3, keepIn5_4, keepIn5_5, keepIn6_0, keepIn6_1, keepIn6_2, keepIn7_0, keepIn7_1, keepIn7_2, $ls,*])
  | `(tactic| walk) => `(tactic| walk [])

/-- A buffer at the launch boundary holds what the launch memory holds. -/
theorem at_launch (b : Ref sig .tc) : W0 m ρ c (no_index (Proc.devRef .tc b)) = m ((c : Thread nD τ).loc b) := rfl

/-- The network's inputs and weights: the argument arrays as launched. -/
def netK : Net where
  xL := m ((c : Thread nD τ).loc main_arg0)
  xR := m ((c : Thread nD τ).loc main_arg1)
  wL := m ((c : Thread nD τ).loc main_arg6)
  bL := m ((c : Thread nD τ).loc main_arg7)
  wR := m ((c : Thread nD τ).loc main_arg8)
  bR := m ((c : Thread nD τ).loc main_arg9)
  l1rWl := m ((c : Thread nD τ).loc main_arg10)
  l1rWr := m ((c : Thread nD τ).loc main_arg11)
  l1rb := m ((c : Thread nD τ).loc main_arg12)
  l1lWl := m ((c : Thread nD τ).loc main_arg13)
  l1lWr := m ((c : Thread nD τ).loc main_arg14)
  l1lb := m ((c : Thread nD τ).loc main_arg15)
  l2rWl := m ((c : Thread nD τ).loc main_arg16)
  l2rWr := m ((c : Thread nD τ).loc main_arg17)
  l2rb := m ((c : Thread nD τ).loc main_arg18)
  l2lWl := m ((c : Thread nD τ).loc main_arg19)
  l2lWr := m ((c : Thread nD τ).loc main_arg20)
  l2lb := m ((c : Thread nD τ).loc main_arg21)
  wC := m ((c : Thread nD τ).loc main_arg22)
  bC := m ((c : Thread nD τ).loc main_arg23)

/-- The graph: rows collected along the edges by the host's row gather at the edge's node (a negative index counted from
    the end), rows summed into nodes and edges counted by the host's accumulating scatter from zero, and the two nodes of a
    pair as the row the host's gather reads for it. -/
def graphK : Graph where
  gatherL X := Host.gather gather_S50000x64_S2000000x1_S2000000x64_1_0_n_n_0_1_164 X
      (broadcastInDim S2000000x1 ![0] bcast_S2000000_S2000000x1_0
        (select (cmpi .slt (m ((c : Thread nD τ).loc main_arg2) : IVec S2000000 32) (broadcastInDim S2000000 ![] bcast_S_S2000000 (constantI S_ 32 0#32)))
          (addi (m ((c : Thread nD τ).loc main_arg2) : IVec S2000000 32) (broadcastInDim S2000000 ![] bcast_S_S2000000 (constantI S_ 32 50000#32))) (m ((c : Thread nD τ).loc main_arg2) : IVec S2000000 32)))
  gatherR X := Host.gather gather_S20000x64_S2000000x1_S2000000x64_1_0_n_n_0_1_164 X
      (broadcastInDim S2000000x1 ![0] bcast_S2000000_S2000000x1_0
        (select (cmpi .slt (m ((c : Thread nD τ).loc main_arg3) : IVec S2000000 32) (broadcastInDim S2000000 ![] bcast_S_S2000000 (constantI S_ 32 0#32)))
          (addi (m ((c : Thread nD τ).loc main_arg3) : IVec S2000000 32) (broadcastInDim S2000000 ![] bcast_S_S2000000 (constantI S_ 32 20000#32))) (m ((c : Thread nD τ).loc main_arg3) : IVec S2000000 32)))
  segsumR U := Host.scatterAdd (F := Ideal) scatter_S20000x64_S2000000x1_S2000000x64_1_0_0_1
      (broadcastInDim S20000x64 ![] bcast_S_S20000x64 (constant S_ .f32 0x00000000#32))
      (broadcastInDim S2000000x1 ![0] bcast_S2000000_S2000000x1_0 (m ((c : Thread nD τ).loc main_arg3) : IVec S2000000 32)) U
  segsumL U := Host.scatterAdd (F := Ideal) scatter_S50000x64_S2000000x1_S2000000x64_1_0_0_1
      (broadcastInDim S50000x64 ![] bcast_S_S50000x64 (constant S_ .f32 0x00000000#32))
      (broadcastInDim S2000000x1 ![0] bcast_S2000000_S2000000x1_0 (m ((c : Thread nD τ).loc main_arg2) : IVec S2000000 32)) U
  countR := Host.scatterAdd (F := Ideal) scatter_S20000x1_S2000000x1_S2000000x1_1_0_0_1
      (broadcastInDim S20000x1 ![] bcast_S_S20000x1 (constant S_ .f32 0x00000000#32))
      (broadcastInDim S2000000x1 ![0] bcast_S2000000_S2000000x1_0 (m ((c : Thread nD τ).loc main_arg3) : IVec S2000000 32))
      (broadcastInDim S2000000x1 ![] bcast_S_S2000000x1 (constant S_ .f32 0x3F800000#32))
  countL := Host.scatterAdd (F := Ideal) scatter_S50000x1_S2000000x1_S2000000x1_1_0_0_1
      (broadcastInDim S50000x1 ![] bcast_S_S50000x1 (constant S_ .f32 0x00000000#32))
      (broadcastInDim S2000000x1 ![0] bcast_S2000000_S2000000x1_0 (m ((c : Thread nD τ).loc main_arg2) : IVec S2000000 32))
      (broadcastInDim S2000000x1 ![] bcast_S_S2000000x1 (constant S_ .f32 0x3F800000#32))
  pairL e := ⟨min (((broadcastInDim S500000x1 ![0] bcast_S500000_S500000x1_0
        (select (cmpi .slt (m ((c : Thread nD τ).loc main_arg4) : IVec S500000 32) (broadcastInDim S500000 ![] bcast_S_S500000 (constantI S_ 32 0#32)))
          (addi (m ((c : Thread nD τ).loc main_arg4) : IVec S500000 32) (broadcastInDim S500000 ![] bcast_S_S500000 (constantI S_ 32 50000#32))) (m ((c : Thread nD τ).loc main_arg4) : IVec S500000 32))) : IVec S500000x1 32) (ix2 e (0 : Fin 1))).toInt.toNat (50000 - 1), by omega⟩
  pairR e := ⟨min (((broadcastInDim S500000x1 ![0] bcast_S500000_S500000x1_0
        (select (cmpi .slt (m ((c : Thread nD τ).loc main_arg5) : IVec S500000 32) (broadcastInDim S500000 ![] bcast_S_S500000 (constantI S_ 32 0#32)))
          (addi (m ((c : Thread nD τ).loc main_arg5) : IVec S500000 32) (broadcastInDim S500000 ![] bcast_S_S500000 (constantI S_ 32 20000#32))) (m ((c : Thread nD τ).loc main_arg5) : IVec S500000 32))) : IVec S500000x1 32) (ix2 e (0 : Fin 1))).toInt.toNat (20000 - 1), by omega⟩

local notation "𝔤" => graphK m c
local notation "𝔫" => netK m c

set_option maxHeartbeats 1000000 in
theorem in0_0 : V1 m ρ c main_arg0 = (𝔫).xL := by
  walk [at_launch]
  first | done | rfl
set_option maxHeartbeats 1000000 in
theorem in0_1 : V1 m ρ c main_arg6 = (𝔫).wL := by
  walk [at_launch]
  first | done | rfl
set_option maxHeartbeats 1000000 in
theorem in0_2 : V1 m ρ c main_v0 = shapeCast S1x64 (𝔫).bL shapeCasts_S64_S1x64 := by
  walk [at_launch]
  first | done | rfl

/-- After region 0 its result holds the left nodes' first rows. -/
theorem o0 : W2 m ρ c (no_index (Proc.devRef .tc main_v1)) = hL 𝔫 :=
  (W2_arr m ρ c 3).trans ((Region0.final (V1 m ρ) c).trans
    ((layerArr_congr (in0_0 m ρ c) (in0_1 m ρ c) (congrArg unrow (in0_2 m ρ c))).trans
      (layerArr_congr rfl rfl (unrow_cast _ _))))
set_option maxHeartbeats 1000000 in
theorem in1_0 : V3 m ρ c main_arg1 = (𝔫).xR := by
  walk [at_launch]
  first | done | rfl
set_option maxHeartbeats 1000000 in
theorem in1_1 : V3 m ρ c main_arg8 = (𝔫).wR := by
  walk [at_launch]
  first | done | rfl
set_option maxHeartbeats 1000000 in
theorem in1_2 : V3 m ρ c main_v2 = shapeCast S1x64 (𝔫).bR shapeCasts_S64_S1x64 := by
  walk [at_launch]
  first | done | rfl

/-- After region 1 its result holds the right nodes' first rows. -/
theorem o1 : W4 m ρ c (no_index (Proc.devRef .tc main_v3)) = hR 𝔫 :=
  (W4_arr m ρ c 3).trans ((Region1.final (V3 m ρ) c).trans
    ((layerArr_congr (in1_0 m ρ c) (in1_1 m ρ c) (congrArg unrow (in1_2 m ρ c))).trans
      (layerArr_congr rfl rfl (unrow_cast _ _))))
set_option maxHeartbeats 1000000 in
theorem in2_0 : V5 m ρ c main_v29 = (𝔤).segsumR ((𝔤).gatherL (hL 𝔫)) := by
  walk [at_launch, o0]
  rfl
set_option maxHeartbeats 1000000 in
theorem in2_1 : V5 m ρ c main_v16 = recipCol (floorOne (𝔤).countR) := by
  walk [at_launch]
  exact recip_host bcast_S_S20000x1 _
set_option maxHeartbeats 1000000 in
theorem in2_2 : V5 m ρ c main_v3 = hR 𝔫 := by
  walk [at_launch, o1]
  first | done | rfl
set_option maxHeartbeats 1000000 in
theorem in2_3 : V5 m ρ c main_arg10 = (𝔫).l1rWl := by
  walk [at_launch]
  first | done | rfl
set_option maxHeartbeats 1000000 in
theorem in2_4 : V5 m ρ c main_arg11 = (𝔫).l1rWr := by
  walk [at_launch]
  first | done | rfl
set_option maxHeartbeats 1000000 in
theorem in2_5 : V5 m ρ c main_v30 = shapeCast S1x64 (𝔫).l1rb shapeCasts_S64_S1x64 := by
  walk [at_launch]
  first | done | rfl

/-- After region 2 its result holds the right nodes' rows after the first round. -/
theorem o2 : W6 m ρ c (no_index (Proc.devRef .tc main_v31)) = r1K 𝔤 𝔫 :=
  (W6_arr m ρ c 6).trans ((Region2.final (V5 m ρ) c).trans
    ((combine_congr (in2_0 m ρ c) (in2_1 m ρ c) (in2_2 m ρ c) (in2_3 m ρ c) (in2_4 m ρ c) (in2_5 m ρ c)).trans
      ((roundK_eq_combine _ _ _ _ _ _).symm.trans (congrArg (roundK _ _ _ _ _) (unrow_cast _ _)))))
set_option maxHeartbeats 1000000 in
theorem in3_0 : V7 m ρ c main_v42 = (𝔤).segsumL ((𝔤).gatherR (hR 𝔫)) := by
  walk [at_launch, o1]
  rfl
set_option maxHeartbeats 1000000 in
theorem in3_1 : V7 m ρ c main_v18 = recipCol (floorOne (𝔤).countL) := by
  walk [at_launch]
  exact recip_host bcast_S_S50000x1 _
set_option maxHeartbeats 1000000 in
theorem in3_2 : V7 m ρ c main_v1 = hL 𝔫 := by
  walk [at_launch, o0]
  first | done | rfl
set_option maxHeartbeats 1000000 in
theorem in3_3 : V7 m ρ c main_arg13 = (𝔫).l1lWl := by
  walk [at_launch]
  first | done | rfl
set_option maxHeartbeats 1000000 in
theorem in3_4 : V7 m ρ c main_arg14 = (𝔫).l1lWr := by
  walk [at_launch]
  first | done | rfl
set_option maxHeartbeats 1000000 in
theorem in3_5 : V7 m ρ c main_v43 = shapeCast S1x64 (𝔫).l1lb shapeCasts_S64_S1x64 := by
  walk [at_launch]
  first | done | rfl

/-- After region 3 its result holds the left nodes' rows after the first round. -/
theorem o3 : W8 m ρ c (no_index (Proc.devRef .tc main_v44)) = l1K 𝔤 𝔫 :=
  (W8_arr m ρ c 6).trans ((Region3.final (V7 m ρ) c).trans
    ((combine_congr (in3_0 m ρ c) (in3_1 m ρ c) (in3_2 m ρ c) (in3_3 m ρ c) (in3_4 m ρ c) (in3_5 m ρ c)).trans
      ((roundK_eq_combine _ _ _ _ _ _).symm.trans (congrArg (roundK _ _ _ _ _) (unrow_cast _ _)))))
set_option maxHeartbeats 1000000 in
theorem in4_0 : V9 m ρ c main_v55 = (𝔤).segsumR ((𝔤).gatherL (l1K 𝔤 𝔫)) := by
  walk [at_launch, o3]
  rfl
set_option maxHeartbeats 1000000 in
theorem in4_1 : V9 m ρ c main_v16 = recipCol (floorOne (𝔤).countR) := by
  walk [at_launch]
  exact recip_host bcast_S_S20000x1 _
set_option maxHeartbeats 1000000 in
theorem in4_2 : V9 m ρ c main_v31 = r1K 𝔤 𝔫 := by
  walk [at_launch, o2]
  first | done | rfl
set_option maxHeartbeats 1000000 in
theorem in4_3 : V9 m ρ c main_arg16 = (𝔫).l2rWl := by
  walk [at_launch]
  first | done | rfl
set_option maxHeartbeats 1000000 in
theorem in4_4 : V9 m ρ c main_arg17 = (𝔫).l2rWr := by
  walk [at_launch]
  first | done | rfl
set_option maxHeartbeats 1000000 in
theorem in4_5 : V9 m ρ c main_v56 = shapeCast S1x64 (𝔫).l2rb shapeCasts_S64_S1x64 := by
  walk [at_launch]
  first | done | rfl

/-- After region 4 its result holds the right nodes' rows after the second round. -/
theorem o4 : W10 m ρ c (no_index (Proc.devRef .tc main_v57)) = r2K 𝔤 𝔫 :=
  (W10_arr m ρ c 6).trans ((Region4.final (V9 m ρ) c).trans
    ((combine_congr (in4_0 m ρ c) (in4_1 m ρ c) (in4_2 m ρ c) (in4_3 m ρ c) (in4_4 m ρ c) (in4_5 m ρ c)).trans
      ((roundK_eq_combine _ _ _ _ _ _).symm.trans (congrArg (roundK _ _ _ _ _) (unrow_cast _ _)))))
set_option maxHeartbeats 1000000 in
theorem in5_0 : V11 m ρ c main_v68 = (𝔤).segsumL ((𝔤).gatherR (r1K 𝔤 𝔫)) := by
  walk [at_launch, o2]
  rfl
set_option maxHeartbeats 1000000 in
theorem in5_1 : V11 m ρ c main_v18 = recipCol (floorOne (𝔤).countL) := by
  walk [at_launch]
  exact recip_host bcast_S_S50000x1 _
set_option maxHeartbeats 1000000 in
theorem in5_2 : V11 m ρ c main_v44 = l1K 𝔤 𝔫 := by
  walk [at_launch, o3]
  first | done | rfl
set_option maxHeartbeats 1000000 in
theorem in5_3 : V11 m ρ c main_arg19 = (𝔫).l2lWl := by
  walk [at_launch]
  first | done | rfl
set_option maxHeartbeats 1000000 in
theorem in5_4 : V11 m ρ c main_arg20 = (𝔫).l2lWr := by
  walk [at_launch]
  first | done | rfl
set_option maxHeartbeats 1000000 in
theorem in5_5 : V11 m ρ c main_v69 = shapeCast S1x64 (𝔫).l2lb shapeCasts_S64_S1x64 := by
  walk [at_launch]
  first | done | rfl

/-- After region 5 its result holds the left nodes' rows after the second round. -/
theorem o5 : W12 m ρ c (no_index (Proc.devRef .tc main_v70)) = l2K 𝔤 𝔫 :=
  (W12_arr m ρ c 6).trans ((Region5.final (V11 m ρ) c).trans
    ((combine_congr (in5_0 m ρ c) (in5_1 m ρ c) (in5_2 m ρ c) (in5_3 m ρ c) (in5_4 m ρ c) (in5_5 m ρ c)).trans
      ((roundK_eq_combine _ _ _ _ _ _).symm.trans (congrArg (roundK _ _ _ _ _) (unrow_cast _ _)))))
set_option maxHeartbeats 1000000 in
theorem in6_0 : V13 m ρ c main_v70 = l2K 𝔤 𝔫 := by
  walk [at_launch, o5]
  first | done | rfl
set_option maxHeartbeats 1000000 in
theorem in6_1 : V13 m ρ c main_v71 = topHalf (𝔫).wC := by
  walk [at_launch]
  exact top_host _ slices_S128x2_S64x2_0_0
set_option maxHeartbeats 1000000 in
theorem in6_2 : V13 m ρ c main_v74
    = shapeCast S1x2 (broadcastInDim S2 ![] bcast_S_S2 (constant (F := Ideal) S_ .f32 0x00000000#32)) shapeCasts_S2_S1x2 := by
  walk [at_launch]
  first | done | rfl

/-- After region 6 its result holds the left nodes' half classifier. -/
theorem o6 : W14 m ρ c (no_index (Proc.devRef .tc main_v75)) = layerArr (l2K 𝔤 𝔫) (topHalf (𝔫).wC) zeroRow :=
  (W14_arr m ρ c 3).trans ((Region6.final (V13 m ρ) c).trans
    ((layerArr_congr (in6_0 m ρ c) (in6_1 m ρ c) (congrArg unrow (in6_2 m ρ c))).trans
      (layerArr_congr rfl rfl (zero_row_host _ _))))
set_option maxHeartbeats 1000000 in
theorem in7_0 : V15 m ρ c main_v57 = r2K 𝔤 𝔫 := by
  walk [at_launch, o4]
  first | done | rfl
set_option maxHeartbeats 1000000 in
theorem in7_1 : V15 m ρ c main_v72 = botHalf (𝔫).wC := by
  walk [at_launch]
  exact bot_host _ slices_S128x2_S64x2_64_0
set_option maxHeartbeats 1000000 in
theorem in7_2 : V15 m ρ c main_v76 = shapeCast S1x2 (𝔫).bC shapeCasts_S2_S1x2 := by
  walk [at_launch]
  first | done | rfl

/-- After region 7 its result holds the right nodes' half classifier. -/
theorem o7 : W16 m ρ c (no_index (Proc.devRef .tc main_v77)) = layerArr (r2K 𝔤 𝔫) (botHalf (𝔫).wC) (𝔫).bC :=
  (W16_arr m ρ c 3).trans ((Region7.final (V15 m ρ) c).trans
    ((layerArr_congr (in7_0 m ρ c) (in7_1 m ρ c) (congrArg unrow (in7_2 m ρ c))).trans
      (layerArr_congr rfl rfl (unrow_cast _ _))))

/-- The two last gathers' dimension records are the row gather's. -/
theorem gatherPL : gather_S50000x2_S500000x1_S500000x2_1_0_n_n_0_1_12
    = Cert.RowIndex.rowGatherDims 50000 500000 2 gather_S50000x2_S500000x1_S500000x2_1_0_n_n_0_1_12_wf := rfl
theorem gatherPR : gather_S20000x2_S500000x1_S500000x2_1_0_n_n_0_1_12
    = Cert.RowIndex.rowGatherDims 20000 500000 2 gather_S20000x2_S500000x1_S500000x2_1_0_n_n_0_1_12_wf := rfl

set_option maxHeartbeats 1000000 in
/-- THE RESULT ARRAY at the last boundary is the network with the mean as a product, of the arguments as launched. -/
theorem out_eq : W17 m ρ c (Proc.devRef .tc main_v92) = outK 𝔤 𝔫 := by
  walk [at_launch, o6, o7]
  rw [gatherPL, gatherPR, gather_rows (by decide), gather_rows (by decide)]
  rfl

end Cert.KernelIdeal.FoldValue

end
-- ==== Proof.RefRun.lean ====
/-
  THE REFERENCE PROGRAM'S RESULT AS ONE FUNCTION OF ITS ARGUMENTS, at the ideal values.

  The reference is one straight line of host operations, and the composed term its run leaves in the result array is read
  here bottom up as the network with the mean taken as a quotient (`outR`): each product of an array with a weight matrix
  plus a bias broadcast over the rows is a dense layer; each count column floored at the constant one, broadcast over the
  rows and divided into the summed rows is the rows divided by the floored counts; each rectified sum of two such products
  and a bias is one round; the two gathers at the pairs' nodes read rows, the concatenate sets them side by side, and the
  last product and bias are the classifier on the joined rows.  How rows travel along the edges — the gathers at the
  edges' nodes and the accumulating scatters — is left as it is written: it is the graph the network is stated over.
-/
import proofs.«179018_j25391846654580_2_alg».proof.Proof.Gen.ReferenceIdeal.Run
import proofs.«179018_j25391846654580_2_alg».proof.Proof.HostForms

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open Cert.DenseRow Cert.RowBias Cert.ProdRows Cert.PairLayer Cert.PlainDot Cert.Sage

variable (m : (ℓ : Loc nD τ sig) → Buf (Elt Ideal) ℓ) (c : Dev nD)

/-- The network's inputs and weights: the argument arrays as launched. -/
def netR : Net where
  xL := m ((c.tc : Thread nD τ).loc main_arg0)
  xR := m ((c.tc : Thread nD τ).loc main_arg1)
  wL := m ((c.tc : Thread nD τ).loc main_arg6)
  bL := m ((c.tc : Thread nD τ).loc main_arg7)
  wR := m ((c.tc : Thread nD τ).loc main_arg8)
  bR := m ((c.tc : Thread nD τ).loc main_arg9)
  l1rWl := m ((c.tc : Thread nD τ).loc main_arg10)
  l1rWr := m ((c.tc : Thread nD τ).loc main_arg11)
  l1rb := m ((c.tc : Thread nD τ).loc main_arg12)
  l1lWl := m ((c.tc : Thread nD τ).loc main_arg13)
  l1lWr := m ((c.tc : Thread nD τ).loc main_arg14)
  l1lb := m ((c.tc : Thread nD τ).loc main_arg15)
  l2rWl := m ((c.tc : Thread nD τ).loc main_arg16)
  l2rWr := m ((c.tc : Thread nD τ).loc main_arg17)
  l2rb := m ((c.tc : Thread nD τ).loc main_arg18)
  l2lWl := m ((c.tc : Thread nD τ).loc main_arg19)
  l2lWr := m ((c.tc : Thread nD τ).loc main_arg20)
  l2lb := m ((c.tc : Thread nD τ).loc main_arg21)
  wC := m ((c.tc : Thread nD τ).loc main_arg22)
  bC := m ((c.tc : Thread nD τ).loc main_arg23)

/-- The graph: rows collected along the edges by the host's row gather at the edge's node (a negative index counted from
    the end), rows summed into nodes and edges counted by the host's accumulating scatter from zero, and the two nodes of a
    pair as the row the host's gather reads for it. -/
def graphR : Graph where
  gatherL X := Host.gather gather_S50000x64_S2000000x1_S2000000x64_1_0_n_n_0_1_164 X
      (broadcastInDim S2000000x1 ![0] bcast_S2000000_S2000000x1_0
        (select (cmpi .slt (m ((c.tc : Thread nD τ).loc main_arg2) : IVec S2000000 32) (broadcastInDim S2000000 ![] bcast_S_S2000000 (constantI S_ 32 0#32)))
          (addi (m ((c.tc : Thread nD τ).loc main_arg2) : IVec S2000000 32) (broadcastInDim S2000000 ![] bcast_S_S2000000 (constantI S_ 32 50000#32))) (m ((c.tc : Thread nD τ).loc main_arg2) : IVec S2000000 32)))
  gatherR X := Host.gather gather_S20000x64_S2000000x1_S2000000x64_1_0_n_n_0_1_164 X
      (broadcastInDim S2000000x1 ![0] bcast_S2000000_S2000000x1_0
        (select (cmpi .slt (m ((c.tc : Thread nD τ).loc main_arg3) : IVec S2000000 32) (broadcastInDim S2000000 ![] bcast_S_S2000000 (constantI S_ 32 0#32)))
          (addi (m ((c.tc : Thread nD τ).loc main_arg3) : IVec S2000000 32) (broadcastInDim S2000000 ![] bcast_S_S2000000 (constantI S_ 32 20000#32))) (m ((c.tc : Thread nD τ).loc main_arg3) : IVec S2000000 32)))
  segsumR U := Host.scatterAdd (F := Ideal) scatter_S20000x64_S2000000x1_S2000000x64_1_0_0_1
      (broadcastInDim S20000x64 ![] bcast_S_S20000x64 (constant S_ .f32 0x00000000#32))
      (broadcastInDim S2000000x1 ![0] bcast_S2000000_S2000000x1_0 (m ((c.tc : Thread nD τ).loc main_arg3) : IVec S2000000 32)) U
  segsumL U := Host.scatterAdd (F := Ideal) scatter_S50000x64_S2000000x1_S2000000x64_1_0_0_1
      (broadcastInDim S50000x64 ![] bcast_S_S50000x64 (constant S_ .f32 0x00000000#32))
      (broadcastInDim S2000000x1 ![0] bcast_S2000000_S2000000x1_0 (m ((c.tc : Thread nD τ).loc main_arg2) : IVec S2000000 32)) U
  countR := Host.scatterAdd (F := Ideal) scatter_S20000x1_S2000000x1_S2000000x1_1_0_0_1
      (broadcastInDim S20000x1 ![] bcast_S_S20000x1 (constant S_ .f32 0x00000000#32))
      (broadcastInDim S2000000x1 ![0] bcast_S2000000_S2000000x1_0 (m ((c.tc : Thread nD τ).loc main_arg3) : IVec S2000000 32))
      (broadcastInDim S2000000x1 ![] bcast_S_S2000000x1 (constant S_ .f32 0x3F800000#32))
  countL := Host.scatterAdd (F := Ideal) scatter_S50000x1_S2000000x1_S2000000x1_1_0_0_1
      (broadcastInDim S50000x1 ![] bcast_S_S50000x1 (constant S_ .f32 0x00000000#32))
      (broadcastInDim S2000000x1 ![0] bcast_S2000000_S2000000x1_0 (m ((c.tc : Thread nD τ).loc main_arg2) : IVec S2000000 32))
      (broadcastInDim S2000000x1 ![] bcast_S_S2000000x1 (constant S_ .f32 0x3F800000#32))
  pairL e := ⟨min (((broadcastInDim S500000x1 ![0] bcast_S500000_S500000x1_0
        (select (cmpi .slt (m ((c.tc : Thread nD τ).loc main_arg4) : IVec S500000 32) (broadcastInDim S500000 ![] bcast_S_S500000 (constantI S_ 32 0#32)))
          (addi (m ((c.tc : Thread nD τ).loc main_arg4) : IVec S500000 32) (broadcastInDim S500000 ![] bcast_S_S500000 (constantI S_ 32 50000#32))) (m ((c.tc : Thread nD τ).loc main_arg4) : IVec S500000 32))) : IVec S500000x1 32) (ix2 e (0 : Fin 1))).toInt.toNat (50000 - 1), by omega⟩
  pairR e := ⟨min (((broadcastInDim S500000x1 ![0] bcast_S500000_S500000x1_0
        (select (cmpi .slt (m ((c.tc : Thread nD τ).loc main_arg5) : IVec S500000 32) (broadcastInDim S500000 ![] bcast_S_S500000 (constantI S_ 32 0#32)))
          (addi (m ((c.tc : Thread nD τ).loc main_arg5) : IVec S500000 32) (broadcastInDim S500000 ![] bcast_S_S500000 (constantI S_ 32 20000#32))) (m ((c.tc : Thread nD τ).loc main_arg5) : IVec S500000 32))) : IVec S500000x1 32) (ix2 e (0 : Fin 1))).toInt.toNat (20000 - 1), by omega⟩

/-- The reference's dimension records are the plain products' and the row gathers'. -/
theorem dotA : dot_S50000x1024_S1024x64_S50000x64_1_0_0_1_n_n = DotDims.plain 50000 1024 64 := rfl
theorem dotB : dot_S20000x1024_S1024x64_S20000x64_1_0_0_1_n_n = DotDims.plain 20000 1024 64 := rfl
theorem dotC : dot_S20000x64_S64x64_S20000x64_1_0_0_1_n_n = DotDims.plain 20000 64 64 := rfl
theorem dotD : dot_S50000x64_S64x64_S50000x64_1_0_0_1_n_n = DotDims.plain 50000 64 64 := rfl
theorem dotE : dot_S500000x128_S128x2_S500000x2_1_0_0_1_n_n = DotDims.plain 500000 128 2 := rfl
theorem gatherPL : gather_S50000x64_S500000x1_S500000x64_1_0_n_n_0_1_164
    = Cert.RowIndex.rowGatherDims 50000 500000 64 gather_S50000x64_S500000x1_S500000x64_1_0_n_n_0_1_164_wf := rfl
theorem gatherPR : gather_S20000x64_S500000x1_S500000x64_1_0_n_n_0_1_164
    = Cert.RowIndex.rowGatherDims 20000 500000 64 gather_S20000x64_S500000x1_S500000x64_1_0_n_n_0_1_164_wf := rfl

set_option maxHeartbeats 2000000 in
/-- THE RESULT ARRAY'S COMPOSED TERM is the network with the mean as a quotient, of the arguments as launched. -/
theorem ref_eq : Cert.ReferenceIdeal.Value.res_main_v126 (F := Ideal) m c = outR (graphR m c) (netR m c) := by
  unfold Cert.ReferenceIdeal.Value.res_main_v126
  simp only [dotA, dotB, dotC, dotD, dotE, gatherPL, gatherPR, concatArr]
  repeat rw [hlayer]
  repeat rw [floor_host]
  repeat rw [div_col_host]
  repeat rw [hpair_relu]
  repeat rw [gather_rows (by decide)]
  rfl

end Cert.ReferenceIdeal.RefValue

end
-- ==== Proof.lean ====
/-
  THE CERTIFICATE.  The kernel program computes, on a bipartite graph, two rounds of mean aggregation and a classifier of
  node pairs; the reference computes the same network with the mean as a quotient  s / max(c, 1)  where the kernel
  multiplies by the reciprocal  s · (1 / max(c, 1)),  and with the classifier on the joined rows of a pair where the kernel
  adds two per-node half classifiers read at the pair's nodes.

  The three frames are the generated ones (the reference's is its generated run with the result dropped).  No operation
  was rewritten for the idealized kernel, so there is nothing to preserve.  For the values: the kernel program's run keeps
  its result array at the last boundary's contents (KRun), those contents are the network with the mean as a product of
  the arguments as launched (KFold, over the eight region modules); the reference's run leaves its composed term, which is
  the network with the mean as a quotient (RefRun); the two networks are one function (Spec: a quotient by something at
  least one is the product with its reciprocal for every extended real, and a sum over a joined row is the sum of the sums
  over its halves), and the two programs' graphs and weights are the same functions of arguments that agree.  Nothing is
  assumed finite: the precondition is never opened.
-/
import proofs.«179018_j25391846654580_2_alg».proof.Defs
import proofs.«179018_j25391846654580_2_alg».proof.Proof.Gen.Kernel
import proofs.«179018_j25391846654580_2_alg».proof.Proof.Gen.Kernel.Frame
import proofs.«179018_j25391846654580_2_alg».proof.Proof.Gen.KernelIdeal
import proofs.«179018_j25391846654580_2_alg».proof.Proof.Gen.KernelIdeal.Frame
import proofs.«179018_j25391846654580_2_alg».proof.Proof.Gen.ReferenceIdeal
import proofs.«179018_j25391846654580_2_alg».proof.Proof.Gen.Pre_finite_inputs
import proofs.«179018_j25391846654580_2_alg».proof.Proof.KRun
import proofs.«179018_j25391846654580_2_alg».proof.Proof.KFold
import proofs.«179018_j25391846654580_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 1000000 in
/-- Both programs end with the network's value of the arguments: one function of arguments that agree. -/
theorem algebraic : Cert.algebraic_KernelIdeal_ReferenceIdeal := by
  intro m ρ m' ρ' _ hagree
  refine ⟨fun c => Cert.Sage.outK (Cert.KernelIdeal.FoldValue.graphK m c) (Cert.KernelIdeal.FoldValue.netK m c), ?_, ?_⟩
  · exact (θ_run Cert.KernelIdeal.defs _ _).mono
      (fun r h c => ⟨(h c).1.trans (Cert.KernelIdeal.FoldValue.out_eq m ρ c), (h c).2⟩)
      (Cert.KernelIdeal.RunValue.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23⟩ := hagree c
    have hn : Cert.ReferenceIdeal.RefValue.netR m' c = Cert.KernelIdeal.FoldValue.netK m c := by
      unfold Cert.ReferenceIdeal.RefValue.netR
      rw [h0, h1, h6, h7, h8, h9, h10, h11, h12, h13, h14, h15, h16, h17, h18, h19, h20, h21, h22, h23]
      rfl
    have hg : Cert.ReferenceIdeal.RefValue.graphR m' c = Cert.KernelIdeal.FoldValue.graphK m c := by
      unfold Cert.ReferenceIdeal.RefValue.graphR
      simp only [h2, h3, h4, h5]
      first | done | rfl
    rw [Cert.ReferenceIdeal.RefValue.ref_eq, Cert.Sage.outR_eq, hn, hg]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
